-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x256x256 : Shape := ⟨3, ![8, 256, 256]⟩
abbrev S1x8x256 : Shape := ⟨3, ![1, 8, 256]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S1x8x256 : S_.BroadcastsInDim S1x8x256 (![] : Fin 0 → Fin S1x8x256.rank)
  reducesTo_S1x8x256_S_d0_1_2 : S1x8x256.ReducesTo [0, 1, 2] S_

variable [Facts]

def fn_part1 {F : FTy → Type} [FloatOps F] (main_arg4 : FVec F S1x8x256 .f32) (main_v13 : IVec S_ 1) (main_v16 : IVec S1x8x256 1) : IVec S_ 1 :=
  let main_c_5 : IVec S_ 1 := constantI S_ 1 1#1
  let main_v17 : IVec S_ 1 := (fun x v => Host.reduce IntOp.andi x v reducesTo_S1x8x256_S_d0_1_2 h_S_) main_v16 main_c_5
  let main_v18 : IVec S_ 1 := andi main_v13 main_v17
  let main_v19 : FVec F S1x8x256 .f32 := Host.absf main_arg4
  let main_cst_6 : FVec F S_ .f32 := constant S_ .f32 0x7F800000#32
  let main_v20 : FVec F S1x8x256 .f32 := broadcastInDim S1x8x256 ![] bcast_S_S1x8x256 main_cst_6
  let main_v21 : IVec S1x8x256 1 := cmpf .olt main_v19 main_v20
  let main_c_7 : IVec S_ 1 := constantI S_ 1 1#1
  let main_v22 : IVec S_ 1 := (fun x v => Host.reduce IntOp.andi x v reducesTo_S1x8x256_S_d0_1_2 h_S_) main_v21 main_c_7
  let main_v23 : IVec S_ 1 := andi main_v18 main_v22
  main_v23

def fn {F : FTy → Type} [FloatOps F] (main_arg0 : FVec F S8192x2048 .f32) (main_arg1 : FVec F S8x256x256 .f32) (main_arg2 : FVec F S1x8x256 .f32) (main_arg3 : FVec F S1x8x256 .f32) (main_arg4 : FVec F S1x8x256 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S1x8x256 .f32 := Host.absf main_arg2
  let main_cst_2 : FVec F S_ .f32 := constant S_ .f32 0x7F800000#32
  let main_v10 : FVec F S1x8x256 .f32 := broadcastInDim S1x8x256 ![] bcast_S_S1x8x256 main_cst_2
  let main_v11 : IVec S1x8x256 1 := cmpf .olt main_v9 main_v10
  let main_c_3 : IVec S_ 1 := constantI S_ 1 1#1
  let main_v12 : IVec S_ 1 := (fun x v => Host.reduce IntOp.andi x v reducesTo_S1x8x256_S_d0_1_2 h_S_) main_v11 main_c_3
  let main_v13 : IVec S_ 1 := andi main_v8 main_v12
  let main_v14 : FVec F S1x8x256 .f32 := Host.absf main_arg3
  let main_cst_4 : FVec F S_ .f32 := constant S_ .f32 0x7F800000#32
  let main_v15 : FVec F S1x8x256 .f32 := broadcastInDim S1x8x256 ![] bcast_S_S1x8x256 main_cst_4
  let main_v16 : IVec S1x8x256 1 := cmpf .olt main_v14 main_v15
  fn_part1 (F := F) main_arg4 main_v13 main_v16
-- ==== Kernel.lean ====
abbrev S8192x2048 : Shape := ⟨2, ![8192, 2048]⟩
abbrev S8x256x256 : Shape := ⟨3, ![8, 256, 256]⟩
abbrev S1x8x256 : Shape := ⟨3, ![1, 8, 256]⟩
abbrev S8x128 : Shape := ⟨2, ![8, 128]⟩
abbrev S1024x2048 : Shape := ⟨2, ![1024, 2048]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S512x2048 : Shape := ⟨2, ![512, 2048]⟩
abbrev S512x256 : Shape := ⟨2, ![512, 256]⟩
abbrev S1x1x256 : Shape := ⟨3, ![1, 1, 256]⟩
abbrev S256 : Shape := ⟨1, ![256]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8x256x256, .f32⟩
  | .hbm, ⟨2, _⟩ => ⟨S1x8x256, .f32⟩
  | .hbm, ⟨3, _⟩ => ⟨S1x8x256, .f32⟩
  | .hbm, ⟨4, _⟩ => ⟨S1x8x256, .f32⟩
  | .hbm, ⟨5, _⟩ => ⟨S8x128, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S8x128, .f32⟩
  | .local _ .vmem, ⟨3, _⟩ => ⟨S8x128, .f32⟩
  | .local _ .vmem, ⟨4, _⟩ => ⟨S512x2048, .f32⟩
  | .local _ .vmem, ⟨5, _⟩ => ⟨S512x2048, .f32⟩
  | .local _ .vmem, ⟨6, _⟩ => ⟨S8x256x256, .f32⟩
  | .local _ .vmem, ⟨7, _⟩ => ⟨S1x8x256, .f32⟩
  | .local _ .vmem, ⟨8, _⟩ => ⟨S1x8x256, .f32⟩
  | .local _ .vmem, ⟨9, _⟩ => ⟨S1x8x256, .f32⟩
  | .local _ .vmem, ⟨10, _⟩ => ⟨S8x128, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem6_1 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S1x1_0_0 : ∀ a, (![0, 0] : Fin 2 → Nat) a + S1x1.size a ≤ S8x128.size a
  h_S1x1 : 0 < S1x1.numel
  inpos_S1x1_p0_0 : ∀ a, (![0, 0] : Fin 2 → Nat) a < S1x1.size a
  inb_S512x2048_S512x256_0_0 : ∀ a, (![0, 0] : Fin 2 → Nat) a + S512x256.size a ≤ S512x2048.size a
  h_S512x256 : 0 < S512x256.numel
  inb_S1x8x256_S1x1x256_0_0_0 : ∀ a, (![0, 0, 0] : Fin 3 → Nat) a + S1x1x256.size a ≤ S1x8x256.size a
  h_S1x1x256 : 0 < S1x1x256.numel
  shapeCasts_S1x1x256_S256 : S1x1x256.ShapeCasts S256
  shapeCasts_S256_S1x256 : S256.ShapeCasts S1x256
  broadcasts_S1x256_S512x256 : S1x256.Broadcasts S512x256
  inb_S512x2048_S512x256_0_256 : ∀ a, (![0, 256] : Fin 2 → Nat) a + S512x256.size a ≤ S512x2048.size a
  inb_S1x8x256_S1x1x256_0_1_0 : ∀ a, (![0, 1, 0] : Fin 3 → Nat) a + S1x1x256.size a ≤ S1x8x256.size a
  inb_S512x2048_S512x256_0_512 : ∀ a, (![0, 512] : Fin 2 → Nat) a + S512x256.size a ≤ S512x2048.size a
  inb_S1x8x256_S1x1x256_0_2_0 : ∀ a, (![0, 2, 0] : Fin 3 → Nat) a + S1x1x256.size a ≤ S1x8x256.size a
  inb_S512x2048_S512x256_0_768 : ∀ a, (![0, 768] : Fin 2 → Nat) a + S512x256.size a ≤ S512x2048.size a
  inb_S1x8x256_S1x1x256_0_3_0 : ∀ a, (![0, 3, 0] : Fin 3 → Nat) a + S1x1x256.size a ≤ S1x8x256.size a
  inb_S512x2048_S512x256_0_1024 : ∀ a, (![0, 1024] : Fin 2 → Nat) a + S512x256.size a ≤ S512x2048.size a
  inb_S1x8x256_S1x1x256_0_4_0 : ∀ a, (![0, 4, 0] : Fin 3 → Nat) a + S1x1x256.size a ≤ S1x8x256.size a
  inb_S512x2048_S512x256_0_1280 : ∀ a, (![0, 1280] : Fin 2 → Nat) a + S512x256.size a ≤ S512x2048.size a
  inb_S1x8x256_S1x1x256_0_5_0 : ∀ a, (![0, 5, 0] : Fin 3 → Nat) a + S1x1x256.size a ≤ S1x8x256.size a
  inb_S512x2048_S512x256_0_1536 : ∀ a, (![0, 1536] : Fin 2 → Nat) a + S512x256.size a ≤ S512x2048.size a
  inb_S1x8x256_S1x1x256_0_6_0 : ∀ a, (![0, 6, 0] : Fin 3 → Nat) a + S1x1x256.size a ≤ S1x8x256.size a
  inb_S512x2048_S512x256_0_1792 : ∀ a, (![0, 1792] : Fin 2 → Nat) a + S512x256.size a ≤ S512x2048.size a
  inb_S1x8x256_S1x1x256_0_7_0 : ∀ a, (![0, 7, 0] : Fin 3 → Nat) a + S1x1x256.size a ≤ S1x8x256.size a
  bitsLt_bf16_f32 : FTy.bits .bf16 < FTy.bits .f32
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  transposes_S256x256_p1_0_S256x256 : S256x256.Transposes [1, 0] S256x256
  inb_S8x256x256_S1x256x256_1_0_0 : ∀ a, (![1, 0, 0] : Fin 3 → Nat) a + S1x256x256.size a ≤ S8x256x256.size a
  inb_S8x256x256_S1x256x256_2_0_0 : ∀ a, (![2, 0, 0] : Fin 3 → Nat) a + S1x256x256.size a ≤ S8x256x256.size a
  inb_S8x256x256_S1x256x256_3_0_0 : ∀ a, (![3, 0, 0] : Fin 3 → Nat) a + S1x256x256.size a ≤ S8x256x256.size a
  inb_S8x256x256_S1x256x256_4_0_0 : ∀ a, (![4, 0, 0] : Fin 3 → Nat) a + S1x256x256.size a ≤ S8x256x256.size a
  inb_S8x256x256_S1x256x256_5_0_0 : ∀ a, (![5, 0, 0] : Fin 3 → Nat) a + S1x256x256.size a ≤ S8x256x256.size a
  inb_S8x256x256_S1x256x256_6_0_0 : ∀ a, (![6, 0, 0] : Fin 3 → Nat) a + S1x256x256.size a ≤ S8x256x256.size a
  inb_S8x256x256_S1x256x256_7_0_0 : ∀ a, (![7, 0, 0] : Fin 3 → Nat) a + S1x256x256.size a ≤ S8x256x256.size a
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x256x256.size a ≤ S8x256x256.size a
  hwx1_1 : ∀ i : grid1.Coords, EltTy.bits .f32 = 32 ∨ (Rect.block (s := S8x256x256) S8x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8x256.size a ≤ S1x8x256.size a
  hwx1_2 : ∀ i : grid1.Coords, EltTy.bits .f32 = 32 ∨ (Rect.block (s := S1x8x256) S1x8x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8x256.size a ≤ S1x8x256.size a
  hwx1_3 : ∀ i : grid1.Coords, EltTy.bits .f32 = 32 ∨ (Rect.block (s := S1x8x256) S1x8x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8x256.size a ≤ S1x8x256.size a
  hwx1_4 : ∀ i : grid1.Coords, EltTy.bits .f32 = 32 ∨ (Rect.block (s := S1x8x256) S1x8x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x2048.size a ≤ S8192x2048.size a
  hwx1_6 : ∀ i : grid1.Coords, EltTy.bits .f32 = 32 ∨ (Rect.block (s := S8192x2048) S512x2048.size (cc1_transform_6 i) (hinb1_6 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x8x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x8x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x8x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S8x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S512x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S8x256x256 : Shape := ⟨3, ![8, 256, 256]⟩
abbrev S1x8x256 : Shape := ⟨3, ![1, 8, 256]⟩
abbrev S8192x8x256 : Shape := ⟨3, ![8192, 8, 256]⟩
abbrev S_ : Shape := ⟨0, ![]⟩
abbrev S8x256 : Shape := ⟨2, ![8, 256]⟩
abbrev S65536x256 : Shape := ⟨2, ![65536, 256]⟩
abbrev S8x1x256 : Shape := ⟨3, ![8, 1, 256]⟩
abbrev S1x65536x256 : Shape := ⟨3, ![1, 65536, 256]⟩
abbrev S8x65536x256 : Shape := ⟨3, ![8, 65536, 256]⟩
abbrev S8x8192x8x256 : Shape := ⟨4, ![8, 8192, 8, 256]⟩
abbrev S8x8192x256 : Shape := ⟨3, ![8, 8192, 256]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x256x256, .f32⟩
  | .hbm, ⟨2, _⟩ => ⟨S1x8x256, .f32⟩
  | .hbm, ⟨3, _⟩ => ⟨S1x8x256, .f32⟩
  | .hbm, ⟨4, _⟩ => ⟨S1x8x256, .f32⟩
  | .hbm, ⟨5, _⟩ => ⟨S8192x8x256, .f32⟩
  | .hbm, ⟨6, _⟩ => ⟨S8192x8x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x8x256, .f32⟩
  | .hbm, ⟨17, _⟩ => ⟨S8192x8x256, .f32⟩
  | .hbm, ⟨18, _⟩ => ⟨S8192x8x256, .f32⟩
  | .hbm, ⟨19, _⟩ => ⟨S8192x8x256, .f32⟩
  | .hbm, ⟨20, _⟩ => ⟨S_, .f32⟩
  | .hbm, ⟨21, _⟩ => ⟨S_, .f32⟩
  | .hbm, ⟨22, _⟩ => ⟨S8x256, .f32⟩
  | .hbm, ⟨23, _⟩ => ⟨S1x8x256, .f32⟩
  | .hbm, ⟨24, _⟩ => ⟨S8192x8x256, .f32⟩
  | .hbm, ⟨25, _⟩ => ⟨S8192x8x256, .f32⟩
  | .hbm, ⟨26, _⟩ => ⟨S65536x256, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S8x256, .f32⟩
  | .hbm, ⟨31, _⟩ => ⟨S8x1x256, .f32⟩
  | .hbm, ⟨32, _⟩ => ⟨S1x65536x256, .f32⟩
  | .hbm, ⟨33, _⟩ => ⟨S8x65536x256, .f32⟩
  | .hbm, ⟨34, _⟩ => ⟨S8x65536x256, .f32⟩
  | .hbm, ⟨35, _⟩ => ⟨S8x65536x256, .i1⟩
  | .hbm, ⟨36, _⟩ => ⟨S8x256, .f32⟩
  | .hbm, ⟨37, _⟩ => ⟨S8x256, .f32⟩
  | .hbm, ⟨38, _⟩ => ⟨S8x1x256, .f32⟩
  | .hbm, ⟨39, _⟩ => ⟨S1x65536x256, .f32⟩
  | .hbm, ⟨40, _⟩ => ⟨S8x65536x256, .f32⟩
  | .hbm, ⟨41, _⟩ => ⟨S8x65536x256, .f32⟩
  | .hbm, ⟨42, _⟩ => ⟨S8x65536x256, .i1⟩
  | .hbm, ⟨43, _⟩ => ⟨S8x65536x256, .i1⟩
  | .hbm, ⟨44, _⟩ => ⟨S_, .f32⟩
  | .hbm, ⟨45, _⟩ => ⟨S65536x256, .f32⟩
  | .hbm, ⟨46, _⟩ => ⟨S8x65536x256, .f32⟩
  | .hbm, ⟨47, _⟩ => ⟨S8x65536x256, .f32⟩
  | .hbm, ⟨48, _⟩ => ⟨S8x65536x256, .f32⟩
  | .hbm, ⟨49, _⟩ => ⟨S8x256x256, .f32⟩
  | .hbm, ⟨50, _⟩ => ⟨S8x65536x256, .f32⟩
  | .hbm, ⟨51, _⟩ => ⟨S8x8192x8x256, .f32⟩
  | .hbm, ⟨52, _⟩ => ⟨S_, .f32⟩
  | .hbm, ⟨53, _⟩ => ⟨S8x8192x256, .f32⟩
  | .hbm, ⟨54, _⟩ => ⟨S8192x8x256, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  shapeCasts_S8192x2048_S8192x8x256 : S8192x2048.ShapeCasts S8192x8x256
  reducesTo_S8192x8x256_S_d0_1_2 : S8192x8x256.ReducesTo [0, 1, 2] S_
  h_S_ : 0 < S_.numel
  bcast_S_S8192x8x256 : S_.BroadcastsInDim S8192x8x256 (![] : Fin 0 → Fin S8192x8x256.rank)
  shapeCasts_S1x8x256_S8x256 : S1x8x256.ShapeCasts S8x256
  bcast_S8x256_S1x8x256_1_2 : S8x256.BroadcastsInDim S1x8x256 (![1, 2] : Fin 2 → Fin S1x8x256.rank)
  bcast_S1x8x256_S8192x8x256_0_1_2 : S1x8x256.BroadcastsInDim S8192x8x256 (![0, 1, 2] : Fin 3 → Fin S8192x8x256.rank)
  shapeCasts_S8192x8x256_S65536x256 : S8192x8x256.ShapeCasts S65536x256
  bcast_S_S8x256 : S_.BroadcastsInDim S8x256 (![] : Fin 0 → Fin S8x256.rank)
  bcast_S8x256_S8x1x256_0_2 : S8x256.BroadcastsInDim S8x1x256 (![0, 2] : Fin 2 → Fin S8x1x256.rank)
  bcast_S65536x256_S1x65536x256_1_2 : S65536x256.BroadcastsInDim S1x65536x256 (![1, 2] : Fin 2 → Fin S1x65536x256.rank)
  bcast_S1x65536x256_S8x65536x256_0_1_2 : S1x65536x256.BroadcastsInDim S8x65536x256 (![0, 1, 2] : Fin 3 → Fin S8x65536x256.rank)
  bcast_S8x1x256_S8x65536x256_0_1_2 : S8x1x256.BroadcastsInDim S8x65536x256 (![0, 1, 2] : Fin 3 → Fin S8x65536x256.rank)
  bcast_S_S65536x256 : S_.BroadcastsInDim S65536x256 (![] : Fin 0 → Fin S65536x256.rank)
  bcast_S65536x256_S8x65536x256_1_2 : S65536x256.BroadcastsInDim S8x65536x256 (![1, 2] : Fin 2 → Fin S8x65536x256.rank)
  transposes_S8x256x256_S8x256x256_0_2_1 : S8x256x256.Transposes [0, 2, 1] S8x256x256
  shapeCasts_S8x65536x256_S8x8192x8x256 : S8x65536x256.ShapeCasts S8x8192x8x256
  reducesTo_S8x8192x8x256_S8x8192x256_d2 : S8x8192x8x256.ReducesTo [2] S8x8192x256
  transposes_S8x8192x256_S8192x8x256_1_0_2 : S8x8192x256.Transposes [1, 0, 2] S8192x8x256
  shapeCasts_S8192x8x256_S8192x2048 : S8192x8x256.ShapeCasts S8192x2048
  dot_S8x65536x256_S8x256x256_S8x65536x256_2_1_1_2_0_0_wf : DotDims.WF S8x65536x256 S8x256x256 S8x65536x256 [2] [1] [1] [2] [0] [0]

variable [Facts₀]

def dot_S8x65536x256_S8x256x256_S8x65536x256_2_1_1_2_0_0 : DotDims S8x65536x256 S8x256x256 S8x65536x256 where
  lhsContracting := [2]
  rhsContracting := [1]
  lhsNonContracting := [1]
  rhsNonContracting := [2]
  lhsBatch := [0]
  rhsBatch := [0]
  wf := dot_S8x65536x256_S8x256x256_S8x65536x256_2_1_1_2_0_0_wf

class Facts : Prop extends Facts₀ where

variable [Facts]
-- ==== Proof.KRegion0.lean ====
/-
  The first region: the largest magnitude of the input, taken block by block.

  The grid has eight points; point `t` sees rows `1024 t … 1024 t + 1023` of the input.  A scratch tile of
  8 × 128 entries carries a running maximum from point to point: it is reset to zero at the first point, at
  every point it becomes the entrywise maximum of itself and the block's largest magnitude, and at the last
  point it is copied into the output tile.  This module runs the body in its three control cases (first
  point / a middle point / last point) and names what each case leaves in the scratch and in the output tile.
-/
import proofs.«157387_j34823594836361_1_alg».proof.Proof.Gen.Kernel.Launch
import proofs.«157387_j34823594836361_1_alg».proof.Proof.Gen.Kernel.Skeleton
import proofs.«157387_j34823594836361_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first point": the reset is taken. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point": the output tile is written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- A staging buffer of the output tile, through which its contents are stated. -/
abbrev VO0_1 : View sig .tc .vmem S8x128 .f32 := (Memref.whole cc0_stg1_0 : Memref sig .tc .vmem S8x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The scratch tile that carries the running maximum. -/
abbrev scM0_0 : Memref sig .tc .vmem S8x128 .f32 := Memref.whole cc0_scratch0
abbrev VS0_0 : View sig .tc .vmem S8x128 .f32 := scM0_0.view

/-- The region's plain invariant with the scratch tile as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f)) ∗ (∃ r, prngReg c r)) := by
  unfold Pipeline.ΦA; rw [scopedRest0_eq]; simp only [scM0_0, owns_whole]; try rfl

/-! ## The body in its three cases -/

set_option maxHeartbeats 1000000 in
/-- FIRST POINT: the scratch, found at anything, is reset and then raised to the block's largest magnitude; the
    output tile is left as found. -/
noncomputable def kernelRun0_A (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : cond0_0 i) (hc1 : ¬cond0_1 i)
    (x0 : Vec F S1024x2048 .f32) :
    Σ' (L1 : List (View.Piece (Elt F) S8x128 .f32)), { LS0 : List (View.Piece (Elt F) S8x128 .f32) //
      ∀ (xi1 : Vec F S8x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__max_abs_kernel i arg1 harg1 arg2 harg2 arg3 harg3) K } := by
  refine ⟨[], ?_, fun xi1 E K => ?run⟩
  case run =>
    simp only [cc0__max_abs_kernel_eq_skeleton]; unfold cc0__max_abs_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the scratch, found at what the point before left, is raised to the block's largest magnitude;
    the output tile is left as found. -/
noncomputable def kernelRun0_B (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : ¬cond0_1 i)
    (x0 : Vec F S1024x2048 .f32) (xs0 : Vec F S8x128 .f32) :
    Σ' (L1 : List (View.Piece (Elt F) S8x128 .f32)), { LS0 : List (View.Piece (Elt F) S8x128 .f32) //
      ∀ (xi1 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__max_abs_kernel i arg1 harg1 arg2 harg2 arg3 harg3) K } := by
  refine ⟨[], ?_, fun xi1 E K => ?run⟩
  case run =>
    simp only [cc0__max_abs_kernel_eq_skeleton]; unfold cc0__max_abs_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT: the scratch is raised once more and then copied into the output tile, found at anything. -/
noncomputable def kernelRun0_C (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) :
    Σ' (L1 : List (View.Piece (Elt F) S8x128 .f32)), { LS0 : List (View.Piece (Elt F) S8x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__max_abs_kernel i arg1 harg1 arg2 harg2 arg3 harg3) K } := by
  refine ⟨?_, ?_, fun E K => ?run⟩
  case run =>
    simp only [cc0__max_abs_kernel_eq_skeleton]; unfold cc0__max_abs_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.R0

end
-- ==== Proof.KRegion0b.lean ====
/-
  The first region, continued: what the scratch tile and the output tile hold after each of the eight points
  (by recursion on the point: the first point's case, then a middle point's case over what the point before
  left, then the last point's), the region's invariant that carries the scratch from point to point, the
  proof data of the pipeline, and the body's obligation at every point.
-/
import proofs.«157387_j34823594836361_1_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What each case leaves in the scratch tile and in the output tile -/

/-- Where the body stores nothing into the output tile its proof-data entry is a placeholder nothing reads. -/
def idleTile : Vec F S8x128 .f32 := VO0_1.read (Elt F) VO0_1.junk

theorem scover0_A_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : cond0_0 i) (hc1 : ¬cond0_1 i)
    (x0 : Vec F S1024x2048 .f32) (y : S8x128.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S8x128.size (by sl_kernel_rfl) y

/-- The scratch tile after the first point. -/
def sout0_A_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : cond0_0 i) (hc1 : ¬cond0_1 i)
    (x0 : Vec F S1024x2048 .f32) : Vec F S8x128 .f32 :=
  VS0_0.read (Elt F) (VS0_0.writes (Elt F) VS0_0.junk (kernelRun0_A c i arg1 harg1 arg2 harg2 arg3 harg3 hc0 hc1 x0).2.1)

theorem scover0_B_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : ¬cond0_1 i)
    (x0 : Vec F S1024x2048 .f32) (xs0 : Vec F S8x128 .f32) (y : S8x128.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S8x128.size (by sl_kernel_rfl) y

/-- The scratch tile after a middle point, from what the point before left in it. -/
def sout0_B_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : ¬cond0_1 i)
    (x0 : Vec F S1024x2048 .f32) (xs0 : Vec F S8x128 .f32) : Vec F S8x128 .f32 :=
  VS0_0.read (Elt F) (VS0_0.writes (Elt F) VS0_0.junk (kernelRun0_B c i arg1 harg1 arg2 harg2 arg3 harg3 hc0 hc1 x0 xs0).2.1)

theorem cover0_C_1 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) (y : S8x128.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S8x128.size (by sl_kernel_rfl) y

/-- The output tile after the last point. -/
def out0_C_1 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) : Vec F S8x128 .f32 :=
  VO0_1.read (Elt F) (VO0_1.writes (Elt F) VO0_1.junk (kernelRun0_C c i arg1 harg1 arg2 harg2 arg3 harg3 hc0 hc1 x0 xs0).1)

theorem scover0_C_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) (y : S8x128.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S8x128.size (by sl_kernel_rfl) y

/-- The scratch tile after the last point. -/
def sout0_C_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) : Vec F S8x128 .f32 :=
  VS0_0.read (Elt F) (VS0_0.writes (Elt F) VS0_0.junk (kernelRun0_C c i arg1 harg1 arg2 harg2 arg3 harg3 hc0 hc1 x0 xs0).2.1)

/-! ## Point by point -/

theorem not_first (n : ℕ) (hn : n + 1 < cfg0.N) : ¬ (n + 1) % 8 = 0 := by
  have hN : n + 1 < 8 := lt_of_lt_of_eq hn (show cfg0.N = 8 from N_0); omega

/-- THE ACCUMULATION: the output tile and the scratch tile after the body at point `n` (a pair). -/
def outsAt0 (c : Dev nD) : (n : ℕ) → n < cfg0.N → Vec F S8x128 .f32 × Vec F S8x128 .f32
  | 0, hn => (idleTile, sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => absurd ((hcond0_1 ⟨0, hn⟩).mp h) (show ¬ (0 % 8 = 7) by decide)) (iblk0 V c 0 ⟨0, hn⟩))
  | n + 1, hn =>
    if h1 : (n + 1) % 8 = 7 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => not_first n hn ((hcond0_0 ⟨n + 1, hn⟩).mp h)) ((hcond0_1 ⟨n + 1, hn⟩).mpr h1) (iblk0 V c 0 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => not_first n hn ((hcond0_0 ⟨n + 1, hn⟩).mp h)) ((hcond0_1 ⟨n + 1, hn⟩).mpr h1) (iblk0 V c 0 ⟨n + 1, hn⟩) (outsAt0 c n (Nat.lt_of_succ_lt hn)).2)
    else
      (idleTile,
       sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => not_first n hn ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleTile, sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (not_first n hn)

theorem outsAt0_B (c : Dev nD) (t : Fin cfg0.N) (h0 : ¬t.val % 8 = 0) (h1 : ¬t.val % 8 = 7) :
    outsAt0 V c t.val t.isLt = (idleTile, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The invariant that carries the scratch tile -/

/-- The scoped buffers of the core that this region never touches (the second region's staging buffers),
    each whole at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

theorem PhiA0_eq' (c : Dev nD) :
    (Pipeline.ΦA spec0 c : sProp 𝕄) = iprop(iprop((∃ d, owns (c : Thread nD τ) scM0_0 fullShare d) ∗ rest0 (F := F) c) ∗ (∃ r, prngReg c r)) :=
  PhiA0_eq c

/-- Before point 0 the region's plain invariant (the scratch at anything); before a later point the scratch
    tile at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The arrays as the region finds them; after the body at point `t` the input's buffer at its block and the
    output tile's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's buffer holds its block; the point's position says which case it is in;
    the invariant hands the body the scratch tile at what the point before left (at anything at the first
    point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · have h1 : ¬ t.val % 8 = 7 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [outsAt0_A V c t h0 h1]
    unfold sout0_A_0; (try dsimp only)
    rw [PhiS_castSucc V c t, PhiS_zero V c _ _ hz, PhiA0_eq']
    iintro ⟨⟨⟨HS0, Hrest⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hg Hrest]
    · isplitl [HS0 Hrest]
      · isplitl [HS0]
        · unfold owns; iexists _; isplitr
          swap; · iexact HS0
          ipureintro; exact View.read_writes_of_cover _ _ _ _ _ (scover0_A_0 c _ _ _ _ _ _ _ _ _ _)
        iexact Hrest
      iexact Hg
    isplitl [Ho]; · iexact Ho
    isplitl [H0]; · iexact H0
    iexists _; iexact H1
  · have hz : t.val ≠ 0 := fun h => h0 (by rw [h])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _)
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the plain one back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq']
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.Kernel.R0

end
-- ==== Proof.KRegion1.lean ====
import proofs.«157387_j34823594836361_1_alg».proof.Proof.Gen.Kernel.Launch
import proofs.«157387_j34823594836361_1_alg».proof.Proof.Gen.Kernel.Skeleton
import proofs.«157387_j34823594836361_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (the second kernel call) of the idealized program: its frame half

Stated at a parameter `V`, the TensorCore's buffer contents when the region is entered. Each window's
block at a grid point is read off its array in `V`; every input window's staging buffer holds that block
at every point (fetched there or not, since an unfetched window's block index has not moved); the body
loads column slices of the activation block, rows of the three per-fold vectors, one weight matrix per
fold and a single scalar, and stores eight column slices that tile the output block. What the body leaves
in the output buffer is therefore a closed function of the six input blocks: the eight stored payloads laid
side by side.
-/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is
    not fetched its block index has not moved, so the buffer still holds this point's block; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is
    not fetched its block index has not moved, so the buffer still holds this point's block; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is
    not fetched its block index has not moved, so the buffer still holds this point's block; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is
    not fetched its block index has not moved, so the buffer still holds this point's block; the window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is
    not fetched its block index has not moved, so the buffer still holds this point's block; the window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is
    not fetched its block index has not moved, so the buffer still holds this point's block; the window is uncut
    and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The scalar at the corner of the 8×128 tile. -/
abbrev rT : Rect S8x128 := Rect.unit (s := S8x128) ![0, 0] S1x1.size inb_S8x128_S1x1_0_0
/-- Column slice 0 (columns 0–255) of a 512×2048 block. -/
abbrev rX0 : Rect S512x2048 := Rect.unit (s := S512x2048) ![0, 0] S512x256.size inb_S512x2048_S512x256_0_0
/-- Column slice 1 (columns 256–511) of a 512×2048 block. -/
abbrev rX1 : Rect S512x2048 := Rect.unit (s := S512x2048) ![0, 256] S512x256.size inb_S512x2048_S512x256_0_256
/-- Column slice 2 (columns 512–767) of a 512×2048 block. -/
abbrev rX2 : Rect S512x2048 := Rect.unit (s := S512x2048) ![0, 512] S512x256.size inb_S512x2048_S512x256_0_512
/-- Column slice 3 (columns 768–1023) of a 512×2048 block. -/
abbrev rX3 : Rect S512x2048 := Rect.unit (s := S512x2048) ![0, 768] S512x256.size inb_S512x2048_S512x256_0_768
/-- Column slice 4 (columns 1024–1279) of a 512×2048 block. -/
abbrev rX4 : Rect S512x2048 := Rect.unit (s := S512x2048) ![0, 1024] S512x256.size inb_S512x2048_S512x256_0_1024
/-- Column slice 5 (columns 1280–1535) of a 512×2048 block. -/
abbrev rX5 : Rect S512x2048 := Rect.unit (s := S512x2048) ![0, 1280] S512x256.size inb_S512x2048_S512x256_0_1280
/-- Column slice 6 (columns 1536–1791) of a 512×2048 block. -/
abbrev rX6 : Rect S512x2048 := Rect.unit (s := S512x2048) ![0, 1536] S512x256.size inb_S512x2048_S512x256_0_1536
/-- Column slice 7 (columns 1792–2047) of a 512×2048 block. -/
abbrev rX7 : Rect S512x2048 := Rect.unit (s := S512x2048) ![0, 1792] S512x256.size inb_S512x2048_S512x256_0_1792
/-- Row 0 of a 1×8×256 block of per-fold vectors. -/
abbrev rR0 : Rect S1x8x256 := Rect.unit (s := S1x8x256) ![0, 0, 0] S1x1x256.size inb_S1x8x256_S1x1x256_0_0_0
/-- Row 1 of a 1×8×256 block of per-fold vectors. -/
abbrev rR1 : Rect S1x8x256 := Rect.unit (s := S1x8x256) ![0, 1, 0] S1x1x256.size inb_S1x8x256_S1x1x256_0_1_0
/-- Row 2 of a 1×8×256 block of per-fold vectors. -/
abbrev rR2 : Rect S1x8x256 := Rect.unit (s := S1x8x256) ![0, 2, 0] S1x1x256.size inb_S1x8x256_S1x1x256_0_2_0
/-- Row 3 of a 1×8×256 block of per-fold vectors. -/
abbrev rR3 : Rect S1x8x256 := Rect.unit (s := S1x8x256) ![0, 3, 0] S1x1x256.size inb_S1x8x256_S1x1x256_0_3_0
/-- Row 4 of a 1×8×256 block of per-fold vectors. -/
abbrev rR4 : Rect S1x8x256 := Rect.unit (s := S1x8x256) ![0, 4, 0] S1x1x256.size inb_S1x8x256_S1x1x256_0_4_0
/-- Row 5 of a 1×8×256 block of per-fold vectors. -/
abbrev rR5 : Rect S1x8x256 := Rect.unit (s := S1x8x256) ![0, 5, 0] S1x1x256.size inb_S1x8x256_S1x1x256_0_5_0
/-- Row 6 of a 1×8×256 block of per-fold vectors. -/
abbrev rR6 : Rect S1x8x256 := Rect.unit (s := S1x8x256) ![0, 6, 0] S1x1x256.size inb_S1x8x256_S1x1x256_0_6_0
/-- Row 7 of a 1×8×256 block of per-fold vectors. -/
abbrev rR7 : Rect S1x8x256 := Rect.unit (s := S1x8x256) ![0, 7, 0] S1x1x256.size inb_S1x8x256_S1x1x256_0_7_0
/-- Weight matrix 0 of the 8×256×256 block. -/
abbrev rW0 : Rect S8x256x256 := Rect.unit (s := S8x256x256) ![0, 0, 0] S1x256x256.size inb_S8x256x256_S1x256x256_0_0_0
/-- Weight matrix 1 of the 8×256×256 block. -/
abbrev rW1 : Rect S8x256x256 := Rect.unit (s := S8x256x256) ![1, 0, 0] S1x256x256.size inb_S8x256x256_S1x256x256_1_0_0
/-- Weight matrix 2 of the 8×256×256 block. -/
abbrev rW2 : Rect S8x256x256 := Rect.unit (s := S8x256x256) ![2, 0, 0] S1x256x256.size inb_S8x256x256_S1x256x256_2_0_0
/-- Weight matrix 3 of the 8×256×256 block. -/
abbrev rW3 : Rect S8x256x256 := Rect.unit (s := S8x256x256) ![3, 0, 0] S1x256x256.size inb_S8x256x256_S1x256x256_3_0_0
/-- Weight matrix 4 of the 8×256×256 block. -/
abbrev rW4 : Rect S8x256x256 := Rect.unit (s := S8x256x256) ![4, 0, 0] S1x256x256.size inb_S8x256x256_S1x256x256_4_0_0
/-- Weight matrix 5 of the 8×256×256 block. -/
abbrev rW5 : Rect S8x256x256 := Rect.unit (s := S8x256x256) ![5, 0, 0] S1x256x256.size inb_S8x256x256_S1x256x256_5_0_0
/-- Weight matrix 6 of the 8×256×256 block. -/
abbrev rW6 : Rect S8x256x256 := Rect.unit (s := S8x256x256) ![6, 0, 0] S1x256x256.size inb_S8x256x256_S1x256x256_6_0_0
/-- Weight matrix 7 of the 8×256×256 block. -/
abbrev rW7 : Rect S8x256x256 := Rect.unit (s := S8x256x256) ![7, 0, 0] S1x256x256.size inb_S8x256x256_S1x256x256_7_0_0
/-! ## What the body leaves in the output window's buffer -/

/-- The output window's staging buffer after the body, from the six input blocks: the body's eight stores as
    pieces, last first; each payload is the named payload of the store over the values the body has read and
    computed before it, bound here in the body's own order. -/
def out1_6 (x0 : Vec F S512x2048 .f32) (x1 : Vec F S8x256x256 .f32) (x2 x3 x4 : Vec F S1x8x256 .f32) (x5 : Vec F S8x128 .f32) : Vec F S512x2048 .f32 :=
  let v0 := View.ld x5 rT
  let v2 := View.ld x0 rX0
  let v3 := View.ld x2 rR0
  let v8 := View.ld x0 rX1
  let v9 := View.ld x2 rR1
  let v14 := View.ld x0 rX2
  let v15 := View.ld x2 rR2
  let v20 := View.ld x0 rX3
  let v21 := View.ld x2 rR3
  let v26 := View.ld x0 rX4
  let v27 := View.ld x2 rR4
  let v1 := k1_pay2 v0
  let v7 := k1_pay3 v2 v3
  let v13 := k1_pay4 v8 v9
  let v19 := k1_pay5 v14 v15
  let v25 := k1_pay6 v20 v21
  let v31 := k1_pay7 v26 v27
  let v32 := View.ld x0 rX5
  let v33 := View.ld x2 rR5
  let v38 := View.ld x0 rX6
  let v39 := View.ld x2 rR6
  let v44 := View.ld x0 rX7
  let v45 := View.ld x2 rR7
  let v50 := View.ld x3 rR0
  let v54 := View.ld x4 rR0
  let v37 := k1_pay8 v32 v33
  let v43 := k1_pay9 v38 v39
  let v49 := k1_pay10 v44 v45
  let v53 := k1_pay11 v1 v50
  let v57 := k1_pay12 v1 v54
  let v68 := k1_pay13 v1 v7 v50 v54
  let v118 := k1_pay14 v13 v19 v25 v31 v37 v53 v57 v68
  let v121 := k1_pay15 v43 v53
  let v123 := k1_pay16 v57
  let v140 := View.ld x1 rW0
  let v146 := View.ld x3 rR1
  let v150 := View.ld x4 rR1
  let v149 := k1_pay18 v1 v146
  let v153 := k1_pay19 v1 v150
  let v164 := k1_pay20 v1 v7 v146 v150
  let v166 := k1_pay21 v1 v146
  let v214 := k1_pay22 v13 v19 v25 v31 v37 v149 v153 v164 v166
  let v221 := k1_pay23 v43 v149 v153
  let v236 := View.ld x1 rW1
  let v242 := View.ld x3 rR2
  let v246 := View.ld x4 rR2
  let v245 := k1_pay25 v1 v242
  let v249 := k1_pay26 v1 v246
  let v260 := k1_pay27 v1 v7 v242 v246
  let v263 := k1_pay28 v1 v13 v242
  let v264 := k1_pay29 v1 v246
  let v310 := k1_pay30 v13 v19 v25 v31 v37 v245 v249 v260 v263 v264
  let v317 := k1_pay31 v43 v245 v249
  let v318 := k1_pay32 (F := F)
  let v332 := View.ld x1 rW2
  let v338 := View.ld x3 rR3
  let v342 := View.ld x4 rR3
  let v341 := k1_pay34 v1 v338
  let v345 := k1_pay35 v1 v342
  let v356 := k1_pay36 v1 v7 v338 v342
  let v359 := k1_pay37 v1 v13 v338
  let v362 := k1_pay38 v1 v13 v342
  let v416 := k1_pay39 v13 v19 v25 v31 v37 v43 v341 v345 v356 v359 v362
  let v428 := View.ld x1 rW3
  let v434 := View.ld x3 rR4
  let v438 := View.ld x4 rR4
  let cst_118 : F .f32 := Scalar.ofBits .f32 0x00000000#32
  let v437 := k1_pay41 v1 v434
  let v441 := k1_pay42 v1 v438
  let v452 := k1_pay43 v1 v7 v434 v438
  let v459 := k1_pay44 v1 v13 v434 v438
  let v512 := k1_pay45 v13 v19 v25 v31 v37 v43 v437 v441 v452 v459 cst_118
  let v514 := k1_pay46 v437
  let v524 := View.ld x1 rW4
  let v530 := View.ld x3 rR5
  let v534 := View.ld x4 rR5
  let v533 := k1_pay48 v1 v530
  let v537 := k1_pay49 v1 v534
  let v548 := k1_pay50 v1 v7 v530 v534
  let v557 := k1_pay51 v1 v13 v530 v534
  let v608 := k1_pay52 v19 v25 v31 v37 v43 v533 v537 v548 v557
  let v611 := k1_pay53 v49 v533
  let v612 := k1_pay54 v537
  let v620 := View.ld x1 rW5
  let v626 := View.ld x3 rR6
  let v630 := View.ld x4 rR6
  let v629 := k1_pay56 v1 v626
  let v633 := k1_pay57 v1 v630
  let v654 := k1_pay58 v1 v7 v13 v626 v630
  let v655 := k1_pay59 v1 v626
  let v704 := k1_pay60 v19 v25 v31 v37 v43 v629 v633 v654 v655
  let v707 := k1_pay61 v49 v629
  let v710 := k1_pay62 v49 v633
  let v716 := View.ld x1 rW6
  let v722 := View.ld x3 rR7
  let v726 := View.ld x4 rR7
  let v725 := k1_pay64 v1 v722
  let v729 := k1_pay65 v1 v726
  let v750 := k1_pay66 v1 v7 v13 v722 v726
  let v753 := k1_pay67 v1 v19 v722
  let cst_187 : F .f32 := Scalar.ofBits .f32 0x00000000#32
  let v800 := k1_pay68 v19 v25 v31 v37 v43 v725 v729 v750 v753
  let v807 := k1_pay69 v49 v725 v729
  let v812 := View.ld x1 rW7
  View.canon [⟨rX7, k1_pay1 v49 v800 v807 cst_187 v812⟩,
    ⟨rX6, k1_pay63 v49 v704 v707 v710 v716⟩,
    ⟨rX5, k1_pay55 v49 v608 v611 v612 v620⟩,
    ⟨rX4, k1_pay47 v49 v441 v512 v514 v524⟩,
    ⟨rX3, k1_pay40 v49 v341 v345 v416 v428⟩,
    ⟨rX2, k1_pay33 v43 v49 v245 v249 v310 v317 v318 v332⟩,
    ⟨rX1, k1_pay24 v43 v49 v149 v153 v214 v221 v236⟩,
    ⟨rX0, k1_pay17 v43 v49 v53 v57 v118 v121 v123 v140⟩]

/-- The eight stored column slices tile the 512×2048 buffer (checked by evaluation), so they cover it. -/
theorem cover1_6 (p0 p1 p2 p3 p4 p5 p6 p7 : Vec F S512x256 .f32) (y : S512x2048.Idx) :
    ∃ pc ∈ ([⟨rX7, p7⟩, ⟨rX6, p6⟩, ⟨rX5, p5⟩, ⟨rX4, p4⟩, ⟨rX3, p3⟩, ⟨rX2, p2⟩, ⟨rX1, p1⟩, ⟨rX0, p0⟩] : List (View.Piece (Elt F) S512x2048 .f32)), y ∈ pc.1.set :=
  View.cover_of_tiled [⟨rX7, p7⟩, ⟨rX6, p6⟩, ⟨rX5, p5⟩, ⟨rX4, p4⟩, ⟨rX3, p3⟩, ⟨rX2, p2⟩, ⟨rX1, p1⟩, ⟨rX0, p0⟩] S512x256.size (by rfl) y

/-! ## The body's triple -/

set_option maxHeartbeats 4000000 in
/-- The kernel body on whole staging memrefs, the inputs' at read contents `x0 … x5` and the output's at anything,
    runs to the continuation holding the inputs' as they were and the output's at `out1_6` of the inputs': the
    printed functions are their skeletons of memory operations over named payloads, run operation by operation;
    the eight stores cover the output buffer, so what it reads afterwards is their canonical overlay. -/
theorem sound_kernel1 (c : Dev nD) (E : Set ℕ) (i : grid1.Coords) (arg1 : Memref sig .tc .vmem S512x2048 .f32) (harg1 : arg1.IsWhole) (arg2 : Memref sig .tc .vmem S8x256x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x8x256 .f32) (harg5 : arg5.IsWhole) (arg6 : Memref sig .tc .vmem S8x128 .f32) (harg6 : arg6.IsWhole) (arg7 : Memref sig .tc .vmem S512x2048 .f32) (harg7 : arg7.IsWhole)
    (x0 : Vec F S512x2048 .f32) (x1 : Vec F S8x256x256 .f32) (x2 : Vec F S1x8x256 .f32) (x3 : Vec F S1x8x256 .f32) (x4 : Vec F S1x8x256 .f32) (x5 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__fused_kernel i arg1 harg1 arg2 harg2 arg3 harg3 arg4 harg4 arg5 harg5 arg6 harg6 arg7 harg7) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _ _ _ _ _ _ _ _)

/-! ## The pipeline's proof data -/

/-- The proof data of pipeline 1 on core `c`: the arrays as the region finds them (`V`); after the body at point
    `t` each input's buffer at its block and the output's at `out1_6` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.R1

end
-- ==== Proof.KRun.lean ====
/-
  The whole program: the two regions one after the other.

  Between the launch, the first region and the second, the core's unscoped buffers hold: the launch memory
  (`W0`); then the same with the first region's arrays at what its pipeline leaves — the input unchanged, the
  8 × 128 tile at the last point's write-back (`W1`); then the same with the second region's arrays at what
  its pipeline leaves — its six inputs unchanged, the result array at its sixteen write-backs (`W2`).  Each
  region is entered from every unscoped buffer at the boundary's contents and left at the next boundary's; the
  run ends with every unscoped buffer at `W2`, from which both the frame (the arguments are as launched) and
  the result array are read.
-/
import proofs.«157387_j34823594836361_1_alg».proof.Proof.KRegion0b
import proofs.«157387_j34823594836361_1_alg».proof.Proof.KRegion1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => (s₀ m ρ).mem ((c : Dev nD), b)
/-- The same read at the TensorCore's references: what the first region's proof data take. -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit: its arrays at what the pipeline leaves, every other buffer as entered. -/
def W2 (c : Dev nD) : Valuation τ sig (Elt F) :=
  Pipeline.withArrays spec1 c (W1 m ρ c) fun w => (R1.dat1 (V1 m ρ) c).arrAt w cfg1.N
theorem W2_arr (c : Dev nD) (w : Fin cfg1.W) :
    W2 m ρ c (Proc.devRef .tc (Pipeline.arrRef spec1 w)) = (R1.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, and the result array is the second pipeline's -/

/-- The input, which both regions stage through an input window. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((R1.dat1 (V1 m ρ) c).arrAt_in 0 rfl _).trans (R1.A_eq1 (V1 m ρ) c 0))
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl
/-- The weights, which the second region stages and the first never sees. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((R1.dat1 (V1 m ρ) c).arrAt_in 1 rfl _).trans (R1.A_eq1 (V1 m ρ) c 1))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((R1.dat1 (V1 m ρ) c).arrAt_in 2 rfl _).trans (R1.A_eq1 (V1 m ρ) c 2))
    _ = W0 m ρ c (Proc.devRef .tc main_arg2) := W1_of_ne m ρ c main_arg2 (by decide)
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 3).trans (((R1.dat1 (V1 m ρ) c).arrAt_in 3 rfl _).trans (R1.A_eq1 (V1 m ρ) c 3))
    _ = W0 m ρ c (Proc.devRef .tc main_arg3) := W1_of_ne m ρ c main_arg3 (by decide)
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((R1.dat1 (V1 m ρ) c).arrAt_in 4 rfl _).trans (R1.A_eq1 (V1 m ρ) c 4))
    _ = W0 m ρ c (Proc.devRef .tc main_arg4) := W1_of_ne m ρ c main_arg4 (by decide)
    _ = m ((c : Thread nD τ).loc main_arg4) := rfl
/-- The result array ends at the second pipeline's write-backs. -/
theorem W2_main_v1 (c : Dev nD) : W2 m ρ c (Proc.devRef .tc main_v1) = (R1.dat1 (V1 m ρ) c).arrAt 6 cfg1.N :=
  W2_arr m ρ c 6
/-- The tile the second region reads is the first pipeline's last write-back. -/
theorem V1_main_v0 (c : Dev nD) : V1 m ρ c main_v0 = (R0.dat0 (V0 m ρ) c).arrAt 1 cfg0.N :=
  W1_arr m ρ c 1
/-- The second region finds the arguments as launched. -/
theorem V1_main_arg0 (c : Dev nD) : V1 m ρ c main_arg0 = m ((c : Thread nD τ).loc main_arg0) :=
  (W1_arr m ρ c 0).trans (((R0.dat0 (V0 m ρ) c).arrAt_in 0 rfl _).trans (R0.A_eq0 (V0 m ρ) c 0))
theorem V1_main_arg1 (c : Dev nD) : V1 m ρ c main_arg1 = m ((c : Thread nD τ).loc main_arg1) := W1_of_ne m ρ c main_arg1 (by decide)
theorem V1_main_arg2 (c : Dev nD) : V1 m ρ c main_arg2 = m ((c : Thread nD τ).loc main_arg2) := W1_of_ne m ρ c main_arg2 (by decide)
theorem V1_main_arg3 (c : Dev nD) : V1 m ρ c main_arg3 = m ((c : Thread nD τ).loc main_arg3) := W1_of_ne m ρ c main_arg3 (by decide)
theorem V1_main_arg4 (c : Dev nD) : V1 m ρ c main_arg4 = m ((c : Thread nD τ).loc main_arg4) := W1_of_ne m ρ c main_arg4 (by decide)

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first region: entered from every unscoped buffer at `W0`, left at `W1`.  Its arrays are split out of the
    unscoped buffers and put back at the exit contents; the generator register and the scoped rest go into the
    region's invariant (which names the scratch tile from the second point on) and come back out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (R0.hin0 (V0 m ρ) c)
    unfold Pipeline.ΦA
    iintro ⟨Hp, -, Hr⟩
    isplitl [Hr]; · iexact Hr
    iexact Hp
  hout c := by
    refine (R0.hout0 (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W1`, left at `W2`; its invariant is the plain one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with every unscoped buffer of every core at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c)⟩) (run_all m ρ)

/-- THE RUN WITH THE RESULT NAMED: the result array ends at the second pipeline's write-backs, the arguments as launched. -/
theorem run_value : θ_run defs (onTc (τ := τ) (main (F := F))) ⟨m, fun _ => 0, ρ⟩ (fun r => ∀ c : Dev nD,
      r.2.mem ((c.tc : Thread nD τ).loc main_v1) = (R1.dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c)⟩) (run_all m ρ)

end Cert.Kernel.Run

end
-- ==== Proof.KIRegion0.lean ====
/-
  The first region: the largest magnitude of the input, taken block by block.

  The grid has eight points; point `t` sees rows `1024 t … 1024 t + 1023` of the input.  A scratch tile of
  8 × 128 entries carries a running maximum from point to point: it is reset to zero at the first point, at
  every point it becomes the entrywise maximum of itself and the block's largest magnitude, and at the last
  point it is copied into the output tile.  This module runs the body in its three control cases (first
  point / a middle point / last point) and names what each case leaves in the scratch and in the output tile.
-/
import proofs.«157387_j34823594836361_1_alg».proof.Proof.Gen.KernelIdeal.Launch
import proofs.«157387_j34823594836361_1_alg».proof.Proof.Gen.KernelIdeal.Skeleton
import proofs.«157387_j34823594836361_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "This is the first point": the reset is taken. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point": the output tile is written. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- A staging buffer of the output tile, through which its contents are stated. -/
abbrev VO0_1 : View sig .tc .vmem S8x128 .f32 := (Memref.whole cc0_stg1_0 : Memref sig .tc .vmem S8x128 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The scratch tile that carries the running maximum. -/
abbrev scM0_0 : Memref sig .tc .vmem S8x128 .f32 := Memref.whole cc0_scratch0
abbrev VS0_0 : View sig .tc .vmem S8x128 .f32 := scM0_0.view

/-- The region's plain invariant with the scratch tile as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f)) ∗ (∃ r, prngReg c r)) := by
  unfold Pipeline.ΦA; rw [scopedRest0_eq]; simp only [scM0_0, owns_whole]; try rfl

/-! ## The body in its three cases -/

set_option maxHeartbeats 1000000 in
/-- FIRST POINT: the scratch, found at anything, is reset and then raised to the block's largest magnitude; the
    output tile is left as found. -/
noncomputable def kernelRun0_A (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : cond0_0 i) (hc1 : ¬cond0_1 i)
    (x0 : Vec F S1024x2048 .f32) :
    Σ' (L1 : List (View.Piece (Elt F) S8x128 .f32)), { LS0 : List (View.Piece (Elt F) S8x128 .f32) //
      ∀ (xi1 : Vec F S8x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__max_abs_kernel i arg1 harg1 arg2 harg2 arg3 harg3) K } := by
  refine ⟨[], ?_, fun xi1 E K => ?run⟩
  case run =>
    simp only [cc0__max_abs_kernel_eq_skeleton]; unfold cc0__max_abs_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- A MIDDLE POINT: the scratch, found at what the point before left, is raised to the block's largest magnitude;
    the output tile is left as found. -/
noncomputable def kernelRun0_B (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : ¬cond0_1 i)
    (x0 : Vec F S1024x2048 .f32) (xs0 : Vec F S8x128 .f32) :
    Σ' (L1 : List (View.Piece (Elt F) S8x128 .f32)), { LS0 : List (View.Piece (Elt F) S8x128 .f32) //
      ∀ (xi1 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__max_abs_kernel i arg1 harg1 arg2 harg2 arg3 harg3) K } := by
  refine ⟨[], ?_, fun xi1 E K => ?run⟩
  case run =>
    simp only [cc0__max_abs_kernel_eq_skeleton]; unfold cc0__max_abs_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT: the scratch is raised once more and then copied into the output tile, found at anything. -/
noncomputable def kernelRun0_C (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) :
    Σ' (L1 : List (View.Piece (Elt F) S8x128 .f32)), { LS0 : List (View.Piece (Elt F) S8x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__max_abs_kernel i arg1 harg1 arg2 harg2 arg3 harg3) K } := by
  refine ⟨?_, ?_, fun E K => ?run⟩
  case run =>
    simp only [cc0__max_abs_kernel_eq_skeleton]; unfold cc0__max_abs_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.R0

end
-- ==== Proof.KIRegion0b.lean ====
/-
  The first region, continued: what the scratch tile and the output tile hold after each of the eight points
  (by recursion on the point: the first point's case, then a middle point's case over what the point before
  left, then the last point's), the region's invariant that carries the scratch from point to point, the
  proof data of the pipeline, and the body's obligation at every point.
-/
import proofs.«157387_j34823594836361_1_alg».proof.Proof.KIRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What each case leaves in the scratch tile and in the output tile -/

/-- Where the body stores nothing into the output tile its proof-data entry is a placeholder nothing reads. -/
def idleTile : Vec F S8x128 .f32 := VO0_1.read (Elt F) VO0_1.junk

theorem scover0_A_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : cond0_0 i) (hc1 : ¬cond0_1 i)
    (x0 : Vec F S1024x2048 .f32) (y : S8x128.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S8x128.size (by sl_kernel_rfl) y

/-- The scratch tile after the first point. -/
def sout0_A_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : cond0_0 i) (hc1 : ¬cond0_1 i)
    (x0 : Vec F S1024x2048 .f32) : Vec F S8x128 .f32 :=
  VS0_0.read (Elt F) (VS0_0.writes (Elt F) VS0_0.junk (kernelRun0_A c i arg1 harg1 arg2 harg2 arg3 harg3 hc0 hc1 x0).2.1)

theorem scover0_B_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : ¬cond0_1 i)
    (x0 : Vec F S1024x2048 .f32) (xs0 : Vec F S8x128 .f32) (y : S8x128.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S8x128.size (by sl_kernel_rfl) y

/-- The scratch tile after a middle point, from what the point before left in it. -/
def sout0_B_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : ¬cond0_1 i)
    (x0 : Vec F S1024x2048 .f32) (xs0 : Vec F S8x128 .f32) : Vec F S8x128 .f32 :=
  VS0_0.read (Elt F) (VS0_0.writes (Elt F) VS0_0.junk (kernelRun0_B c i arg1 harg1 arg2 harg2 arg3 harg3 hc0 hc1 x0 xs0).2.1)

theorem cover0_C_1 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) (y : S8x128.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S8x128.size (by sl_kernel_rfl) y

/-- The output tile after the last point. -/
def out0_C_1 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) : Vec F S8x128 .f32 :=
  VO0_1.read (Elt F) (VO0_1.writes (Elt F) VO0_1.junk (kernelRun0_C c i arg1 harg1 arg2 harg2 arg3 harg3 hc0 hc1 x0 xs0).1)

theorem scover0_C_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) (y : S8x128.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S8x128.size (by sl_kernel_rfl) y

/-- The scratch tile after the last point. -/
def sout0_C_0 (c : Dev nD) (i : grid0.Coords) (arg1 : Memref sig .tc .vmem S1024x2048 .f32) (harg1 : arg1.IsWhole) (arg2 : Memref sig .tc .vmem S8x128 .f32) (harg2 : arg2.IsWhole) (arg3 : Memref sig .tc .vmem S8x128 .f32) (harg3 : arg3.IsWhole) (hc0 : ¬cond0_0 i) (hc1 : cond0_1 i)
    (x0 : Vec F S1024x2048 .f32) (xs0 : Vec F S8x128 .f32) : Vec F S8x128 .f32 :=
  VS0_0.read (Elt F) (VS0_0.writes (Elt F) VS0_0.junk (kernelRun0_C c i arg1 harg1 arg2 harg2 arg3 harg3 hc0 hc1 x0 xs0).2.1)

/-! ## Point by point -/

theorem not_first (n : ℕ) (hn : n + 1 < cfg0.N) : ¬ (n + 1) % 8 = 0 := by
  have hN : n + 1 < 8 := lt_of_lt_of_eq hn (show cfg0.N = 8 from N_0); omega

/-- THE ACCUMULATION: the output tile and the scratch tile after the body at point `n` (a pair). -/
def outsAt0 (c : Dev nD) : (n : ℕ) → n < cfg0.N → Vec F S8x128 .f32 × Vec F S8x128 .f32
  | 0, hn => (idleTile, sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => absurd ((hcond0_1 ⟨0, hn⟩).mp h) (show ¬ (0 % 8 = 7) by decide)) (iblk0 V c 0 ⟨0, hn⟩))
  | n + 1, hn =>
    if h1 : (n + 1) % 8 = 7 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => not_first n hn ((hcond0_0 ⟨n + 1, hn⟩).mp h)) ((hcond0_1 ⟨n + 1, hn⟩).mpr h1) (iblk0 V c 0 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => not_first n hn ((hcond0_0 ⟨n + 1, hn⟩).mp h)) ((hcond0_1 ⟨n + 1, hn⟩).mpr h1) (iblk0 V c 0 ⟨n + 1, hn⟩) (outsAt0 c n (Nat.lt_of_succ_lt hn)).2)
    else
      (idleTile,
       sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => not_first n hn ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleTile, sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact absurd h0 (not_first n hn)

theorem outsAt0_B (c : Dev nD) (t : Fin cfg0.N) (h0 : ¬t.val % 8 = 0) (h1 : ¬t.val % 8 = 7) :
    outsAt0 V c t.val t.isLt = (idleTile, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The invariant that carries the scratch tile -/

/-- The scoped buffers of the core that this region never touches (the second region's staging buffers),
    each whole at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

theorem PhiA0_eq' (c : Dev nD) :
    (Pipeline.ΦA spec0 c : sProp 𝕄) = iprop(iprop((∃ d, owns (c : Thread nD τ) scM0_0 fullShare d) ∗ rest0 (F := F) c) ∗ (∃ r, prngReg c r)) :=
  PhiA0_eq c

/-- Before point 0 the region's plain invariant (the scratch at anything); before a later point the scratch
    tile at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The arrays as the region finds them; after the body at point `t` the input's buffer at its block and the
    output tile's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's buffer holds its block; the point's position says which case it is in;
    the invariant hands the body the scratch tile at what the point before left (at anything at the first
    point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  by_cases h0 : t.val % 8 = 0
  · have h1 : ¬ t.val % 8 = 7 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [outsAt0_A V c t h0 h1]
    unfold sout0_A_0; (try dsimp only)
    rw [PhiS_castSucc V c t, PhiS_zero V c _ _ hz, PhiA0_eq']
    iintro ⟨⟨⟨HS0, Hrest⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hg Hrest]
    · isplitl [HS0 Hrest]
      · isplitl [HS0]
        · unfold owns; iexists _; isplitr
          swap; · iexact HS0
          ipureintro; exact View.read_writes_of_cover _ _ _ _ _ (scover0_A_0 c _ _ _ _ _ _ _ _ _ _)
        iexact Hrest
      iexact Hg
    isplitl [Ho]; · iexact Ho
    isplitl [H0]; · iexact H0
    iexists _; iexact H1
  · have hz : t.val ≠ 0 := fun h => h0 (by rw [h])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _)
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the plain one back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq']
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.KernelIdeal.R0

end
-- ==== Proof.KIRegion1.lean ====
import proofs.«157387_j34823594836361_1_alg».proof.Proof.Gen.KernelIdeal.Launch
import proofs.«157387_j34823594836361_1_alg».proof.Proof.Gen.KernelIdeal.Skeleton
import proofs.«157387_j34823594836361_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (the second kernel call) of the idealized program: its frame half

Stated at a parameter `V`, the TensorCore's buffer contents when the region is entered. Each window's
block at a grid point is read off its array in `V`; every input window's staging buffer holds that block
at every point (fetched there or not, since an unfetched window's block index has not moved); the body
loads column slices of the activation block, rows of the three per-fold vectors, one weight matrix per
fold and a single scalar, and stores eight column slices that tile the output block. What the body leaves
in the output buffer is therefore a closed function of the six input blocks: the eight stored payloads laid
side by side.
-/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is
    not fetched its block index has not moved, so the buffer still holds this point's block; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is
    not fetched its block index has not moved, so the buffer still holds this point's block; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is
    not fetched its block index has not moved, so the buffer still holds this point's block; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is
    not fetched its block index has not moved, so the buffer still holds this point's block; the window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is
    not fetched its block index has not moved, so the buffer still holds this point's block; the window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is
    not fetched its block index has not moved, so the buffer still holds this point's block; the window is uncut
    and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The scalar at the corner of the 8×128 tile. -/
abbrev rT : Rect S8x128 := Rect.unit (s := S8x128) ![0, 0] S1x1.size inb_S8x128_S1x1_0_0
/-- Column slice 0 (columns 0–255) of a 512×2048 block. -/
abbrev rX0 : Rect S512x2048 := Rect.unit (s := S512x2048) ![0, 0] S512x256.size inb_S512x2048_S512x256_0_0
/-- Column slice 1 (columns 256–511) of a 512×2048 block. -/
abbrev rX1 : Rect S512x2048 := Rect.unit (s := S512x2048) ![0, 256] S512x256.size inb_S512x2048_S512x256_0_256
/-- Column slice 2 (columns 512–767) of a 512×2048 block. -/
abbrev rX2 : Rect S512x2048 := Rect.unit (s := S512x2048) ![0, 512] S512x256.size inb_S512x2048_S512x256_0_512
/-- Column slice 3 (columns 768–1023) of a 512×2048 block. -/
abbrev rX3 : Rect S512x2048 := Rect.unit (s := S512x2048) ![0, 768] S512x256.size inb_S512x2048_S512x256_0_768
/-- Column slice 4 (columns 1024–1279) of a 512×2048 block. -/
abbrev rX4 : Rect S512x2048 := Rect.unit (s := S512x2048) ![0, 1024] S512x256.size inb_S512x2048_S512x256_0_1024
/-- Column slice 5 (columns 1280–1535) of a 512×2048 block. -/
abbrev rX5 : Rect S512x2048 := Rect.unit (s := S512x2048) ![0, 1280] S512x256.size inb_S512x2048_S512x256_0_1280
/-- Column slice 6 (columns 1536–1791) of a 512×2048 block. -/
abbrev rX6 : Rect S512x2048 := Rect.unit (s := S512x2048) ![0, 1536] S512x256.size inb_S512x2048_S512x256_0_1536
/-- Column slice 7 (columns 1792–2047) of a 512×2048 block. -/
abbrev rX7 : Rect S512x2048 := Rect.unit (s := S512x2048) ![0, 1792] S512x256.size inb_S512x2048_S512x256_0_1792
/-- Row 0 of a 1×8×256 block of per-fold vectors. -/
abbrev rR0 : Rect S1x8x256 := Rect.unit (s := S1x8x256) ![0, 0, 0] S1x1x256.size inb_S1x8x256_S1x1x256_0_0_0
/-- Row 1 of a 1×8×256 block of per-fold vectors. -/
abbrev rR1 : Rect S1x8x256 := Rect.unit (s := S1x8x256) ![0, 1, 0] S1x1x256.size inb_S1x8x256_S1x1x256_0_1_0
/-- Row 2 of a 1×8×256 block of per-fold vectors. -/
abbrev rR2 : Rect S1x8x256 := Rect.unit (s := S1x8x256) ![0, 2, 0] S1x1x256.size inb_S1x8x256_S1x1x256_0_2_0
/-- Row 3 of a 1×8×256 block of per-fold vectors. -/
abbrev rR3 : Rect S1x8x256 := Rect.unit (s := S1x8x256) ![0, 3, 0] S1x1x256.size inb_S1x8x256_S1x1x256_0_3_0
/-- Row 4 of a 1×8×256 block of per-fold vectors. -/
abbrev rR4 : Rect S1x8x256 := Rect.unit (s := S1x8x256) ![0, 4, 0] S1x1x256.size inb_S1x8x256_S1x1x256_0_4_0
/-- Row 5 of a 1×8×256 block of per-fold vectors. -/
abbrev rR5 : Rect S1x8x256 := Rect.unit (s := S1x8x256) ![0, 5, 0] S1x1x256.size inb_S1x8x256_S1x1x256_0_5_0
/-- Row 6 of a 1×8×256 block of per-fold vectors. -/
abbrev rR6 : Rect S1x8x256 := Rect.unit (s := S1x8x256) ![0, 6, 0] S1x1x256.size inb_S1x8x256_S1x1x256_0_6_0
/-- Row 7 of a 1×8×256 block of per-fold vectors. -/
abbrev rR7 : Rect S1x8x256 := Rect.unit (s := S1x8x256) ![0, 7, 0] S1x1x256.size inb_S1x8x256_S1x1x256_0_7_0
/-- Weight matrix 0 of the 8×256×256 block. -/
abbrev rW0 : Rect S8x256x256 := Rect.unit (s := S8x256x256) ![0, 0, 0] S1x256x256.size inb_S8x256x256_S1x256x256_0_0_0
/-- Weight matrix 1 of the 8×256×256 block. -/
abbrev rW1 : Rect S8x256x256 := Rect.unit (s := S8x256x256) ![1, 0, 0] S1x256x256.size inb_S8x256x256_S1x256x256_1_0_0
/-- Weight matrix 2 of the 8×256×256 block. -/
abbrev rW2 : Rect S8x256x256 := Rect.unit (s := S8x256x256) ![2, 0, 0] S1x256x256.size inb_S8x256x256_S1x256x256_2_0_0
/-- Weight matrix 3 of the 8×256×256 block. -/
abbrev rW3 : Rect S8x256x256 := Rect.unit (s := S8x256x256) ![3, 0, 0] S1x256x256.size inb_S8x256x256_S1x256x256_3_0_0
/-- Weight matrix 4 of the 8×256×256 block. -/
abbrev rW4 : Rect S8x256x256 := Rect.unit (s := S8x256x256) ![4, 0, 0] S1x256x256.size inb_S8x256x256_S1x256x256_4_0_0
/-- Weight matrix 5 of the 8×256×256 block. -/
abbrev rW5 : Rect S8x256x256 := Rect.unit (s := S8x256x256) ![5, 0, 0] S1x256x256.size inb_S8x256x256_S1x256x256_5_0_0
/-- Weight matrix 6 of the 8×256×256 block. -/
abbrev rW6 : Rect S8x256x256 := Rect.unit (s := S8x256x256) ![6, 0, 0] S1x256x256.size inb_S8x256x256_S1x256x256_6_0_0
/-- Weight matrix 7 of the 8×256×256 block. -/
abbrev rW7 : Rect S8x256x256 := Rect.unit (s := S8x256x256) ![7, 0, 0] S1x256x256.size inb_S8x256x256_S1x256x256_7_0_0
/-! ## What the body leaves in the output window's buffer -/

/-- The output window's staging buffer after the body, from the six input blocks: the body's eight stores as
    pieces, last first; each payload is the named payload of the store over the values the body has read and
    computed before it, bound here in the body's own order. -/
def out1_6 (x0 : Vec F S512x2048 .f32) (x1 : Vec F S8x256x256 .f32) (x2 x3 x4 : Vec F S1x8x256 .f32) (x5 : Vec F S8x128 .f32) : Vec F S512x2048 .f32 :=
  let v0 := View.ld x5 rT
  let v2 := View.ld x0 rX0
  let v3 := View.ld x2 rR0
  let v8 := View.ld x0 rX1
  let v9 := View.ld x2 rR1
  let v14 := View.ld x0 rX2
  let v15 := View.ld x2 rR2
  let v20 := View.ld x0 rX3
  let v21 := View.ld x2 rR3
  let v26 := View.ld x0 rX4
  let v27 := View.ld x2 rR4
  let v1 := k1_pay2 v0
  let v7 := k1_pay3 v2 v3
  let v13 := k1_pay4 v8 v9
  let v19 := k1_pay5 v14 v15
  let v25 := k1_pay6 v20 v21
  let v31 := k1_pay7 v26 v27
  let v32 := View.ld x0 rX5
  let v33 := View.ld x2 rR5
  let v38 := View.ld x0 rX6
  let v39 := View.ld x2 rR6
  let v44 := View.ld x0 rX7
  let v45 := View.ld x2 rR7
  let v50 := View.ld x3 rR0
  let v54 := View.ld x4 rR0
  let v37 := k1_pay8 v32 v33
  let v43 := k1_pay9 v38 v39
  let v49 := k1_pay10 v44 v45
  let v53 := k1_pay11 v1 v50
  let v57 := k1_pay12 v1 v54
  let v68 := k1_pay13 v1 v7 v50 v54
  let v118 := k1_pay14 v13 v19 v25 v31 v37 v53 v57 v68
  let v121 := k1_pay15 v43 v53
  let v123 := k1_pay16 v57
  let v140 := View.ld x1 rW0
  let v146 := View.ld x3 rR1
  let v150 := View.ld x4 rR1
  let v149 := k1_pay18 v1 v146
  let v153 := k1_pay19 v1 v150
  let v164 := k1_pay20 v1 v7 v146 v150
  let v166 := k1_pay21 v1 v146
  let v214 := k1_pay22 v13 v19 v25 v31 v37 v149 v153 v164 v166
  let v221 := k1_pay23 v43 v149 v153
  let v236 := View.ld x1 rW1
  let v242 := View.ld x3 rR2
  let v246 := View.ld x4 rR2
  let v245 := k1_pay25 v1 v242
  let v249 := k1_pay26 v1 v246
  let v260 := k1_pay27 v1 v7 v242 v246
  let v263 := k1_pay28 v1 v13 v242
  let v264 := k1_pay29 v1 v246
  let v310 := k1_pay30 v13 v19 v25 v31 v37 v245 v249 v260 v263 v264
  let v317 := k1_pay31 v43 v245 v249
  let v318 := k1_pay32 (F := F)
  let v332 := View.ld x1 rW2
  let v338 := View.ld x3 rR3
  let v342 := View.ld x4 rR3
  let v341 := k1_pay34 v1 v338
  let v345 := k1_pay35 v1 v342
  let v356 := k1_pay36 v1 v7 v338 v342
  let v359 := k1_pay37 v1 v13 v338
  let v362 := k1_pay38 v1 v13 v342
  let v416 := k1_pay39 v13 v19 v25 v31 v37 v43 v341 v345 v356 v359 v362
  let v428 := View.ld x1 rW3
  let v434 := View.ld x3 rR4
  let v438 := View.ld x4 rR4
  let cst_118 : F .f32 := Scalar.ofBits .f32 0x00000000#32
  let v437 := k1_pay41 v1 v434
  let v441 := k1_pay42 v1 v438
  let v452 := k1_pay43 v1 v7 v434 v438
  let v459 := k1_pay44 v1 v13 v434 v438
  let v512 := k1_pay45 v13 v19 v25 v31 v37 v43 v437 v441 v452 v459 cst_118
  let v514 := k1_pay46 v437
  let v524 := View.ld x1 rW4
  let v530 := View.ld x3 rR5
  let v534 := View.ld x4 rR5
  let v533 := k1_pay48 v1 v530
  let v537 := k1_pay49 v1 v534
  let v548 := k1_pay50 v1 v7 v530 v534
  let v557 := k1_pay51 v1 v13 v530 v534
  let v608 := k1_pay52 v19 v25 v31 v37 v43 v533 v537 v548 v557
  let v611 := k1_pay53 v49 v533
  let v612 := k1_pay54 v537
  let v620 := View.ld x1 rW5
  let v626 := View.ld x3 rR6
  let v630 := View.ld x4 rR6
  let v629 := k1_pay56 v1 v626
  let v633 := k1_pay57 v1 v630
  let v654 := k1_pay58 v1 v7 v13 v626 v630
  let v655 := k1_pay59 v1 v626
  let v704 := k1_pay60 v19 v25 v31 v37 v43 v629 v633 v654 v655
  let v707 := k1_pay61 v49 v629
  let v710 := k1_pay62 v49 v633
  let v716 := View.ld x1 rW6
  let v722 := View.ld x3 rR7
  let v726 := View.ld x4 rR7
  let v725 := k1_pay64 v1 v722
  let v729 := k1_pay65 v1 v726
  let v750 := k1_pay66 v1 v7 v13 v722 v726
  let v753 := k1_pay67 v1 v19 v722
  let cst_187 : F .f32 := Scalar.ofBits .f32 0x00000000#32
  let v800 := k1_pay68 v19 v25 v31 v37 v43 v725 v729 v750 v753
  let v807 := k1_pay69 v49 v725 v729
  let v812 := View.ld x1 rW7
  View.canon [⟨rX7, k1_pay1 v49 v800 v807 cst_187 v812⟩,
    ⟨rX6, k1_pay63 v49 v704 v707 v710 v716⟩,
    ⟨rX5, k1_pay55 v49 v608 v611 v612 v620⟩,
    ⟨rX4, k1_pay47 v49 v441 v512 v514 v524⟩,
    ⟨rX3, k1_pay40 v49 v341 v345 v416 v428⟩,
    ⟨rX2, k1_pay33 v43 v49 v245 v249 v310 v317 v318 v332⟩,
    ⟨rX1, k1_pay24 v43 v49 v149 v153 v214 v221 v236⟩,
    ⟨rX0, k1_pay17 v43 v49 v53 v57 v118 v121 v123 v140⟩]

/-- The eight stored column slices tile the 512×2048 buffer (checked by evaluation), so they cover it. -/
theorem cover1_6 (p0 p1 p2 p3 p4 p5 p6 p7 : Vec F S512x256 .f32) (y : S512x2048.Idx) :
    ∃ pc ∈ ([⟨rX7, p7⟩, ⟨rX6, p6⟩, ⟨rX5, p5⟩, ⟨rX4, p4⟩, ⟨rX3, p3⟩, ⟨rX2, p2⟩, ⟨rX1, p1⟩, ⟨rX0, p0⟩] : List (View.Piece (Elt F) S512x2048 .f32)), y ∈ pc.1.set :=
  View.cover_of_tiled [⟨rX7, p7⟩, ⟨rX6, p6⟩, ⟨rX5, p5⟩, ⟨rX4, p4⟩, ⟨rX3, p3⟩, ⟨rX2, p2⟩, ⟨rX1, p1⟩, ⟨rX0, p0⟩] S512x256.size (by rfl) y

/-! ## The body's triple -/

set_option maxHeartbeats 4000000 in
/-- The kernel body on whole staging memrefs, the inputs' at read contents `x0 … x5` and the output's at anything,
    runs to the continuation holding the inputs' as they were and the output's at `out1_6` of the inputs': the
    printed functions are their skeletons of memory operations over named payloads, run operation by operation;
    the eight stores cover the output buffer, so what it reads afterwards is their canonical overlay. -/
theorem sound_kernel1 (c : Dev nD) (E : Set ℕ) (i : grid1.Coords) (arg1 : Memref sig .tc .vmem S512x2048 .f32) (harg1 : arg1.IsWhole) (arg2 : Memref sig .tc .vmem S8x256x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x8x256 .f32) (harg5 : arg5.IsWhole) (arg6 : Memref sig .tc .vmem S8x128 .f32) (harg6 : arg6.IsWhole) (arg7 : Memref sig .tc .vmem S512x2048 .f32) (harg7 : arg7.IsWhole)
    (x0 : Vec F S512x2048 .f32) (x1 : Vec F S8x256x256 .f32) (x2 : Vec F S1x8x256 .f32) (x3 : Vec F S1x8x256 .f32) (x4 : Vec F S1x8x256 .f32) (x5 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__fused_kernel i arg1 harg1 arg2 harg2 arg3 harg3 arg4 harg4 arg5 harg5 arg6 harg6 arg7 harg7) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _ _ _ _ _ _ _ _)

/-! ## The pipeline's proof data -/

/-- The proof data of pipeline 1 on core `c`: the arrays as the region finds them (`V`); after the body at point
    `t` each input's buffer at its block and the output's at `out1_6` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.R1

end
-- ==== Proof.KIRun.lean ====
/-
  The whole program: the two regions one after the other.

  Between the launch, the first region and the second, the core's unscoped buffers hold: the launch memory
  (`W0`); then the same with the first region's arrays at what its pipeline leaves — the input unchanged, the
  8 × 128 tile at the last point's write-back (`W1`); then the same with the second region's arrays at what
  its pipeline leaves — its six inputs unchanged, the result array at its sixteen write-backs (`W2`).  Each
  region is entered from every unscoped buffer at the boundary's contents and left at the next boundary's; the
  run ends with every unscoped buffer at `W2`, from which both the frame (the arguments are as launched) and
  the result array are read.
-/
import proofs.«157387_j34823594836361_1_alg».proof.Proof.KIRegion0b
import proofs.«157387_j34823594836361_1_alg».proof.Proof.KIRegion1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => (s₀ m ρ).mem ((c : Dev nD), b)
/-- The same read at the TensorCore's references: what the first region's proof data take. -/
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit: its arrays at what the pipeline leaves, every other buffer as entered. -/
def W2 (c : Dev nD) : Valuation τ sig (Elt F) :=
  Pipeline.withArrays spec1 c (W1 m ρ c) fun w => (R1.dat1 (V1 m ρ) c).arrAt w cfg1.N
theorem W2_arr (c : Dev nD) (w : Fin cfg1.W) :
    W2 m ρ c (Proc.devRef .tc (Pipeline.arrRef spec1 w)) = (R1.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, and the result array is the second pipeline's -/

/-- The input, which both regions stage through an input window. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((R1.dat1 (V1 m ρ) c).arrAt_in 0 rfl _).trans (R1.A_eq1 (V1 m ρ) c 0))
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl
/-- The weights, which the second region stages and the first never sees. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((R1.dat1 (V1 m ρ) c).arrAt_in 1 rfl _).trans (R1.A_eq1 (V1 m ρ) c 1))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((R1.dat1 (V1 m ρ) c).arrAt_in 2 rfl _).trans (R1.A_eq1 (V1 m ρ) c 2))
    _ = W0 m ρ c (Proc.devRef .tc main_arg2) := W1_of_ne m ρ c main_arg2 (by decide)
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 3).trans (((R1.dat1 (V1 m ρ) c).arrAt_in 3 rfl _).trans (R1.A_eq1 (V1 m ρ) c 3))
    _ = W0 m ρ c (Proc.devRef .tc main_arg3) := W1_of_ne m ρ c main_arg3 (by decide)
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((R1.dat1 (V1 m ρ) c).arrAt_in 4 rfl _).trans (R1.A_eq1 (V1 m ρ) c 4))
    _ = W0 m ρ c (Proc.devRef .tc main_arg4) := W1_of_ne m ρ c main_arg4 (by decide)
    _ = m ((c : Thread nD τ).loc main_arg4) := rfl
/-- The result array ends at the second pipeline's write-backs. -/
theorem W2_main_v1 (c : Dev nD) : W2 m ρ c (Proc.devRef .tc main_v1) = (R1.dat1 (V1 m ρ) c).arrAt 6 cfg1.N :=
  W2_arr m ρ c 6
/-- The tile the second region reads is the first pipeline's last write-back. -/
theorem V1_main_v0 (c : Dev nD) : V1 m ρ c main_v0 = (R0.dat0 (V0 m ρ) c).arrAt 1 cfg0.N :=
  W1_arr m ρ c 1
/-- The second region finds the arguments as launched. -/
theorem V1_main_arg0 (c : Dev nD) : V1 m ρ c main_arg0 = m ((c : Thread nD τ).loc main_arg0) :=
  (W1_arr m ρ c 0).trans (((R0.dat0 (V0 m ρ) c).arrAt_in 0 rfl _).trans (R0.A_eq0 (V0 m ρ) c 0))
theorem V1_main_arg1 (c : Dev nD) : V1 m ρ c main_arg1 = m ((c : Thread nD τ).loc main_arg1) := W1_of_ne m ρ c main_arg1 (by decide)
theorem V1_main_arg2 (c : Dev nD) : V1 m ρ c main_arg2 = m ((c : Thread nD τ).loc main_arg2) := W1_of_ne m ρ c main_arg2 (by decide)
theorem V1_main_arg3 (c : Dev nD) : V1 m ρ c main_arg3 = m ((c : Thread nD τ).loc main_arg3) := W1_of_ne m ρ c main_arg3 (by decide)
theorem V1_main_arg4 (c : Dev nD) : V1 m ρ c main_arg4 = m ((c : Thread nD τ).loc main_arg4) := W1_of_ne m ρ c main_arg4 (by decide)

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first region: entered from every unscoped buffer at `W0`, left at `W1`.  Its arrays are split out of the
    unscoped buffers and put back at the exit contents; the generator register and the scoped rest go into the
    region's invariant (which names the scratch tile from the second point on) and come back out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (R0.hin0 (V0 m ρ) c)
    unfold Pipeline.ΦA
    iintro ⟨Hp, -, Hr⟩
    isplitl [Hr]; · iexact Hr
    iexact Hp
  hout c := by
    refine (R0.hout0 (V0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W1`, left at `W2`; its invariant is the plain one. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with every unscoped buffer of every core at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c)⟩) (run_all m ρ)

/-- THE RUN WITH THE RESULT NAMED: the result array ends at the second pipeline's write-backs, the arguments as launched. -/
theorem run_value : θ_run defs (onTc (τ := τ) (main (F := F))) ⟨m, fun _ => 0, ρ⟩ (fun r => ∀ c : Dev nD,
      r.2.mem ((c.tc : Thread nD τ).loc main_v1) = (R1.dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c)⟩) (run_all m ρ)

end Cert.KernelIdeal.Run

end
-- ==== Proof.Spec.lean ====
/-
  The mathematics of the folded linear layer, free of any program.

  An input row of 2048 entries is eight "folds" of 256 lanes.  With a scale `s`, a fold's entry
  `v = x[b, fp*256 + k] + pe[0, fp, k]` is kept when it lies in the closed range
  `[mn[0, f, k] * s, mx[0, f, k] * s]` of the OUTPUT fold `f` and replaced by zero otherwise (`msk`).
  Output entry `(b, f*256 + o)` pairs the masked entries with row `o` of the weight matrix `W[f]`.

  Two arrangements of that double sum are stated, index by index:
  * `kformAt`: the masked entries are first summed over the eight input folds `fp`, and that one row is
    contracted against `W[f, o, ·]` (one product per lane `k`);
  * `rformAt`: every input fold is contracted against `W[f, o, ·]` separately and the eight results are summed
    from zero; here the scale is `(r / 127) * 127` for the largest magnitude `r`, and the entry is first
    clamped to `[-(r / 127) * 127, (r / 127) * 127]`.
  `maxAbs x` is the largest magnitude of `x`.
-/
import Idealize.ShloMosaic.PureOps.Ideal
import Idealize.ShloMosaic.PureOps.Ideal.Laws
import Idealize.ShloMosaic.Lib.ValueIdx

noncomputable section

namespace Cert.FoldSpec

open Idealize.ShloMosaic Idealize.ShloMosaic.ValueIdx

/-- The shapes of the five arguments: the input (and the result), the weights, and the three per-fold rows. -/
abbrev SX : Shape := ⟨2, ![8192, 2048]⟩
abbrev SW : Shape := ⟨3, ![8, 256, 256]⟩
abbrev SP : Shape := ⟨3, ![1, 8, 256]⟩

/-- Lane `k` of fold `fp` is column `fp * 256 + k` of a row of 2048. -/
def col (fp : Fin 8) (k : Fin 256) : Fin 2048 := ⟨fp.val * 256 + k.val, by omega⟩
/-- The fold a column belongs to, and its lane inside the fold. -/
def foldOf (j : Fin 2048) : Fin 8 := ⟨j.val / 256, by omega⟩
def laneOf (j : Fin 2048) : Fin 256 := ⟨j.val % 256, by omega⟩

/-- The float pattern of 127. -/
abbrev c127 : Ideal .f32 := Ideal.ofBits .f32 0x42FE0000#32

/-- The range mask: an entry below `lo` or above `hi` becomes zero, any other is kept. -/
def msk (lo hi v : Ideal .f32) : Ideal .f32 :=
  Scalar.select (IntOp.ori (FloatOps.cmpf .olt v lo) (FloatOps.cmpf .ogt v hi)) (0 : EReal) v

/-- The largest magnitude of the input. -/
def maxAbs (x : FVec Ideal SX .f32) : EReal := Finset.univ.sup fun i => max (x i) (-(x i))

/-- Fold-sum first, then one contraction: entry `(b, j)` at scale `s`. -/
def kformAt (s : EReal) (x : FVec Ideal SX .f32) (W : FVec Ideal SW .f32) (pe mn mx : FVec Ideal SP .f32)
    (b : Fin 8192) (j : Fin 2048) : EReal :=
  ∑ k : Fin 256,
    (∑ fp : Fin 8, msk (mn (ix3 0 (foldOf j) k) * s) (mx (ix3 0 (foldOf j) k) * s)
        (x (ix2 b (col fp k)) + pe (ix3 0 fp k)))
      * W (ix3 (foldOf j) (laneOf j) k)

/-- `kformAt` as an array. -/
def kform (s : EReal) (x : FVec Ideal SX .f32) (W : FVec Ideal SW .f32) (pe mn mx : FVec Ideal SP .f32) :
    FVec Ideal SX .f32 := fun i => kformAt s x W pe mn mx (i 0) (i 1)

theorem kform_ix2 (s : EReal) (x : FVec Ideal SX .f32) (W : FVec Ideal SW .f32) (pe mn mx : FVec Ideal SP .f32)
    (b : Fin 8192) (j : Fin 2048) : kform s x W pe mn mx (ix2 b j) = kformAt s x W pe mn mx b j := rfl

/-- One contraction per input fold, summed from zero: entry `(b, j)` when the largest magnitude reduces to `r`. -/
def rformAt (r : EReal) (x : FVec Ideal SX .f32) (W : FVec Ideal SW .f32) (pe mn mx : FVec Ideal SP .f32)
    (b : Fin 8192) (j : Fin 2048) : EReal :=
  (0 : EReal) + ∑ fp : Fin 8, ∑ k : Fin 256,
    msk (mn (ix3 0 (foldOf j) k) * (Ideal.div r c127 * c127)) (mx (ix3 0 (foldOf j) k) * (Ideal.div r c127 * c127))
        (min (Ideal.div r c127 * c127) (max (-(Ideal.div r c127) * c127) (x (ix2 b (col fp k)))) + pe (ix3 0 fp k))
      * W (ix3 (foldOf j) (laneOf j) k)

/-- `rformAt` as an array. -/
def rform (r : EReal) (x : FVec Ideal SX .f32) (W : FVec Ideal SW .f32) (pe mn mx : FVec Ideal SP .f32) :
    FVec Ideal SX .f32 := fun i => rformAt r x W pe mn mx (i 0) (i 1)

theorem rform_ix2 (r : EReal) (x : FVec Ideal SX .f32) (W : FVec Ideal SW .f32) (pe mn mx : FVec Ideal SP .f32)
    (b : Fin 8192) (j : Fin 2048) : rform r x W pe mn mx (ix2 b j) = rformAt r x W pe mn mx b j := rfl

end Cert.FoldSpec

end
-- ==== Proof.KIValue0.lean ====
/-
  The value of the first kernel's arithmetic at the extended reals.

  A maximum reduction started at -∞ is the supremum of the entries it folds over.  The block's magnitudes are
  reduced along the lanes (one supremum per row), the column of row suprema is reduced down the rows, and the
  single result is spread over the tile: every entry of the new tile is the larger of the old entry and the
  supremum of the block's magnitudes.  Folding that step over the eight row blocks of the input, from a tile of
  zeros, gives the largest magnitude of the whole input: each magnitude max(a, -a) is nonnegative, so the
  leading zero is absorbed, and the supremum over all rows is the supremum over the blocks of the block suprema.
-/
import proofs.«157387_j34823594836361_1_alg».proof.Proof.Gen.KernelIdeal.Skeleton
import proofs.«157387_j34823594836361_1_alg».proof.Proof.Spec
import Idealize.ShloMosaic.Lib.ValueIdx
import Idealize.ShloMosaic.Lib.Pipeline.Value
import Idealize.ShloMosaic.PureOps.Ideal.Laws

noncomputable section

namespace Cert.KernelIdeal.V0

open Idealize.ShloMosaic Idealize.ShloMosaic.ValueIdx Cert.KernelIdeal Cert.KernelIdeal.Gen Cert.FoldSpec

/-- The float pattern 0xFF800000 is -∞. -/
theorem neg_inf_eq : Ideal.ofBits .f32 0xFF800000#32 = (⊥ : EReal) := by simp [Ideal.ofBits, Ideal.ieee]

/-- A fold of max from -∞ is the supremum. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- A maximum reduction from -∞ at a result index is the supremum over the source indices that reduce to it. -/
theorem multiReduction_max_eq_sup {s t : Shape} {axes : List (Fin s.rank)} (src : FVec Ideal s .f32)
    (h : s.Reduces axes t) (hφ : FKind.Formats .f32)
    (hacc : (0xFF800000#32 : BitVec 32) = FKind.maximumf.neutral .f32 hφ) (j : t.Idx) :
    multiReduction .maximumf axes t src 0xFF800000#32 h hφ hacc j
      = (Finset.univ.filter fun i => h.drop i = j).sup src := by
  refine (multiReduction_maximumf_eq_fold src _ h hφ hacc j).trans ?_
  show Finset.fold max (Ideal.ofBits .f32 0xFF800000#32) src _ = _
  rw [neg_inf_eq, fold_max_bot_eq_sup]

/-- The reset value of the tile is zero. -/
theorem pay1_apply (i : S8x128.Idx) : k0_pay1 (F := Ideal) i = (0 : EReal) := by
  unfold k0_pay1
  rw [shapeCast_self]
  exact Ideal.ofBits_zero_f32

/-- The largest magnitude of a block. -/
def blockMax (v : Vec Ideal S1024x2048 .f32) : EReal :=
  Finset.univ.sup fun j : S1024x2048.Idx => max (v j) (-(v j))

/-- The column of row values, reduced down the rows from -∞, is the supremum of the row values. -/
theorem colMax (v5 : FVec Ideal S1024 .f32) (j : S1.Idx) :
    multiReduction .maximumf [0] S1 (shapeCast S1024x1 v5 shapeCasts_S1024_S1024x1) 0xFF800000#32
      reduces_S1024x1_S1 (.inl rfl) rfl j = Finset.univ.sup v5 := by
  refine (multiReduction_max_eq_sup _ _ _ _ j).trans ?_
  have ht : ∀ b : Fin S1.rank, S1.size b = 1 := by decide
  rw [Finset.filter_true_of_mem fun i _ => funext fun b => Fin.ext (by
    have := (reduces_S1024x1_S1.drop i b).isLt; have := (j b).isLt; have := ht b; omega)]
  apply le_antisymm
  · exact Finset.sup_le fun i _ => Finset.le_sup (f := v5) (Finset.mem_univ _)
  · refine Finset.sup_le fun p _ => ?_
    have := Finset.le_sup (f := shapeCast S1024x1 v5 shapeCasts_S1024_S1024x1)
      (Finset.mem_univ ((Shape.reshapeEquiv shapeCasts_S1024_S1024x1).symm p))
    simpa [shapeCast] using this

/-- The two reductions of the block's magnitudes give the block's largest magnitude. -/
theorem blockMax_eq (v3 : FVec Ideal S1024x2048 .f32) (j : S1.Idx) :
    multiReduction .maximumf [0] S1
      (shapeCast S1024x1
        (multiReduction .maximumf [1] S1024 (absf v3) 0xFF800000#32 reduces_S1024x2048_S1024
          (.inl rfl) rfl)
        shapeCasts_S1024_S1024x1)
      0xFF800000#32 reduces_S1024x1_S1 (.inl rfl) rfl j = blockMax v3 := by
  refine (colMax _ j).trans ?_
  unfold blockMax
  apply le_antisymm
  · refine Finset.sup_le fun p _ => ?_
    refine (multiReduction_max_eq_sup _ _ _ _ p).trans_le ?_
    exact Finset.sup_mono (f := absf v3) (Finset.filter_subset _ _)
  · refine Finset.sup_le fun k _ => ?_
    refine le_trans ?_ (Finset.le_sup (Finset.mem_univ (reduces_S1024x2048_S1024.drop k)))
    refine le_of_le_of_eq ?_ (multiReduction_max_eq_sup _ _ _ _ _).symm
    exact Finset.le_sup (f := absf v3) (Finset.mem_filter.2 ⟨Finset.mem_univ k, rfl⟩)

/-- One step: every entry of the tile becomes the larger of itself and the block's largest magnitude. -/
theorem pay2_apply (v3 : Vec Ideal S1024x2048 .f32) (v9 : Vec Ideal S8x128 .f32) (i : S8x128.Idx) :
    k0_pay2 (F := Ideal) v3 v9 i = max (v9 i) (blockMax v3) := by
  have key : ∀ (w : FVec Ideal S1 .f32) (c : EReal), (∀ j, w j = c) →
      shapeCast S8x128 (maximumf v9 (broadcastTo S8x128
        (shapeCast S1x1 (shapeCast S1x1 w shapeCasts_S1_S1x1) shapeCasts_S1x1_S1x1) broadcasts_S1x1_S8x128))
        shapeCasts_S8x128_S8x128 i = max (v9 i) c := by
    intro w c hw
    obtain rfl : w = fun _ => c := funext hw
    rw [shapeCast_self]
    rfl
  unfold k0_pay2
  exact key _ _ (fun j => blockMax_eq v3 j)

/-- The tile's common value after the steps of points 0 … n, from a tile of zeros: the running maximum. -/
def accMax (bm : Fin 8 → EReal) : (n : ℕ) → n < 8 → EReal
  | 0, _ => max 0 (bm 0)
  | n + 1, h => max (accMax bm n (Nat.lt_of_succ_lt h)) (bm ⟨n + 1, h⟩)

/-- The running maximum stays below any bound of zero and of every term. -/
theorem accMax_le (bm : Fin 8 → EReal) (c : EReal) (h0 : 0 ≤ c) (hc : ∀ t, bm t ≤ c) :
    ∀ (n : ℕ) (h : n < 8), accMax bm n h ≤ c
  | 0, _ => max_le h0 (hc 0)
  | n + 1, h => max_le (accMax_le bm c h0 hc n (Nat.lt_of_succ_lt h)) (hc _)

/-- The running maximum is above every term met so far. -/
theorem le_accMax (bm : Fin 8 → EReal) :
    ∀ (n : ℕ) (h : n < 8) (t : Fin 8), t.val ≤ n → bm t ≤ accMax bm n h
  | 0, _, t, ht => by
    have : t = 0 := Fin.ext (by simpa using ht)
    subst this
    exact le_max_right _ _
  | n + 1, h, t, ht => by
    rcases Nat.lt_or_ge t.val (n + 1) with hlt | hge
    · exact le_trans (le_accMax bm n (Nat.lt_of_succ_lt h) t (Nat.le_of_lt_succ hlt)) (le_max_left _ _)
    · have : t = ⟨n + 1, h⟩ := Fin.ext (Nat.le_antisymm ht hge)
      subst this
      exact le_max_right _ _

/-- A magnitude is nonnegative. -/
theorem abs_nonneg (a : EReal) : 0 ≤ max a (-a) := by
  rcases le_total 0 a with h | h
  · exact le_trans h (le_max_left _ _)
  · have : -(0 : EReal) ≤ -a := EReal.neg_le_neg_iff.mpr h
    rw [neg_zero] at this
    exact le_trans this (le_max_right _ _)

/-- Over the eight row blocks of the input, the running maximum of the block magnitudes ends at the largest
    magnitude of the input. -/
theorem accMax_last (x : FVec Ideal Cert.FoldSpec.SX .f32) (blk : Fin 8 → Vec Ideal S1024x2048 .f32)
    (hblk : ∀ (t : Fin 8) (r : Fin 1024) (q : Fin 2048),
      blk t (ValueIdx.ix2 r q) = x (ValueIdx.ix2 ⟨t.val * 1024 + r.val, by omega⟩ q)) :
    accMax (fun t => blockMax (blk t)) 7 (by decide) = Cert.FoldSpec.maxAbs x := by
  apply le_antisymm
  · refine accMax_le _ _ ?_ (fun t => ?_) 7 (by decide)
    · exact le_trans (abs_nonneg (x (ix2 0 0)))
        (Finset.le_sup (f := fun i => max (x i) (-(x i))) (Finset.mem_univ (ix2 0 0)))
    · refine Finset.sup_le fun j _ => ?_
      have hj : blk t j = x (ix2 (⟨t.val * 1024 + (j 0).val, by have h1 : (j 0).val < 1024 := (j 0).isLt; omega⟩ : Fin 8192) (j 1)) :=
        (congrArg (blk t) (eq_ix2 j)).trans (hblk t (j 0) (j 1))
      rw [hj]
      exact Finset.le_sup (f := fun i => max (x i) (-(x i))) (Finset.mem_univ _)
  · refine Finset.sup_le fun i _ => ?_
    have hb : (i 0).val < 8192 := (i 0).isLt
    have e0 : i = ix2 (⟨(i 0).val / 1024 * 1024 + (i 0).val % 1024, by omega⟩ : Fin 8192) (i 1) := by
      funext d
      match d with
      | ⟨0, _⟩ => exact Fin.ext (by show (i 0).val = (i 0).val / 1024 * 1024 + (i 0).val % 1024; omega)
      | ⟨1, _⟩ => rfl
    have hx : x i = blk ⟨(i 0).val / 1024, by omega⟩ (ix2 ⟨(i 0).val % 1024, Nat.mod_lt _ (by decide)⟩ (i 1)) :=
      (congrArg x e0).trans (hblk ⟨(i 0).val / 1024, by omega⟩ ⟨(i 0).val % 1024, Nat.mod_lt _ (by decide)⟩ (i 1)).symm
    rw [hx]
    refine le_trans ?_ (le_accMax _ 7 (by decide) ⟨(i 0).val / 1024, by omega⟩ (by show (i 0).val / 1024 ≤ 7; omega))
    exact Finset.le_sup (f := fun j => max (blk ⟨(i 0).val / 1024, by omega⟩ j) (-(blk ⟨(i 0).val / 1024, by omega⟩ j)))
      (Finset.mem_univ _)

end Cert.KernelIdeal.V0

end
-- ==== Proof.KIArr0Cover.lean ====
import proofs.«157387_j34823594836361_1_alg».proof.Proof.KIRegion0b
import Idealize.ShloMosaic.Lib.Pipeline.Value
import Idealize.ShloMosaic.Lib.ValueIdx

/-!
# Region 0 of the idealized program: its blocks and its one write-back

At the ideal instance. The input window's block at grid point `t` is rows `1024 t … 1024 t + 1023` of the
input array. The output window has a single block, the whole 8 × 128 tile, written back only at the last
of the eight points; so after the region the tile holds whatever the body left in the output buffer at
that point.
-/

noncomputable section

namespace Cert.KernelIdeal.A0C

open Cert.KernelIdeal Cert.KernelIdeal.Gen Idealize.ShloMosaic Idealize.ShloMosaic.TcCoe Idealize.SL.Sem
open Idealize.ShloMosaic.Pipeline (Dat)
open Idealize.ShloMosaic.ValueIdx

/-! ## The index maps, decided over the grid -/

/-- The printed index maps at every grid point: the input window is at block row `t`, column block 0; the
    output tile stays at block 0 on both axes. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- A point is below eight. -/
theorem point_lt (t : Fin cfg0.N) : t.val < 8 := lt_of_lt_of_eq t.isLt (show cfg0.N = 8 from N_0)

/-- Row `r` of block `t` is a row of the array. -/
theorem row_lt (t : Fin cfg0.N) (r : Fin 1024) : t.val * 1024 + r.val < 8192 := by
  have := point_lt t; have := r.isLt; omega

/-- The last point. -/
theorem last_lt : 7 < cfg0.N := lt_of_lt_of_eq (by decide : 7 < 8) (show cfg0.N = 8 from N_0).symm

section Blocks
variable (V : (c : Dev nD) → (b : Ref sig .tc) → Buf (Elt Ideal) ((c : Thread nD τ).loc b))

/-! ## The input block, read off its array -/

/-- The input window's block at point `t` is rows `1024 t … 1024 t + 1023` of the argument. -/
theorem iblk0_apply (c : Dev nD) (t : Fin cfg0.N) (r : Fin 1024) (q : Fin 2048) :
    (R0.iblk0 V c 0 t : Vec Ideal S1024x2048 .f32) (ix2 r q)
      = (V c main_arg0 : S8192x2048.Idx → Elt Ideal .f32) (ix2 ⟨t.val * 1024 + r.val, row_lt t r⟩ q) := by
  obtain ⟨e00, e01, e10, e11⟩ := index_facts0 t
  unfold R0.iblk0
  rw [View.read_apply]
  show V c main_arg0 _ = V c main_arg0 _
  congr 1
  funext a; apply Fin.ext
  match a with
  | ⟨0, _⟩ => show win0_0.index t (0 : Fin 2) * 1024 + 1 * r.val = t.val * 1024 + r.val; omega
  | ⟨1, _⟩ => show win0_0.index t (1 : Fin 2) * 2048 + 1 * q.val = q.val; omega

/-! ## The one write-back -/

/-- The point that writes back (the last) writes the whole tile: read through the tile's one block, a function
    of the tile's index is itself. -/
theorem flushed0_eq (c : Dev nD) (G : S8x128.Idx → EReal) (h : ∀ i, (R0.outsAt0 V c 7 last_lt).1 i = G i)
    (t : Fin cfg0.N) (hf : (cfg0.win 1).flush t = true) :
    (R0.dat0 V c).flushed 1 t = ((cfg0.win 1).blk t).view.read (Elt Ideal) G := by
  obtain ⟨e00, e01, e10, e11⟩ := index_facts0 t
  have h7 : t.val = 7 := by have := (flush0_1 t).mp hf; have := point_lt t; omega
  obtain ⟨n, hn⟩ := t
  obtain rfl : n = 7 := h7
  show (cfg0.win 1).cut (grid0.coords ⟨7, hn⟩) ((R0.dat0 V c).after 1 ⟨7, hn⟩) = _
  rw [R0.after0_1]
  funext y
  rw [View.read_apply]
  show (R0.outsAt0 V c 7 hn).1 y = _
  rw [h y]
  congr 1
  funext a; apply Fin.ext
  match a with
  | ⟨0, _⟩ => show (y 0).val = win0_1.index ⟨7, hn⟩ (0 : Fin 2) * 8 + 1 * (y 0).val; omega
  | ⟨1, _⟩ => show (y 1).val = win0_1.index ⟨7, hn⟩ (1 : Fin 2) * 128 + 1 * (y 1).val; omega

/-- An index of the tile is in point `t`'s block iff each coordinate is in the block's range on its axis. -/
theorem mem_blk0 (t : Fin cfg0.N) (i : S8x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Every index of the tile is in the last point's block, and the last point writes back. -/
theorem cover0 (i : S8x128.Idx) : ∃ t : Fin cfg0.N, (cfg0.win 1).flush t = true ∧ i ∈ ((cfg0.win 1).blk t).view.set := by
  have hi0 : (i 0).val < 8 := (i 0).isLt
  have hi1 : (i 1).val < 128 := (i 1).isLt
  obtain ⟨e00, e01, e10, e11⟩ := index_facts0 ⟨7, last_lt⟩
  refine ⟨⟨7, last_lt⟩, (flush0_1 _).mpr rfl, ?_⟩
  rw [mem_blk0]
  intro a
  match a with
  | ⟨0, _⟩ => show win0_1.index ⟨7, last_lt⟩ (0 : Fin 2) * 8 ≤ (i 0).val ∧ (i 0).val < win0_1.index ⟨7, last_lt⟩ (0 : Fin 2) * 8 + 8; omega
  | ⟨1, _⟩ => show win0_1.index ⟨7, last_lt⟩ (1 : Fin 2) * 128 ≤ (i 1).val ∧ (i 1).val < win0_1.index ⟨7, last_lt⟩ (1 : Fin 2) * 128 + 128; omega

/-- After the region the output tile holds what the body left in the output buffer at the last point. -/
theorem tile_of (c : Dev nD) (G : S8x128.Idx → EReal) (h : ∀ i, (R0.outsAt0 V c 7 last_lt).1 i = G i) :
    (R0.dat0 V c).arrAt 1 cfg0.N = G :=
  (R0.dat0 V c).arrAt_eq_of_cover 1 G (fun t hf => flushed0_eq V c G h t hf) cover0

end Blocks

end Cert.KernelIdeal.A0C

end
-- ==== Proof.KIArr0.lean ====
/-
  The first region's tile, read back.

  Each control case of the body leaves in the scratch tile the entrywise maximum of what the tile held before
  (zero after the reset of the first point) and the block's largest magnitude; the last point copies the
  scratch tile into the output tile.
-/
import proofs.«157387_j34823594836361_1_alg».proof.Proof.KIRegion0b
import proofs.«157387_j34823594836361_1_alg».proof.Proof.KIValue0
import proofs.«157387_j34823594836361_1_alg».proof.Proof.KIArr0Cover
import proofs.«157387_j34823594836361_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.A0

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- FIRST POINT: the scratch tile ends at the step applied to the reset tile. -/
theorem sout_A (c : Dev nD) (i : grid0.Coords) (a1 : Memref sig .tc .vmem S1024x2048 .f32) (h1 : a1.IsWhole)
    (a2 : Memref sig .tc .vmem S8x128 .f32) (h2 : a2.IsWhole) (a3 : Memref sig .tc .vmem S8x128 .f32) (h3 : a3.IsWhole)
    (hc0 : R0.cond0_0 i) (hc1 : ¬R0.cond0_1 i) (x0 : Vec F S1024x2048 .f32) :
    R0.sout0_A_0 c i a1 h1 a2 h2 a3 h3 hc0 hc1 x0 = k0_pay2 x0 (k0_pay1 (F := F)) := by
  unfold R0.sout0_A_0
  rw [View.read_writes_eq_canon _ _ _ (R0.scover0_A_0 c i a1 h1 a2 h2 a3 h3 hc0 hc1 x0)]
  unfold R0.kernelRun0_A
  dsimp only
  sl_unfold_words
  rw [View.canon_cons_unit_zero (S := S8x128) hz, View.readCov_unit_zero (S := S8x128) _ hz]
  simp only [View.readAt_eq_ld, h1.read_unread, View.ld_unit_zero (S := S1024x2048) hz]

/-- A MIDDLE POINT: the scratch tile ends at the step applied to what it held. -/
theorem sout_B (c : Dev nD) (i : grid0.Coords) (a1 : Memref sig .tc .vmem S1024x2048 .f32) (h1 : a1.IsWhole)
    (a2 : Memref sig .tc .vmem S8x128 .f32) (h2 : a2.IsWhole) (a3 : Memref sig .tc .vmem S8x128 .f32) (h3 : a3.IsWhole)
    (hc0 : ¬R0.cond0_0 i) (hc1 : ¬R0.cond0_1 i) (x0 : Vec F S1024x2048 .f32) (xs0 : Vec F S8x128 .f32) :
    R0.sout0_B_0 c i a1 h1 a2 h2 a3 h3 hc0 hc1 x0 xs0 = k0_pay2 x0 xs0 := by
  unfold R0.sout0_B_0
  rw [View.read_writes_eq_canon _ _ _ (R0.scover0_B_0 c i a1 h1 a2 h2 a3 h3 hc0 hc1 x0 xs0)]
  unfold R0.kernelRun0_B
  dsimp only
  rw [View.canon_unit_zero hz]
  simp only [View.readAt_eq_ld, h1.read_unread, h3.read_unread, View.ld_unit_zero (S := S1024x2048) hz,
    View.ld_unit_zero (S := S8x128) hz]

/-- LAST POINT: the scratch tile ends at the step applied to what it held, -/
theorem sout_C (c : Dev nD) (i : grid0.Coords) (a1 : Memref sig .tc .vmem S1024x2048 .f32) (h1 : a1.IsWhole)
    (a2 : Memref sig .tc .vmem S8x128 .f32) (h2 : a2.IsWhole) (a3 : Memref sig .tc .vmem S8x128 .f32) (h3 : a3.IsWhole)
    (hc0 : ¬R0.cond0_0 i) (hc1 : R0.cond0_1 i) (x0 : Vec F S1024x2048 .f32) (xs0 : Vec F S8x128 .f32) :
    R0.sout0_C_0 c i a1 h1 a2 h2 a3 h3 hc0 hc1 x0 xs0 = k0_pay2 x0 xs0 := by
  unfold R0.sout0_C_0
  rw [View.read_writes_eq_canon _ _ _ (R0.scover0_C_0 c i a1 h1 a2 h2 a3 h3 hc0 hc1 x0 xs0)]
  unfold R0.kernelRun0_C
  dsimp only
  sl_unfold_words
  rw [View.canon_unit_zero hz]
  simp only [View.readAt_eq_ld, h1.read_unread, h3.read_unread, View.ld_unit_zero (S := S1024x2048) hz,
    View.ld_unit_zero (S := S8x128) hz]

/-- and the output tile is a copy of it. -/
theorem out_C (c : Dev nD) (i : grid0.Coords) (a1 : Memref sig .tc .vmem S1024x2048 .f32) (h1 : a1.IsWhole)
    (a2 : Memref sig .tc .vmem S8x128 .f32) (h2 : a2.IsWhole) (a3 : Memref sig .tc .vmem S8x128 .f32) (h3 : a3.IsWhole)
    (hc0 : ¬R0.cond0_0 i) (hc1 : R0.cond0_1 i) (x0 : Vec F S1024x2048 .f32) (xs0 : Vec F S8x128 .f32) :
    R0.out0_C_1 c i a1 h1 a2 h2 a3 h3 hc0 hc1 x0 xs0 = k0_pay2 x0 xs0 := by
  unfold R0.out0_C_1
  rw [View.read_writes_eq_canon _ _ _ (R0.cover0_C_1 c i a1 h1 a2 h2 a3 h3 hc0 hc1 x0 xs0)]
  unfold R0.kernelRun0_C
  dsimp only
  sl_unfold_words
  rw [View.canon_unit_zero hz, View.readCov_unit_zero (S := S8x128) _ hz]
  simp only [View.readAt_eq_ld, h1.read_unread, h3.read_unread, View.ld_unit_zero (S := S1024x2048) hz,
    View.ld_unit_zero (S := S8x128) hz]

/-! ## The running maximum, point by point -/

theorem lt8 {n : ℕ} (hn : n < cfg0.N) : n < 8 := lt_of_lt_of_eq hn (show cfg0.N = 8 from N_0)
theorem ltN {n : ℕ} (hn : n < 8) : n < cfg0.N := lt_of_lt_of_eq hn (show 8 = cfg0.N from N_0.symm)

/-- The step on the reset tile: every entry is the larger of zero and the block's largest magnitude. -/
theorem first_step (x0 : Vec Ideal S1024x2048 .f32) :
    k0_pay2 (F := Ideal) x0 (k0_pay1 (F := Ideal)) = fun _ => max 0 (V0.blockMax x0) := by
  funext i
  rw [V0.pay2_apply, V0.pay1_apply]

/-- The step on a constant tile: every entry is the larger of the constant and the block's largest magnitude. -/
theorem next_step (x0 : Vec Ideal S1024x2048 .f32) (xs : Vec Ideal S8x128 .f32) (a : EReal) (hxs : xs = fun _ => a) :
    k0_pay2 (F := Ideal) x0 xs = fun _ => max a (V0.blockMax x0) := by
  subst hxs
  funext i
  rw [V0.pay2_apply]

variable (V : (c : Dev nD) → (b : Ref sig .tc) → Buf (Elt Ideal) ((c : Thread nD τ).loc b))

/-- The largest magnitude of the block each of the eight points sees. -/
def bmax (c : Dev nD) (t : Fin 8) : EReal := V0.blockMax (R0.iblk0 V c 0 ⟨t.val, ltN t.isLt⟩)

/-- After the first point the scratch tile is the step applied to the reset tile. -/
theorem scratch_first (c : Dev nD) (hn : 0 < cfg0.N) :
    (R0.outsAt0 V c 0 hn).2 = k0_pay2 (F := Ideal) (R0.iblk0 V c 0 ⟨0, hn⟩) (k0_pay1 (F := Ideal)) :=
  (congrArg Prod.snd (R0.outsAt0_A V c ⟨0, hn⟩ rfl (show ¬ (0 % 8 = 7) by decide))).trans
    (sout_A (F := Ideal) c (grid0.coords ⟨0, hn⟩) (R0.ms0_0 ⟨0, hn⟩) (R0.hs0_0 ⟨0, hn⟩) (R0.ms0_1 ⟨0, hn⟩)
      (R0.hs0_1 ⟨0, hn⟩) R0.scM0_0 (Memref.isWhole_whole _) ((R0.hcond0_0 ⟨0, hn⟩).mpr rfl)
      (fun h => absurd ((R0.hcond0_1 ⟨0, hn⟩).mp h) (show ¬ (0 % 8 = 7) by decide)) (R0.iblk0 V c 0 ⟨0, hn⟩))

/-- After a later point the scratch tile is the step applied to what the point before left. -/
theorem scratch_next (c : Dev nD) (n : ℕ) (hn : n + 1 < cfg0.N) :
    (R0.outsAt0 V c (n + 1) hn).2
      = k0_pay2 (F := Ideal) (R0.iblk0 V c 0 ⟨n + 1, hn⟩) (R0.outsAt0 V c n (Nat.lt_of_succ_lt hn)).2 := by
  have h0 : ¬ (⟨n + 1, hn⟩ : Fin cfg0.N).val % 8 = 0 := R0.not_first n hn
  by_cases h1 : (⟨n + 1, hn⟩ : Fin cfg0.N).val % 8 = 7
  · exact (congrArg Prod.snd (R0.outsAt0_C V c ⟨n + 1, hn⟩ h0 h1)).trans
      (sout_C (F := Ideal) c (grid0.coords ⟨n + 1, hn⟩) (R0.ms0_0 ⟨n + 1, hn⟩) (R0.hs0_0 ⟨n + 1, hn⟩)
        (R0.ms0_1 ⟨n + 1, hn⟩) (R0.hs0_1 ⟨n + 1, hn⟩) R0.scM0_0 (Memref.isWhole_whole _)
        (fun h => h0 ((R0.hcond0_0 ⟨n + 1, hn⟩).mp h)) ((R0.hcond0_1 ⟨n + 1, hn⟩).mpr h1)
        (R0.iblk0 V c 0 ⟨n + 1, hn⟩) (R0.outsAt0 V c n (Nat.lt_of_succ_lt hn)).2)
  · exact (congrArg Prod.snd (R0.outsAt0_B V c ⟨n + 1, hn⟩ h0 h1)).trans
      (sout_B (F := Ideal) c (grid0.coords ⟨n + 1, hn⟩) (R0.ms0_0 ⟨n + 1, hn⟩) (R0.hs0_0 ⟨n + 1, hn⟩)
        (R0.ms0_1 ⟨n + 1, hn⟩) (R0.hs0_1 ⟨n + 1, hn⟩) R0.scM0_0 (Memref.isWhole_whole _)
        (fun h => h0 ((R0.hcond0_0 ⟨n + 1, hn⟩).mp h)) (fun h => h1 ((R0.hcond0_1 ⟨n + 1, hn⟩).mp h))
        (R0.iblk0 V c 0 ⟨n + 1, hn⟩) (R0.outsAt0 V c n (Nat.lt_of_succ_lt hn)).2)

/-- The output tile after the last point is the step applied to what the point before left in the scratch. -/
theorem out_last (c : Dev nD) (n : ℕ) (hn : n + 1 < cfg0.N) (h1 : (n + 1) % 8 = 7) :
    (R0.outsAt0 V c (n + 1) hn).1
      = k0_pay2 (F := Ideal) (R0.iblk0 V c 0 ⟨n + 1, hn⟩) (R0.outsAt0 V c n (Nat.lt_of_succ_lt hn)).2 :=
  (congrArg Prod.fst (R0.outsAt0_C V c ⟨n + 1, hn⟩ (R0.not_first n hn) h1)).trans
    (out_C (F := Ideal) c (grid0.coords ⟨n + 1, hn⟩) (R0.ms0_0 ⟨n + 1, hn⟩) (R0.hs0_0 ⟨n + 1, hn⟩)
      (R0.ms0_1 ⟨n + 1, hn⟩) (R0.hs0_1 ⟨n + 1, hn⟩) R0.scM0_0 (Memref.isWhole_whole _)
      (fun h => R0.not_first n hn ((R0.hcond0_0 ⟨n + 1, hn⟩).mp h)) ((R0.hcond0_1 ⟨n + 1, hn⟩).mpr h1)
      (R0.iblk0 V c 0 ⟨n + 1, hn⟩) (R0.outsAt0 V c n (Nat.lt_of_succ_lt hn)).2)

/-- One more term of the running maximum. -/
theorem accMax_succ (bm : Fin 8 → EReal) (n : ℕ) (h : n + 1 < 8) :
    V0.accMax bm (n + 1) h = max (V0.accMax bm n (Nat.lt_of_succ_lt h)) (bm ⟨n + 1, h⟩) := rfl

/-- After point `n` the scratch tile is constant at the running maximum of the block magnitudes. -/
theorem scratch_eq (c : Dev nD) : ∀ (n : ℕ) (hn : n < cfg0.N),
    (R0.outsAt0 V c n hn).2 = fun _ => V0.accMax (bmax V c) n (lt8 hn)
  | 0, hn => (scratch_first V c hn).trans (first_step _)
  | n + 1, hn => by
    refine (scratch_next V c n hn).trans ((next_step _ _ _ (scratch_eq c n (Nat.lt_of_succ_lt hn))).trans ?_)
    funext _
    exact (accMax_succ (bmax V c) n (lt8 hn)).symm

/-- After the last point the output tile is constant at the running maximum over all eight blocks. -/
theorem out_eq (c : Dev nD) (h7 : 7 < cfg0.N) :
    (R0.outsAt0 V c 7 h7).1 = fun _ => V0.accMax (bmax V c) 7 (by decide) := by
  refine (out_last V c 6 h7 (by decide)).trans
    ((next_step _ _ _ (scratch_eq V c 6 (Nat.lt_of_succ_lt h7))).trans ?_)
  funext _
  exact (accMax_succ (bmax V c) 6 (by decide)).symm

/-- The scratch tile after point `n`, entry by entry. -/
theorem scratch_at (c : Dev nD) (n : ℕ) (hn : n < cfg0.N) (i : S8x128.Idx) :
    (R0.outsAt0 V c n hn).2 i
      = V0.accMax (fun t => V0.blockMax (R0.iblk0 V c 0 ⟨t.val, by have : cfg0.N = 8 := N_0; omega⟩)) n (by have : cfg0.N = 8 := N_0; omega) :=
  congrFun (scratch_eq V c n hn) i

/-- The output tile after the last point, entry by entry. -/
theorem out_at (c : Dev nD) (h7 : 7 < cfg0.N) (i : S8x128.Idx) :
    (R0.outsAt0 V c 7 h7).1 i
      = V0.accMax (fun t => V0.blockMax (R0.iblk0 V c 0 ⟨t.val, by have : cfg0.N = 8 := N_0; omega⟩)) 7 (by decide) :=
  congrFun (out_eq V c h7) i

/-! ## From the tile to the array -/

/-- The input window's index map over the grid: point `t` sees block row `t`, block column 0. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block point `t` sees is rows `1024 t … 1024 t + 1023` of the input. -/
theorem iblk_apply (c : Dev nD) (t : Fin cfg0.N) (r : Fin 1024) (q : Fin 2048) :
    R0.iblk0 V c 0 t (ValueIdx.ix2 r q)
      = V c main_arg0 (ValueIdx.ix2 (⟨t.val * 1024 + r.val, by have := lt8 t.isLt; omega⟩ : Fin 8192) q) := by
  unfold R0.iblk0
  rw [View.read_apply]
  show V c main_arg0 _ = V c main_arg0 _
  refine congrArg (V c main_arg0) (funext fun a => Fin.ext ?_)
  match a with
  | ⟨0, _⟩ => show win0_0.index t 0 * 1024 + 1 * r.val = t.val * 1024 + r.val; rw [(idx_in t).1]; omega
  | ⟨1, _⟩ => show win0_0.index t 1 * 2048 + 1 * q.val = q.val; rw [(idx_in t).2]; omega

/-- The running maximum over all eight blocks is the largest magnitude of the input. -/
theorem acc_last (c : Dev nD) :
    V0.accMax (bmax V c) 7 (by decide) = Cert.FoldSpec.maxAbs (V c main_arg0) :=
  V0.accMax_last (V c main_arg0) (fun t => R0.iblk0 V c 0 ⟨t.val, ltN t.isLt⟩)
    (fun t r q => iblk_apply V c ⟨t.val, ltN t.isLt⟩ r q)

/-- THE ARRAY: after the region every entry of the output tile is the largest magnitude of the input. -/
theorem tile_eq (c : Dev nD) :
    (R0.dat0 V c).arrAt 1 cfg0.N = fun _ => Cert.FoldSpec.maxAbs (V c main_arg0) :=
  A0C.tile_of V c (fun _ => Cert.FoldSpec.maxAbs (V c main_arg0))
    (fun i => (congrFun (out_eq V c A0C.last_lt) i).trans (acc_last V c))

end Cert.KernelIdeal.A0

end
-- ==== Proof.KIValue1Ops.lean ====
/-
  The single operations region 1's body is made of, each read at ONE entry of what it produces, on the
  extended reals.

  A row of 256 lanes held as a [1,1,256] array is first viewed as a vector of 256, then as a [1,256] row, and
  that row is repeated down 512 rows: entry (r, k) of the result is lane k of the row.  A bound row is
  multiplied lane by lane by one scalar.  The range test of an entry against two such rows, followed by the
  choice between zero and the entry, is the mask `msk`.  The weight slab [1,256,256] viewed as a 256 x 256
  matrix and transposed, multiplied on the right of a 512 x 256 block into a zero accumulator, pairs row r
  of the block with ROW o of the slab: entry (r, o) is the sum over the lane k of block[r, k] * slab[0, o, k].
  Changing the float format is the identity on extended reals.
-/
import proofs.«157387_j34823594836361_1_alg».proof.Proof.Gen.KernelIdeal.Skeleton
import proofs.«157387_j34823594836361_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.V1

open Idealize.ShloMosaic Idealize.ShloMosaic.ValueIdx Cert.KernelIdeal Cert.KernelIdeal.Gen

variable {α : Type}

/-- A [1,1,256] row viewed as a vector of 256 reads lane `k` at `k`. -/
theorem rowVec_apply (p : S1x1x256.Idx → α) (k : Fin 256) :
    shapeCast S256 p shapeCasts_S1x1x256_S256 (ix1 k) = p (ix3 (0 : Fin 1) (0 : Fin 1) k) :=
  shapeCast_apply p shapeCasts_S1x1x256_S256 (ix1 k) (ix3 (0 : Fin 1) (0 : Fin 1) k) (by
    rw [Shape.rowMajor_val_three, Shape.rowMajor_val_one]
    show (0 * 1 + 0) * 256 + k.val = k.val
    omega)

/-- A vector of 256 viewed as a [1,256] row and repeated down 512 rows reads lane `k` at `(r, k)`. -/
theorem rows_apply (v : S256.Idx → α) (r : Fin 512) (k : Fin 256) :
    broadcastTo S512x256 (shapeCast S1x256 v shapeCasts_S256_S1x256) broadcasts_S1x256_S512x256 (ix2 r k)
      = v (ix1 k) :=
  (broadcastTo_1b_ab_apply (shapeCast S1x256 v shapeCasts_S256_S1x256) broadcasts_S1x256_S512x256 r k).trans
    (shapeCast_a_1a_apply v shapeCasts_S256_S1x256 (0 : Fin 1) k)

/-- The [1,256] row alone, repeated down 512 rows. -/
theorem rowRep_apply (v : S1x256.Idx → α) (r : Fin 512) (k : Fin 256) :
    broadcastTo S512x256 v broadcasts_S1x256_S512x256 (ix2 r k) = v (ix2 (0 : Fin 1) k) :=
  broadcastTo_1b_ab_apply v broadcasts_S1x256_S512x256 r k

/-- A vector of 256 viewed as a [1,256] row. -/
theorem vecRow_apply (v : S256.Idx → α) (k : Fin 256) :
    shapeCast S1x256 v shapeCasts_S256_S1x256 (ix2 (0 : Fin 1) k) = v (ix1 k) :=
  shapeCast_a_1a_apply v shapeCasts_S256_S1x256 (0 : Fin 1) k

/-- The scalar taken from the corner of a [1,1] tile. -/
theorem corner_apply (v0 : S1x1.Idx → α) : extractAt ![0, 0] v0 inpos_S1x1_p0_0 = v0 (ix2 (0 : Fin 1) (0 : Fin 1)) :=
  congrArg v0 (funext fun a => Fin.ext (by match a with | ⟨0, _⟩ => rfl | ⟨1, _⟩ => rfl))

/-- The weight slab [1,256,256] viewed as a 256 x 256 matrix, changed of format and transposed, reads slab
    entry `(0, o, k)` at `(k, o)`. -/
theorem slabT_apply (w : FVec Ideal S1x256x256 .f32) (k o : Fin 256) :
    transpose S256x256 [1, 0] (truncf .bf16 (shapeCast S256x256 w shapeCasts_S1x256x256_S256x256) bitsLt_bf16_f32)
        transposes_S256x256_p1_0_S256x256 (ix2 k o) = w (ix3 (0 : Fin 1) o k) :=
  (transpose_ix2_apply (truncf .bf16 (shapeCast S256x256 w shapeCasts_S1x256x256_S256x256) bitsLt_bf16_f32)
      transposes_S256x256_p1_0_S256x256 k o).trans
    (shapeCast_1ab_ab_apply w shapeCasts_S1x256x256_S256x256 o k)

/-- The left operand's entry the product reads at output `(r, o)` and contraction position `k` is `(r, k)`. -/
theorem dot_lhsIdx (r : Fin 512) (o k : Fin 256) :
    dot_S512x256_S256x256_S512x256_1_0_0_1_n_n.lhsIdx (ix2 r o)
        ((contrEquiv1 dot_S512x256_S256x256_S512x256_1_0_0_1_n_n 256 rfl rfl).symm k) = ix2 r k := by
  have hk := contrEquiv1_symm_val dot_S512x256_S256x256_S512x256_1_0_0_1_n_n 256 rfl rfl k
  funext a
  apply Fin.ext
  match a with
  | ⟨0, _⟩ => rfl
  | ⟨1, _⟩ => exact (dot_S512x256_S256x256_S512x256_1_0_0_1_n_n.lhsIdx_val_of_single rfl _ _).trans hk

/-- The right operand's entry is `(k, o)`. -/
theorem dot_rhsIdx (r : Fin 512) (o k : Fin 256) :
    dot_S512x256_S256x256_S512x256_1_0_0_1_n_n.rhsIdx (ix2 r o)
        ((contrEquiv1 dot_S512x256_S256x256_S512x256_1_0_0_1_n_n 256 rfl rfl).symm k) = ix2 k o := by
  have hk := contrEquiv1_symm_val dot_S512x256_S256x256_S512x256_1_0_0_1_n_n 256 rfl rfl k
  funext a
  apply Fin.ext
  match a with
  | ⟨0, _⟩ => exact (dot_S512x256_S256x256_S512x256_1_0_0_1_n_n.rhsIdx_val_of_single rfl _ _).trans hk
  | ⟨1, _⟩ => rfl

/-- The block times the transposed slab, into the zero accumulator: entry `(r, o)` is
    `∑ k, block[r, k] * slab[0, o, k]`. -/
theorem blockTimesSlab_apply (x : FVec Ideal S512x256 .f32) (w : FVec Ideal S1x256x256 .f32) (r : Fin 512) (o : Fin 256) :
    matmul dot_S512x256_S256x256_S512x256_1_0_0_1_n_n none (truncf .bf16 x bitsLt_bf16_f32)
        (transpose S256x256 [1, 0] (truncf .bf16 (shapeCast S256x256 w shapeCasts_S1x256x256_S256x256) bitsLt_bf16_f32)
          transposes_S256x256_p1_0_S256x256)
        (constant (F := Ideal) S512x256 .f32 0x00000000#32) (ix2 r o)
      = ∑ k : Fin 256, x (ix2 r k) * w (ix3 (0 : Fin 1) o k) := by
  simp only [matmul]
  rw [Ideal.matmul_constant_zero_apply,
    ← Equiv.sum_comp (contrEquiv1 dot_S512x256_S256x256_S512x256_1_0_0_1_n_n 256 rfl rfl).symm]
  refine Finset.sum_congr rfl fun k _ => ?_
  rw [dot_lhsIdx, dot_rhsIdx, slabT_apply]
  rfl

end Cert.KernelIdeal.V1

end
-- ==== Proof.KIValue1.lean ====
/-
  The value of each of the eight stores of region 1's body, entry by entry, on the extended reals.

  The body first forms, for each input fold `fp`, the block `x[:, fp*256 : (fp+1)*256] + pe[0, fp, :]`, and the scale
  `s`, the corner of the tile.  For output fold `f` it multiplies the two bound rows `mn[0, f, :]` and `mx[0, f, :]`
  by `s`, replaces by zero every entry of the eight blocks that lies below the first or above the second, adds the
  eight masked blocks starting from zero, and multiplies the sum on the right by the transpose of the weight slab
  `W[f]` into a zero accumulator.  Read at row `r` and output lane `o`, that is `foldVal`: the sum over the lane `k`
  of (the sum of the eight masked entries at `(r, k)`) times `W[f][o, k]`.  The eight stores group their
  intermediate values differently; entry by entry they are the same expression of the values loaded.
-/
import proofs.«157387_j34823594836361_1_alg».proof.Proof.KIValue1Ops

noncomputable section

open scoped BigOperators

namespace Cert.KernelIdeal.V1

open Idealize.ShloMosaic Idealize.ShloMosaic.ValueIdx Cert.KernelIdeal Cert.KernelIdeal.Gen Cert.FoldSpec

/-- A bitwise "or" of two masks reads entry by entry. -/
theorem ori_apply {s : Shape} {w : Nat} (x y : IVec s w) (i : s.Idx) : ori x y i = IntOp.ori (x i) (y i) := rfl

/-- Entry `(r, o)` of one output fold: the eight input folds' entries of row `r`, each with its row of `pe` added
    and masked by the output fold's range at scale `s = v0[0,0]`, summed lane by lane, and that row of 256 lanes
    paired with row `o` of the fold's weight slab. -/
def foldVal (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) : EReal :=
  ∑ k : Fin 256,
    (msk (lo (ix3 (0 : Fin 1) (0 : Fin 1) k) * v0 (ix2 (0 : Fin 1) (0 : Fin 1))) (hi (ix3 (0 : Fin 1) (0 : Fin 1) k) * v0 (ix2 (0 : Fin 1) (0 : Fin 1))) (a0 (ix2 r k) + p0 (ix3 (0 : Fin 1) (0 : Fin 1) k))
      + msk (lo (ix3 (0 : Fin 1) (0 : Fin 1) k) * v0 (ix2 (0 : Fin 1) (0 : Fin 1))) (hi (ix3 (0 : Fin 1) (0 : Fin 1) k) * v0 (ix2 (0 : Fin 1) (0 : Fin 1))) (a1 (ix2 r k) + p1 (ix3 (0 : Fin 1) (0 : Fin 1) k))
      + msk (lo (ix3 (0 : Fin 1) (0 : Fin 1) k) * v0 (ix2 (0 : Fin 1) (0 : Fin 1))) (hi (ix3 (0 : Fin 1) (0 : Fin 1) k) * v0 (ix2 (0 : Fin 1) (0 : Fin 1))) (a2 (ix2 r k) + p2 (ix3 (0 : Fin 1) (0 : Fin 1) k))
      + msk (lo (ix3 (0 : Fin 1) (0 : Fin 1) k) * v0 (ix2 (0 : Fin 1) (0 : Fin 1))) (hi (ix3 (0 : Fin 1) (0 : Fin 1) k) * v0 (ix2 (0 : Fin 1) (0 : Fin 1))) (a3 (ix2 r k) + p3 (ix3 (0 : Fin 1) (0 : Fin 1) k))
      + msk (lo (ix3 (0 : Fin 1) (0 : Fin 1) k) * v0 (ix2 (0 : Fin 1) (0 : Fin 1))) (hi (ix3 (0 : Fin 1) (0 : Fin 1) k) * v0 (ix2 (0 : Fin 1) (0 : Fin 1))) (a4 (ix2 r k) + p4 (ix3 (0 : Fin 1) (0 : Fin 1) k))
      + msk (lo (ix3 (0 : Fin 1) (0 : Fin 1) k) * v0 (ix2 (0 : Fin 1) (0 : Fin 1))) (hi (ix3 (0 : Fin 1) (0 : Fin 1) k) * v0 (ix2 (0 : Fin 1) (0 : Fin 1))) (a5 (ix2 r k) + p5 (ix3 (0 : Fin 1) (0 : Fin 1) k))
      + msk (lo (ix3 (0 : Fin 1) (0 : Fin 1) k) * v0 (ix2 (0 : Fin 1) (0 : Fin 1))) (hi (ix3 (0 : Fin 1) (0 : Fin 1) k) * v0 (ix2 (0 : Fin 1) (0 : Fin 1))) (a6 (ix2 r k) + p6 (ix3 (0 : Fin 1) (0 : Fin 1) k))
      + msk (lo (ix3 (0 : Fin 1) (0 : Fin 1) k) * v0 (ix2 (0 : Fin 1) (0 : Fin 1))) (hi (ix3 (0 : Fin 1) (0 : Fin 1) k) * v0 (ix2 (0 : Fin 1) (0 : Fin 1))) (a7 (ix2 r k) + p7 (ix3 (0 : Fin 1) (0 : Fin 1) k)))
      * w (ix3 (0 : Fin 1) o k)

/-- What the store of output fold 0 writes, read at `(r, o)`. -/
theorem store0_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay17 (F := Ideal) (k1_pay9 (F := Ideal) a6 p6) (k1_pay10 (F := Ideal) a7 p7) (k1_pay11 (F := Ideal) (k1_pay2 (F := Ideal) v0) lo) (k1_pay12 (F := Ideal) (k1_pay2 (F := Ideal) v0) hi) (k1_pay14 (F := Ideal) (k1_pay4 (F := Ideal) a1 p1) (k1_pay5 (F := Ideal) a2 p2) (k1_pay6 (F := Ideal) a3 p3) (k1_pay7 (F := Ideal) a4 p4) (k1_pay8 (F := Ideal) a5 p5) (k1_pay11 (F := Ideal) (k1_pay2 (F := Ideal) v0) lo) (k1_pay12 (F := Ideal) (k1_pay2 (F := Ideal) v0) hi) (k1_pay13 (F := Ideal) (k1_pay2 (F := Ideal) v0) (k1_pay3 (F := Ideal) a0 p0) lo hi)) (k1_pay15 (F := Ideal) (k1_pay9 (F := Ideal) a6 p6) (k1_pay11 (F := Ideal) (k1_pay2 (F := Ideal) v0) lo)) (k1_pay16 (F := Ideal) (k1_pay12 (F := Ideal) (k1_pay2 (F := Ideal) v0) hi)) w) (ix2 r o)
      = foldVal v0 a0 a1 a2 a3 a4 a5 a6 a7 p0 p1 p2 p3 p4 p5 p6 p7 lo hi w r o := by
  unfold k1_pay17
  refine (blockTimesSlab_apply _ w r o).trans ?_
  unfold foldVal
  refine Finset.sum_congr rfl fun k _ => congrArg (· * w (ix3 (0 : Fin 1) o k)) ?_
  simp only [k1_pay9, k1_pay10, k1_pay11, k1_pay12, k1_pay13, k1_pay14, k1_pay15, k1_pay16, k1_pay2, k1_pay3, k1_pay4, k1_pay5, k1_pay6, k1_pay7, k1_pay8, addf_apply, mulf_apply, select_apply, cmpf_apply, ori_apply,
    broadcast_apply, rows_apply, rowVec_apply, corner_apply, Ideal.ofBits_def, Ideal.ofBits_zero_f32, zero_add, msk]

/-- What the store of output fold 1 writes, read at `(r, o)`. -/
theorem store1_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay24 (F := Ideal) (k1_pay9 (F := Ideal) a6 p6) (k1_pay10 (F := Ideal) a7 p7) (k1_pay18 (F := Ideal) (k1_pay2 (F := Ideal) v0) lo) (k1_pay19 (F := Ideal) (k1_pay2 (F := Ideal) v0) hi) (k1_pay22 (F := Ideal) (k1_pay4 (F := Ideal) a1 p1) (k1_pay5 (F := Ideal) a2 p2) (k1_pay6 (F := Ideal) a3 p3) (k1_pay7 (F := Ideal) a4 p4) (k1_pay8 (F := Ideal) a5 p5) (k1_pay18 (F := Ideal) (k1_pay2 (F := Ideal) v0) lo) (k1_pay19 (F := Ideal) (k1_pay2 (F := Ideal) v0) hi) (k1_pay20 (F := Ideal) (k1_pay2 (F := Ideal) v0) (k1_pay3 (F := Ideal) a0 p0) lo hi) (k1_pay21 (F := Ideal) (k1_pay2 (F := Ideal) v0) lo)) (k1_pay23 (F := Ideal) (k1_pay9 (F := Ideal) a6 p6) (k1_pay18 (F := Ideal) (k1_pay2 (F := Ideal) v0) lo) (k1_pay19 (F := Ideal) (k1_pay2 (F := Ideal) v0) hi)) w) (ix2 r o)
      = foldVal v0 a0 a1 a2 a3 a4 a5 a6 a7 p0 p1 p2 p3 p4 p5 p6 p7 lo hi w r o := by
  unfold k1_pay24
  refine (blockTimesSlab_apply _ w r o).trans ?_
  unfold foldVal
  refine Finset.sum_congr rfl fun k _ => congrArg (· * w (ix3 (0 : Fin 1) o k)) ?_
  simp only [k1_pay18, k1_pay19, k1_pay20, k1_pay21, k1_pay22, k1_pay23, k1_pay2, k1_pay3, k1_pay4, k1_pay5, k1_pay6, k1_pay7, k1_pay8, k1_pay9, k1_pay10, addf_apply, mulf_apply, select_apply, cmpf_apply, ori_apply,
    broadcast_apply, rows_apply, rowVec_apply, corner_apply, Ideal.ofBits_def, Ideal.ofBits_zero_f32, zero_add, msk]

/-- What the store of output fold 2 writes, read at `(r, o)`. -/
theorem store2_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay33 (F := Ideal) (k1_pay9 (F := Ideal) a6 p6) (k1_pay10 (F := Ideal) a7 p7) (k1_pay25 (F := Ideal) (k1_pay2 (F := Ideal) v0) lo) (k1_pay26 (F := Ideal) (k1_pay2 (F := Ideal) v0) hi) (k1_pay30 (F := Ideal) (k1_pay4 (F := Ideal) a1 p1) (k1_pay5 (F := Ideal) a2 p2) (k1_pay6 (F := Ideal) a3 p3) (k1_pay7 (F := Ideal) a4 p4) (k1_pay8 (F := Ideal) a5 p5) (k1_pay25 (F := Ideal) (k1_pay2 (F := Ideal) v0) lo) (k1_pay26 (F := Ideal) (k1_pay2 (F := Ideal) v0) hi) (k1_pay27 (F := Ideal) (k1_pay2 (F := Ideal) v0) (k1_pay3 (F := Ideal) a0 p0) lo hi) (k1_pay28 (F := Ideal) (k1_pay2 (F := Ideal) v0) (k1_pay4 (F := Ideal) a1 p1) lo) (k1_pay29 (F := Ideal) (k1_pay2 (F := Ideal) v0) hi)) (k1_pay31 (F := Ideal) (k1_pay9 (F := Ideal) a6 p6) (k1_pay25 (F := Ideal) (k1_pay2 (F := Ideal) v0) lo) (k1_pay26 (F := Ideal) (k1_pay2 (F := Ideal) v0) hi)) (k1_pay32 (F := Ideal)) w) (ix2 r o)
      = foldVal v0 a0 a1 a2 a3 a4 a5 a6 a7 p0 p1 p2 p3 p4 p5 p6 p7 lo hi w r o := by
  unfold k1_pay33
  refine (blockTimesSlab_apply _ w r o).trans ?_
  unfold foldVal
  refine Finset.sum_congr rfl fun k _ => congrArg (· * w (ix3 (0 : Fin 1) o k)) ?_
  simp only [k1_pay25, k1_pay26, k1_pay27, k1_pay28, k1_pay29, k1_pay30, k1_pay31, k1_pay32, k1_pay2, k1_pay3, k1_pay4, k1_pay5, k1_pay6, k1_pay7, k1_pay8, k1_pay9, k1_pay10, addf_apply, mulf_apply, select_apply, cmpf_apply, ori_apply,
    broadcast_apply, rows_apply, rowVec_apply, corner_apply, Ideal.ofBits_def, Ideal.ofBits_zero_f32, zero_add, msk]

/-- What the store of output fold 3 writes, read at `(r, o)`. -/
theorem store3_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay40 (F := Ideal) (k1_pay10 (F := Ideal) a7 p7) (k1_pay34 (F := Ideal) (k1_pay2 (F := Ideal) v0) lo) (k1_pay35 (F := Ideal) (k1_pay2 (F := Ideal) v0) hi) (k1_pay39 (F := Ideal) (k1_pay4 (F := Ideal) a1 p1) (k1_pay5 (F := Ideal) a2 p2) (k1_pay6 (F := Ideal) a3 p3) (k1_pay7 (F := Ideal) a4 p4) (k1_pay8 (F := Ideal) a5 p5) (k1_pay9 (F := Ideal) a6 p6) (k1_pay34 (F := Ideal) (k1_pay2 (F := Ideal) v0) lo) (k1_pay35 (F := Ideal) (k1_pay2 (F := Ideal) v0) hi) (k1_pay36 (F := Ideal) (k1_pay2 (F := Ideal) v0) (k1_pay3 (F := Ideal) a0 p0) lo hi) (k1_pay37 (F := Ideal) (k1_pay2 (F := Ideal) v0) (k1_pay4 (F := Ideal) a1 p1) lo) (k1_pay38 (F := Ideal) (k1_pay2 (F := Ideal) v0) (k1_pay4 (F := Ideal) a1 p1) hi)) w) (ix2 r o)
      = foldVal v0 a0 a1 a2 a3 a4 a5 a6 a7 p0 p1 p2 p3 p4 p5 p6 p7 lo hi w r o := by
  unfold k1_pay40
  refine (blockTimesSlab_apply _ w r o).trans ?_
  unfold foldVal
  refine Finset.sum_congr rfl fun k _ => congrArg (· * w (ix3 (0 : Fin 1) o k)) ?_
  simp only [k1_pay34, k1_pay35, k1_pay36, k1_pay37, k1_pay38, k1_pay39, k1_pay2, k1_pay3, k1_pay4, k1_pay5, k1_pay6, k1_pay7, k1_pay8, k1_pay9, k1_pay10, addf_apply, mulf_apply, select_apply, cmpf_apply, ori_apply,
    broadcast_apply, rows_apply, rowVec_apply, corner_apply, Ideal.ofBits_def, Ideal.ofBits_zero_f32, zero_add, msk]

/-- What the store of output fold 4 writes, read at `(r, o)`. -/
theorem store4_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay47 (F := Ideal) (k1_pay10 (F := Ideal) a7 p7) (k1_pay42 (F := Ideal) (k1_pay2 (F := Ideal) v0) hi) (k1_pay45 (F := Ideal) (k1_pay4 (F := Ideal) a1 p1) (k1_pay5 (F := Ideal) a2 p2) (k1_pay6 (F := Ideal) a3 p3) (k1_pay7 (F := Ideal) a4 p4) (k1_pay8 (F := Ideal) a5 p5) (k1_pay9 (F := Ideal) a6 p6) (k1_pay41 (F := Ideal) (k1_pay2 (F := Ideal) v0) lo) (k1_pay42 (F := Ideal) (k1_pay2 (F := Ideal) v0) hi) (k1_pay43 (F := Ideal) (k1_pay2 (F := Ideal) v0) (k1_pay3 (F := Ideal) a0 p0) lo hi) (k1_pay44 (F := Ideal) (k1_pay2 (F := Ideal) v0) (k1_pay4 (F := Ideal) a1 p1) lo hi) (Scalar.ofBits (F := Ideal) .f32 0x00000000#32)) (k1_pay46 (F := Ideal) (k1_pay41 (F := Ideal) (k1_pay2 (F := Ideal) v0) lo)) w) (ix2 r o)
      = foldVal v0 a0 a1 a2 a3 a4 a5 a6 a7 p0 p1 p2 p3 p4 p5 p6 p7 lo hi w r o := by
  unfold k1_pay47
  refine (blockTimesSlab_apply _ w r o).trans ?_
  unfold foldVal
  refine Finset.sum_congr rfl fun k _ => congrArg (· * w (ix3 (0 : Fin 1) o k)) ?_
  simp only [k1_pay41, k1_pay42, k1_pay43, k1_pay44, k1_pay45, k1_pay46, k1_pay2, k1_pay3, k1_pay4, k1_pay5, k1_pay6, k1_pay7, k1_pay8, k1_pay9, k1_pay10, addf_apply, mulf_apply, select_apply, cmpf_apply, ori_apply,
    broadcast_apply, rows_apply, rowVec_apply, corner_apply, Ideal.ofBits_def, Ideal.ofBits_zero_f32, zero_add, msk]

/-- What the store of output fold 5 writes, read at `(r, o)`. -/
theorem store5_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay55 (F := Ideal) (k1_pay10 (F := Ideal) a7 p7) (k1_pay52 (F := Ideal) (k1_pay5 (F := Ideal) a2 p2) (k1_pay6 (F := Ideal) a3 p3) (k1_pay7 (F := Ideal) a4 p4) (k1_pay8 (F := Ideal) a5 p5) (k1_pay9 (F := Ideal) a6 p6) (k1_pay48 (F := Ideal) (k1_pay2 (F := Ideal) v0) lo) (k1_pay49 (F := Ideal) (k1_pay2 (F := Ideal) v0) hi) (k1_pay50 (F := Ideal) (k1_pay2 (F := Ideal) v0) (k1_pay3 (F := Ideal) a0 p0) lo hi) (k1_pay51 (F := Ideal) (k1_pay2 (F := Ideal) v0) (k1_pay4 (F := Ideal) a1 p1) lo hi)) (k1_pay53 (F := Ideal) (k1_pay10 (F := Ideal) a7 p7) (k1_pay48 (F := Ideal) (k1_pay2 (F := Ideal) v0) lo)) (k1_pay54 (F := Ideal) (k1_pay49 (F := Ideal) (k1_pay2 (F := Ideal) v0) hi)) w) (ix2 r o)
      = foldVal v0 a0 a1 a2 a3 a4 a5 a6 a7 p0 p1 p2 p3 p4 p5 p6 p7 lo hi w r o := by
  unfold k1_pay55
  refine (blockTimesSlab_apply _ w r o).trans ?_
  unfold foldVal
  refine Finset.sum_congr rfl fun k _ => congrArg (· * w (ix3 (0 : Fin 1) o k)) ?_
  simp only [k1_pay48, k1_pay49, k1_pay50, k1_pay51, k1_pay52, k1_pay53, k1_pay54, k1_pay2, k1_pay3, k1_pay4, k1_pay5, k1_pay6, k1_pay7, k1_pay8, k1_pay9, k1_pay10, addf_apply, mulf_apply, select_apply, cmpf_apply, ori_apply,
    broadcast_apply, rows_apply, rowVec_apply, corner_apply, Ideal.ofBits_def, Ideal.ofBits_zero_f32, zero_add, msk]

/-- What the store of output fold 6 writes, read at `(r, o)`. -/
theorem store6_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay63 (F := Ideal) (k1_pay10 (F := Ideal) a7 p7) (k1_pay60 (F := Ideal) (k1_pay5 (F := Ideal) a2 p2) (k1_pay6 (F := Ideal) a3 p3) (k1_pay7 (F := Ideal) a4 p4) (k1_pay8 (F := Ideal) a5 p5) (k1_pay9 (F := Ideal) a6 p6) (k1_pay56 (F := Ideal) (k1_pay2 (F := Ideal) v0) lo) (k1_pay57 (F := Ideal) (k1_pay2 (F := Ideal) v0) hi) (k1_pay58 (F := Ideal) (k1_pay2 (F := Ideal) v0) (k1_pay3 (F := Ideal) a0 p0) (k1_pay4 (F := Ideal) a1 p1) lo hi) (k1_pay59 (F := Ideal) (k1_pay2 (F := Ideal) v0) lo)) (k1_pay61 (F := Ideal) (k1_pay10 (F := Ideal) a7 p7) (k1_pay56 (F := Ideal) (k1_pay2 (F := Ideal) v0) lo)) (k1_pay62 (F := Ideal) (k1_pay10 (F := Ideal) a7 p7) (k1_pay57 (F := Ideal) (k1_pay2 (F := Ideal) v0) hi)) w) (ix2 r o)
      = foldVal v0 a0 a1 a2 a3 a4 a5 a6 a7 p0 p1 p2 p3 p4 p5 p6 p7 lo hi w r o := by
  unfold k1_pay63
  refine (blockTimesSlab_apply _ w r o).trans ?_
  unfold foldVal
  refine Finset.sum_congr rfl fun k _ => congrArg (· * w (ix3 (0 : Fin 1) o k)) ?_
  simp only [k1_pay56, k1_pay57, k1_pay58, k1_pay59, k1_pay60, k1_pay61, k1_pay62, k1_pay2, k1_pay3, k1_pay4, k1_pay5, k1_pay6, k1_pay7, k1_pay8, k1_pay9, k1_pay10, addf_apply, mulf_apply, select_apply, cmpf_apply, ori_apply,
    broadcast_apply, rows_apply, rowVec_apply, corner_apply, Ideal.ofBits_def, Ideal.ofBits_zero_f32, zero_add, msk]

/-- What the store of output fold 7 writes, read at `(r, o)`. -/
theorem store7_apply (v0 : Vec Ideal S1x1 .f32) (a0 a1 a2 a3 a4 a5 a6 a7 : Vec Ideal S512x256 .f32) (p0 p1 p2 p3 p4 p5 p6 p7 : Vec Ideal S1x1x256 .f32) (lo hi : Vec Ideal S1x1x256 .f32) (w : Vec Ideal S1x256x256 .f32) (r : Fin 512) (o : Fin 256) :
    (k1_pay1 (F := Ideal) (k1_pay10 (F := Ideal) a7 p7) (k1_pay68 (F := Ideal) (k1_pay5 (F := Ideal) a2 p2) (k1_pay6 (F := Ideal) a3 p3) (k1_pay7 (F := Ideal) a4 p4) (k1_pay8 (F := Ideal) a5 p5) (k1_pay9 (F := Ideal) a6 p6) (k1_pay64 (F := Ideal) (k1_pay2 (F := Ideal) v0) lo) (k1_pay65 (F := Ideal) (k1_pay2 (F := Ideal) v0) hi) (k1_pay66 (F := Ideal) (k1_pay2 (F := Ideal) v0) (k1_pay3 (F := Ideal) a0 p0) (k1_pay4 (F := Ideal) a1 p1) lo hi) (k1_pay67 (F := Ideal) (k1_pay2 (F := Ideal) v0) (k1_pay5 (F := Ideal) a2 p2) lo)) (k1_pay69 (F := Ideal) (k1_pay10 (F := Ideal) a7 p7) (k1_pay64 (F := Ideal) (k1_pay2 (F := Ideal) v0) lo) (k1_pay65 (F := Ideal) (k1_pay2 (F := Ideal) v0) hi)) (Scalar.ofBits (F := Ideal) .f32 0x00000000#32) w) (ix2 r o)
      = foldVal v0 a0 a1 a2 a3 a4 a5 a6 a7 p0 p1 p2 p3 p4 p5 p6 p7 lo hi w r o := by
  unfold k1_pay1
  refine (blockTimesSlab_apply _ w r o).trans ?_
  unfold foldVal
  refine Finset.sum_congr rfl fun k _ => congrArg (· * w (ix3 (0 : Fin 1) o k)) ?_
  simp only [k1_pay64, k1_pay65, k1_pay66, k1_pay67, k1_pay68, k1_pay69, k1_pay2, k1_pay3, k1_pay4, k1_pay5, k1_pay6, k1_pay7, k1_pay8, k1_pay9, k1_pay10, addf_apply, mulf_apply, select_apply, cmpf_apply, ori_apply,
    broadcast_apply, rows_apply, rowVec_apply, corner_apply, Ideal.ofBits_def, Ideal.ofBits_zero_f32, zero_add, msk]

end Cert.KernelIdeal.V1

end
-- ==== Proof.KIOut1.lean ====
/-
  What region 1's body leaves in the output block, entry by entry, as one function of the six input blocks.

  The body writes the output block [512, 2048] as eight column slices of 256 lanes; slice `f` is the value of output
  fold `f`.  Its loads are column slice `fp` of the input block (columns `fp*256 + k`), row `fp` of `pe`, row `f` of `mn`
  and of `mx`, slab `f` of the weights, and the corner of the tile.  Column `j` of the output lies in slice
  `foldOf j = j / 256` at lane `laneOf j = j % 256`, so entry `(r, j)` is the fold value of fold `foldOf j` at output
  lane `laneOf j`: the sum over the lane `k` of (the sum over the input fold `fp` of the masked entry
  `x[r, fp*256 + k] + pe[0, fp, k]`) times `W[foldOf j][laneOf j, k]`.  The eight slices tile the block, so every
  entry is under exactly one of them.
-/
import proofs.«157387_j34823594836361_1_alg».proof.Proof.KIRegion1
import proofs.«157387_j34823594836361_1_alg».proof.Proof.KIValue1

noncomputable section

open scoped BigOperators

namespace Cert.KernelIdeal.V1

open Idealize.ShloMosaic Idealize.ShloMosaic.ValueIdx Cert.KernelIdeal Cert.KernelIdeal.Gen Cert.FoldSpec

/-! ## Where each load reads -/

/-- Column `fp*256 + k` lies in fold `fp` … -/
theorem foldOf_col (fp : Fin 8) (k : Fin 256) : foldOf (col fp k) = fp :=
  Fin.ext (by show (fp.val * 256 + k.val) / 256 = fp.val; have := k.isLt; omega)
/-- … at lane `k`. -/
theorem laneOf_col (fp : Fin 8) (k : Fin 256) : laneOf (col fp k) = k :=
  Fin.ext (by show (fp.val * 256 + k.val) % 256 = k.val; have := k.isLt; omega)
/-- Every column is the column of its fold and lane. -/
theorem col_foldOf_laneOf (j : Fin 2048) : col (foldOf j) (laneOf j) = j :=
  Fin.ext (by show j.val / 256 * 256 + j.val % 256 = j.val; omega)

/-- The corner of the tile. -/
theorem idxT : R1.rT.idx (ix2 (0 : Fin 1) (0 : Fin 1)) = ix2 (0 : Fin 8) (0 : Fin 128) :=
  funext fun a => Fin.ext (by match a with | ⟨0, _⟩ => rfl | ⟨1, _⟩ => rfl)

/-- Column slice 0 of the input (or output) block: entry `(r, k)` is entry `(r, 0*256 + k)` of the block. -/
theorem idxX0 (r : Fin 512) (k : Fin 256) : R1.rX0.idx (ix2 r k) = ix2 r (col (0 : Fin 8) k) :=
  funext fun a => Fin.ext (by
    match a with
    | ⟨0, _⟩ => show 0 + 1 * r.val = r.val; omega
    | ⟨1, _⟩ => show 0 + 1 * k.val = 0 * 256 + k.val; omega)
/-- Row 0 of a [1, 8, 256] block. -/
theorem idxR0 (k : Fin 256) : R1.rR0.idx (ix3 (0 : Fin 1) (0 : Fin 1) k) = ix3 (0 : Fin 1) (0 : Fin 8) k :=
  funext fun a => Fin.ext (by
    match a with
    | ⟨0, _⟩ => rfl
    | ⟨1, _⟩ => rfl
    | ⟨2, _⟩ => show 0 + 1 * k.val = k.val; omega)
/-- Slab 0 of the weights. -/
theorem idxW0 (o k : Fin 256) : R1.rW0.idx (ix3 (0 : Fin 1) o k) = ix3 (0 : Fin 8) o k :=
  funext fun a => Fin.ext (by
    match a with
    | ⟨0, _⟩ => rfl
    | ⟨1, _⟩ => show 0 + 1 * o.val = o.val; omega
    | ⟨2, _⟩ => show 0 + 1 * k.val = k.val; omega)

/-- Column slice 1 of the input (or output) block: entry `(r, k)` is entry `(r, 1*256 + k)` of the block. -/
theorem idxX1 (r : Fin 512) (k : Fin 256) : R1.rX1.idx (ix2 r k) = ix2 r (col (1 : Fin 8) k) :=
  funext fun a => Fin.ext (by
    match a with
    | ⟨0, _⟩ => show 0 + 1 * r.val = r.val; omega
    | ⟨1, _⟩ => show 256 + 1 * k.val = 1 * 256 + k.val; omega)
/-- Row 1 of a [1, 8, 256] block. -/
theorem idxR1 (k : Fin 256) : R1.rR1.idx (ix3 (0 : Fin 1) (0 : Fin 1) k) = ix3 (0 : Fin 1) (1 : Fin 8) k :=
  funext fun a => Fin.ext (by
    match a with
    | ⟨0, _⟩ => rfl
    | ⟨1, _⟩ => rfl
    | ⟨2, _⟩ => show 0 + 1 * k.val = k.val; omega)
/-- Slab 1 of the weights. -/
theorem idxW1 (o k : Fin 256) : R1.rW1.idx (ix3 (0 : Fin 1) o k) = ix3 (1 : Fin 8) o k :=
  funext fun a => Fin.ext (by
    match a with
    | ⟨0, _⟩ => rfl
    | ⟨1, _⟩ => show 0 + 1 * o.val = o.val; omega
    | ⟨2, _⟩ => show 0 + 1 * k.val = k.val; omega)

/-- Column slice 2 of the input (or output) block: entry `(r, k)` is entry `(r, 2*256 + k)` of the block. -/
theorem idxX2 (r : Fin 512) (k : Fin 256) : R1.rX2.idx (ix2 r k) = ix2 r (col (2 : Fin 8) k) :=
  funext fun a => Fin.ext (by
    match a with
    | ⟨0, _⟩ => show 0 + 1 * r.val = r.val; omega
    | ⟨1, _⟩ => show 512 + 1 * k.val = 2 * 256 + k.val; omega)
/-- Row 2 of a [1, 8, 256] block. -/
theorem idxR2 (k : Fin 256) : R1.rR2.idx (ix3 (0 : Fin 1) (0 : Fin 1) k) = ix3 (0 : Fin 1) (2 : Fin 8) k :=
  funext fun a => Fin.ext (by
    match a with
    | ⟨0, _⟩ => rfl
    | ⟨1, _⟩ => rfl
    | ⟨2, _⟩ => show 0 + 1 * k.val = k.val; omega)
/-- Slab 2 of the weights. -/
theorem idxW2 (o k : Fin 256) : R1.rW2.idx (ix3 (0 : Fin 1) o k) = ix3 (2 : Fin 8) o k :=
  funext fun a => Fin.ext (by
    match a with
    | ⟨0, _⟩ => rfl
    | ⟨1, _⟩ => show 0 + 1 * o.val = o.val; omega
    | ⟨2, _⟩ => show 0 + 1 * k.val = k.val; omega)

/-- Column slice 3 of the input (or output) block: entry `(r, k)` is entry `(r, 3*256 + k)` of the block. -/
theorem idxX3 (r : Fin 512) (k : Fin 256) : R1.rX3.idx (ix2 r k) = ix2 r (col (3 : Fin 8) k) :=
  funext fun a => Fin.ext (by
    match a with
    | ⟨0, _⟩ => show 0 + 1 * r.val = r.val; omega
    | ⟨1, _⟩ => show 768 + 1 * k.val = 3 * 256 + k.val; omega)
/-- Row 3 of a [1, 8, 256] block. -/
theorem idxR3 (k : Fin 256) : R1.rR3.idx (ix3 (0 : Fin 1) (0 : Fin 1) k) = ix3 (0 : Fin 1) (3 : Fin 8) k :=
  funext fun a => Fin.ext (by
    match a with
    | ⟨0, _⟩ => rfl
    | ⟨1, _⟩ => rfl
    | ⟨2, _⟩ => show 0 + 1 * k.val = k.val; omega)
/-- Slab 3 of the weights. -/
theorem idxW3 (o k : Fin 256) : R1.rW3.idx (ix3 (0 : Fin 1) o k) = ix3 (3 : Fin 8) o k :=
  funext fun a => Fin.ext (by
    match a with
    | ⟨0, _⟩ => rfl
    | ⟨1, _⟩ => show 0 + 1 * o.val = o.val; omega
    | ⟨2, _⟩ => show 0 + 1 * k.val = k.val; omega)

/-- Column slice 4 of the input (or output) block: entry `(r, k)` is entry `(r, 4*256 + k)` of the block. -/
theorem idxX4 (r : Fin 512) (k : Fin 256) : R1.rX4.idx (ix2 r k) = ix2 r (col (4 : Fin 8) k) :=
  funext fun a => Fin.ext (by
    match a with
    | ⟨0, _⟩ => show 0 + 1 * r.val = r.val; omega
    | ⟨1, _⟩ => show 1024 + 1 * k.val = 4 * 256 + k.val; omega)
/-- Row 4 of a [1, 8, 256] block. -/
theorem idxR4 (k : Fin 256) : R1.rR4.idx (ix3 (0 : Fin 1) (0 : Fin 1) k) = ix3 (0 : Fin 1) (4 : Fin 8) k :=
  funext fun a => Fin.ext (by
    match a with
    | ⟨0, _⟩ => rfl
    | ⟨1, _⟩ => rfl
    | ⟨2, _⟩ => show 0 + 1 * k.val = k.val; omega)
/-- Slab 4 of the weights. -/
theorem idxW4 (o k : Fin 256) : R1.rW4.idx (ix3 (0 : Fin 1) o k) = ix3 (4 : Fin 8) o k :=
  funext fun a => Fin.ext (by
    match a with
    | ⟨0, _⟩ => rfl
    | ⟨1, _⟩ => show 0 + 1 * o.val = o.val; omega
    | ⟨2, _⟩ => show 0 + 1 * k.val = k.val; omega)

/-- Column slice 5 of the input (or output) block: entry `(r, k)` is entry `(r, 5*256 + k)` of the block. -/
theorem idxX5 (r : Fin 512) (k : Fin 256) : R1.rX5.idx (ix2 r k) = ix2 r (col (5 : Fin 8) k) :=
  funext fun a => Fin.ext (by
    match a with
    | ⟨0, _⟩ => show 0 + 1 * r.val = r.val; omega
    | ⟨1, _⟩ => show 1280 + 1 * k.val = 5 * 256 + k.val; omega)
/-- Row 5 of a [1, 8, 256] block. -/
theorem idxR5 (k : Fin 256) : R1.rR5.idx (ix3 (0 : Fin 1) (0 : Fin 1) k) = ix3 (0 : Fin 1) (5 : Fin 8) k :=
  funext fun a => Fin.ext (by
    match a with
    | ⟨0, _⟩ => rfl
    | ⟨1, _⟩ => rfl
    | ⟨2, _⟩ => show 0 + 1 * k.val = k.val; omega)
/-- Slab 5 of the weights. -/
theorem idxW5 (o k : Fin 256) : R1.rW5.idx (ix3 (0 : Fin 1) o k) = ix3 (5 : Fin 8) o k :=
  funext fun a => Fin.ext (by
    match a with
    | ⟨0, _⟩ => rfl
    | ⟨1, _⟩ => show 0 + 1 * o.val = o.val; omega
    | ⟨2, _⟩ => show 0 + 1 * k.val = k.val; omega)

/-- Column slice 6 of the input (or output) block: entry `(r, k)` is entry `(r, 6*256 + k)` of the block. -/
theorem idxX6 (r : Fin 512) (k : Fin 256) : R1.rX6.idx (ix2 r k) = ix2 r (col (6 : Fin 8) k) :=
  funext fun a => Fin.ext (by
    match a with
    | ⟨0, _⟩ => show 0 + 1 * r.val = r.val; omega
    | ⟨1, _⟩ => show 1536 + 1 * k.val = 6 * 256 + k.val; omega)
/-- Row 6 of a [1, 8, 256] block. -/
theorem idxR6 (k : Fin 256) : R1.rR6.idx (ix3 (0 : Fin 1) (0 : Fin 1) k) = ix3 (0 : Fin 1) (6 : Fin 8) k :=
  funext fun a => Fin.ext (by
    match a with
    | ⟨0, _⟩ => rfl
    | ⟨1, _⟩ => rfl
    | ⟨2, _⟩ => show 0 + 1 * k.val = k.val; omega)
/-- Slab 6 of the weights. -/
theorem idxW6 (o k : Fin 256) : R1.rW6.idx (ix3 (0 : Fin 1) o k) = ix3 (6 : Fin 8) o k :=
  funext fun a => Fin.ext (by
    match a with
    | ⟨0, _⟩ => rfl
    | ⟨1, _⟩ => show 0 + 1 * o.val = o.val; omega
    | ⟨2, _⟩ => show 0 + 1 * k.val = k.val; omega)

/-- Column slice 7 of the input (or output) block: entry `(r, k)` is entry `(r, 7*256 + k)` of the block. -/
theorem idxX7 (r : Fin 512) (k : Fin 256) : R1.rX7.idx (ix2 r k) = ix2 r (col (7 : Fin 8) k) :=
  funext fun a => Fin.ext (by
    match a with
    | ⟨0, _⟩ => show 0 + 1 * r.val = r.val; omega
    | ⟨1, _⟩ => show 1792 + 1 * k.val = 7 * 256 + k.val; omega)
/-- Row 7 of a [1, 8, 256] block. -/
theorem idxR7 (k : Fin 256) : R1.rR7.idx (ix3 (0 : Fin 1) (0 : Fin 1) k) = ix3 (0 : Fin 1) (7 : Fin 8) k :=
  funext fun a => Fin.ext (by
    match a with
    | ⟨0, _⟩ => rfl
    | ⟨1, _⟩ => rfl
    | ⟨2, _⟩ => show 0 + 1 * k.val = k.val; omega)
/-- Slab 7 of the weights. -/
theorem idxW7 (o k : Fin 256) : R1.rW7.idx (ix3 (0 : Fin 1) o k) = ix3 (7 : Fin 8) o k :=
  funext fun a => Fin.ext (by
    match a with
    | ⟨0, _⟩ => rfl
    | ⟨1, _⟩ => show 0 + 1 * o.val = o.val; omega
    | ⟨2, _⟩ => show 0 + 1 * k.val = k.val; omega)

/-! ## The block as one function -/

/-- Entry `(r, j)` of the output block, from the six input blocks. -/
def outVal (x0 : Vec Ideal S512x2048 .f32) (x1 : Vec Ideal S8x256x256 .f32) (x2 x3 x4 : Vec Ideal S1x8x256 .f32) (x5 : Vec Ideal S8x128 .f32) (r : Fin 512) (j : Fin 2048) : EReal :=
  ∑ k : Fin 256,
    (∑ fp : Fin 8, msk (x3 (ix3 (0 : Fin 1) (foldOf j) k) * x5 (ix2 (0 : Fin 8) (0 : Fin 128)))
        (x4 (ix3 (0 : Fin 1) (foldOf j) k) * x5 (ix2 (0 : Fin 8) (0 : Fin 128)))
        (x0 (ix2 r (col fp k)) + x2 (ix3 (0 : Fin 1) fp k)))
      * x1 (ix3 (foldOf j) (laneOf j) k)

/-- Slice 0 of the stores, read at `(a, b)`, is the block's entry at column `0*256 + b`. -/
theorem piece0 (x0 : Vec Ideal S512x2048 .f32) (x1 : Vec Ideal S8x256x256 .f32) (x2 x3 x4 : Vec Ideal S1x8x256 .f32) (x5 : Vec Ideal S8x128 .f32) (a : Fin 512) (b : Fin 256) :
    (k1_pay17 (F := Ideal) (k1_pay9 (F := Ideal) (View.ld x0 R1.rX6) (View.ld x2 R1.rR6)) (k1_pay10 (F := Ideal) (View.ld x0 R1.rX7) (View.ld x2 R1.rR7)) (k1_pay11 (F := Ideal) (k1_pay2 (F := Ideal) (View.ld x5 R1.rT)) (View.ld x3 R1.rR0)) (k1_pay12 (F := Ideal) (k1_pay2 (F := Ideal) (View.ld x5 R1.rT)) (View.ld x4 R1.rR0)) (k1_pay14 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay11 (F := Ideal) (k1_pay2 (F := Ideal) (View.ld x5 R1.rT)) (View.ld x3 R1.rR0)) (k1_pay12 (F := Ideal) (k1_pay2 (F := Ideal) (View.ld x5 R1.rT)) (View.ld x4 R1.rR0)) (k1_pay13 (F := Ideal) (k1_pay2 (F := Ideal) (View.ld x5 R1.rT)) (k1_pay3 (F := Ideal) (View.ld x0 R1.rX0) (View.ld x2 R1.rR0)) (View.ld x3 R1.rR0) (View.ld x4 R1.rR0))) (k1_pay15 (F := Ideal) (k1_pay9 (F := Ideal) (View.ld x0 R1.rX6) (View.ld x2 R1.rR6)) (k1_pay11 (F := Ideal) (k1_pay2 (F := Ideal) (View.ld x5 R1.rT)) (View.ld x3 R1.rR0))) (k1_pay16 (F := Ideal) (k1_pay12 (F := Ideal) (k1_pay2 (F := Ideal) (View.ld x5 R1.rT)) (View.ld x4 R1.rR0))) (View.ld x1 R1.rW0)) (ix2 a b)
      = outVal x0 x1 x2 x3 x4 x5 a (col (0 : Fin 8) b) := by
  refine (store0_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR0) (View.ld x4 R1.rR0) (View.ld x1 R1.rW0) a b).trans ?_
  unfold foldVal outVal
  refine Finset.sum_congr rfl fun k _ => ?_
  rw [Fin.sum_univ_eight, foldOf_col, laneOf_col]
  show (msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR0.idx (ix3 (0 : Fin 1) (0 : Fin 1) k)) * x5 (R1.rT.idx (ix2 (0 : Fin 1) (0 : Fin 1)))) (x4 (R1.rR0.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW0.idx (ix3 (0 : Fin 1) b k)) = _
  rw [idxT, idxR0, idxW0, idxX0, idxX1, idxX2, idxX3, idxX4, idxX5, idxX6, idxX7, idxR1, idxR2, idxR3, idxR4, idxR5, idxR6, idxR7]

/-- Slice 1 of the stores, read at `(a, b)`, is the block's entry at column `1*256 + b`. -/
theorem piece1 (x0 : Vec Ideal S512x2048 .f32) (x1 : Vec Ideal S8x256x256 .f32) (x2 x3 x4 : Vec Ideal S1x8x256 .f32) (x5 : Vec Ideal S8x128 .f32) (a : Fin 512) (b : Fin 256) :
    (k1_pay24 (F := Ideal) (k1_pay9 (F := Ideal) (View.ld x0 R1.rX6) (View.ld x2 R1.rR6)) (k1_pay10 (F := Ideal) (View.ld x0 R1.rX7) (View.ld x2 R1.rR7)) (k1_pay18 (F := Ideal) (k1_pay2 (F := Ideal) (View.ld x5 R1.rT)) (View.ld x3 R1.rR1)) (k1_pay19 (F := Ideal) (k1_pay2 (F := Ideal) (View.ld x5 R1.rT)) (View.ld x4 R1.rR1)) (k1_pay22 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay18 (F := Ideal) (k1_pay2 (F := Ideal) (View.ld x5 R1.rT)) (View.ld x3 R1.rR1)) (k1_pay19 (F := Ideal) (k1_pay2 (F := Ideal) (View.ld x5 R1.rT)) (View.ld x4 R1.rR1)) (k1_pay20 (F := Ideal) (k1_pay2 (F := Ideal) (View.ld x5 R1.rT)) (k1_pay3 (F := Ideal) (View.ld x0 R1.rX0) (View.ld x2 R1.rR0)) (View.ld x3 R1.rR1) (View.ld x4 R1.rR1)) (k1_pay21 (F := Ideal) (k1_pay2 (F := Ideal) (View.ld x5 R1.rT)) (View.ld x3 R1.rR1))) (k1_pay23 (F := Ideal) (k1_pay9 (F := Ideal) (View.ld x0 R1.rX6) (View.ld x2 R1.rR6)) (k1_pay18 (F := Ideal) (k1_pay2 (F := Ideal) (View.ld x5 R1.rT)) (View.ld x3 R1.rR1)) (k1_pay19 (F := Ideal) (k1_pay2 (F := Ideal) (View.ld x5 R1.rT)) (View.ld x4 R1.rR1))) (View.ld x1 R1.rW1)) (ix2 a b)
      = outVal x0 x1 x2 x3 x4 x5 a (col (1 : Fin 8) b) := by
  refine (store1_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR1) (View.ld x4 R1.rR1) (View.ld x1 R1.rW1) a b).trans ?_
  unfold foldVal outVal
  refine Finset.sum_congr rfl fun k _ => ?_
  rw [Fin.sum_univ_eight, foldOf_col, laneOf_col]
  show (msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR1.idx (ix3 (0 : Fin 1) (0 : Fin 1) k)) * x5 (R1.rT.idx (ix2 (0 : Fin 1) (0 : Fin 1)))) (x4 (R1.rR1.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW1.idx (ix3 (0 : Fin 1) b k)) = _
  rw [idxT, idxR1, idxW1, idxX0, idxX1, idxX2, idxX3, idxX4, idxX5, idxX6, idxX7, idxR0, idxR2, idxR3, idxR4, idxR5, idxR6, idxR7]

/-- Slice 2 of the stores, read at `(a, b)`, is the block's entry at column `2*256 + b`. -/
theorem piece2 (x0 : Vec Ideal S512x2048 .f32) (x1 : Vec Ideal S8x256x256 .f32) (x2 x3 x4 : Vec Ideal S1x8x256 .f32) (x5 : Vec Ideal S8x128 .f32) (a : Fin 512) (b : Fin 256) :
    (k1_pay33 (F := Ideal) (k1_pay9 (F := Ideal) (View.ld x0 R1.rX6) (View.ld x2 R1.rR6)) (k1_pay10 (F := Ideal) (View.ld x0 R1.rX7) (View.ld x2 R1.rR7)) (k1_pay25 (F := Ideal) (k1_pay2 (F := Ideal) (View.ld x5 R1.rT)) (View.ld x3 R1.rR2)) (k1_pay26 (F := Ideal) (k1_pay2 (F := Ideal) (View.ld x5 R1.rT)) (View.ld x4 R1.rR2)) (k1_pay30 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay25 (F := Ideal) (k1_pay2 (F := Ideal) (View.ld x5 R1.rT)) (View.ld x3 R1.rR2)) (k1_pay26 (F := Ideal) (k1_pay2 (F := Ideal) (View.ld x5 R1.rT)) (View.ld x4 R1.rR2)) (k1_pay27 (F := Ideal) (k1_pay2 (F := Ideal) (View.ld x5 R1.rT)) (k1_pay3 (F := Ideal) (View.ld x0 R1.rX0) (View.ld x2 R1.rR0)) (View.ld x3 R1.rR2) (View.ld x4 R1.rR2)) (k1_pay28 (F := Ideal) (k1_pay2 (F := Ideal) (View.ld x5 R1.rT)) (k1_pay4 (F := Ideal) (View.ld x0 R1.rX1) (View.ld x2 R1.rR1)) (View.ld x3 R1.rR2)) (k1_pay29 (F := Ideal) (k1_pay2 (F := Ideal) (View.ld x5 R1.rT)) (View.ld x4 R1.rR2))) (k1_pay31 (F := Ideal) (k1_pay9 (F := Ideal) (View.ld x0 R1.rX6) (View.ld x2 R1.rR6)) (k1_pay25 (F := Ideal) (k1_pay2 (F := Ideal) (View.ld x5 R1.rT)) (View.ld x3 R1.rR2)) (k1_pay26 (F := Ideal) (k1_pay2 (F := Ideal) (View.ld x5 R1.rT)) (View.ld x4 R1.rR2))) (k1_pay32 (F := Ideal)) (View.ld x1 R1.rW2)) (ix2 a b)
      = outVal x0 x1 x2 x3 x4 x5 a (col (2 : Fin 8) b) := by
  refine (store2_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR2) (View.ld x4 R1.rR2) (View.ld x1 R1.rW2) a b).trans ?_
  unfold foldVal outVal
  refine Finset.sum_congr rfl fun k _ => ?_
  rw [Fin.sum_univ_eight, foldOf_col, laneOf_col]
  show (msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR2.idx (ix3 (0 : Fin 1) (0 : Fin 1) k)) * x5 (R1.rT.idx (ix2 (0 : Fin 1) (0 : Fin 1)))) (x4 (R1.rR2.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW2.idx (ix3 (0 : Fin 1) b k)) = _
  rw [idxT, idxR2, idxW2, idxX0, idxX1, idxX2, idxX3, idxX4, idxX5, idxX6, idxX7, idxR0, idxR1, idxR3, idxR4, idxR5, idxR6, idxR7]

/-- Slice 3 of the stores, read at `(a, b)`, is the block's entry at column `3*256 + b`. -/
theorem piece3 (x0 : Vec Ideal S512x2048 .f32) (x1 : Vec Ideal S8x256x256 .f32) (x2 x3 x4 : Vec Ideal S1x8x256 .f32) (x5 : Vec Ideal S8x128 .f32) (a : Fin 512) (b : Fin 256) :
    (k1_pay40 (F := Ideal) (k1_pay10 (F := Ideal) (View.ld x0 R1.rX7) (View.ld x2 R1.rR7)) (k1_pay34 (F := Ideal) (k1_pay2 (F := Ideal) (View.ld x5 R1.rT)) (View.ld x3 R1.rR3)) (k1_pay35 (F := Ideal) (k1_pay2 (F := Ideal) (View.ld x5 R1.rT)) (View.ld x4 R1.rR3)) (k1_pay39 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay34 (F := Ideal) (k1_pay2 (F := Ideal) (View.ld x5 R1.rT)) (View.ld x3 R1.rR3)) (k1_pay35 (F := Ideal) (k1_pay2 (F := Ideal) (View.ld x5 R1.rT)) (View.ld x4 R1.rR3)) (k1_pay36 (F := Ideal) (k1_pay2 (F := Ideal) (View.ld x5 R1.rT)) (k1_pay3 (F := Ideal) (View.ld x0 R1.rX0) (View.ld x2 R1.rR0)) (View.ld x3 R1.rR3) (View.ld x4 R1.rR3)) (k1_pay37 (F := Ideal) (k1_pay2 (F := Ideal) (View.ld x5 R1.rT)) (k1_pay4 (F := Ideal) (View.ld x0 R1.rX1) (View.ld x2 R1.rR1)) (View.ld x3 R1.rR3)) (k1_pay38 (F := Ideal) (k1_pay2 (F := Ideal) (View.ld x5 R1.rT)) (k1_pay4 (F := Ideal) (View.ld x0 R1.rX1) (View.ld x2 R1.rR1)) (View.ld x4 R1.rR3))) (View.ld x1 R1.rW3)) (ix2 a b)
      = outVal x0 x1 x2 x3 x4 x5 a (col (3 : Fin 8) b) := by
  refine (store3_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR3) (View.ld x4 R1.rR3) (View.ld x1 R1.rW3) a b).trans ?_
  unfold foldVal outVal
  refine Finset.sum_congr rfl fun k _ => ?_
  rw [Fin.sum_univ_eight, foldOf_col, laneOf_col]
  show (msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR3.idx (ix3 (0 : Fin 1) (0 : Fin 1) k)) * x5 (R1.rT.idx (ix2 (0 : Fin 1) (0 : Fin 1)))) (x4 (R1.rR3.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW3.idx (ix3 (0 : Fin 1) b k)) = _
  rw [idxT, idxR3, idxW3, idxX0, idxX1, idxX2, idxX3, idxX4, idxX5, idxX6, idxX7, idxR0, idxR1, idxR2, idxR4, idxR5, idxR6, idxR7]

/-- Slice 4 of the stores, read at `(a, b)`, is the block's entry at column `4*256 + b`. -/
theorem piece4 (x0 : Vec Ideal S512x2048 .f32) (x1 : Vec Ideal S8x256x256 .f32) (x2 x3 x4 : Vec Ideal S1x8x256 .f32) (x5 : Vec Ideal S8x128 .f32) (a : Fin 512) (b : Fin 256) :
    (k1_pay47 (F := Ideal) (k1_pay10 (F := Ideal) (View.ld x0 R1.rX7) (View.ld x2 R1.rR7)) (k1_pay42 (F := Ideal) (k1_pay2 (F := Ideal) (View.ld x5 R1.rT)) (View.ld x4 R1.rR4)) (k1_pay45 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay41 (F := Ideal) (k1_pay2 (F := Ideal) (View.ld x5 R1.rT)) (View.ld x3 R1.rR4)) (k1_pay42 (F := Ideal) (k1_pay2 (F := Ideal) (View.ld x5 R1.rT)) (View.ld x4 R1.rR4)) (k1_pay43 (F := Ideal) (k1_pay2 (F := Ideal) (View.ld x5 R1.rT)) (k1_pay3 (F := Ideal) (View.ld x0 R1.rX0) (View.ld x2 R1.rR0)) (View.ld x3 R1.rR4) (View.ld x4 R1.rR4)) (k1_pay44 (F := Ideal) (k1_pay2 (F := Ideal) (View.ld x5 R1.rT)) (k1_pay4 (F := Ideal) (View.ld x0 R1.rX1) (View.ld x2 R1.rR1)) (View.ld x3 R1.rR4) (View.ld x4 R1.rR4)) (Scalar.ofBits (F := Ideal) .f32 0x00000000#32)) (k1_pay46 (F := Ideal) (k1_pay41 (F := Ideal) (k1_pay2 (F := Ideal) (View.ld x5 R1.rT)) (View.ld x3 R1.rR4))) (View.ld x1 R1.rW4)) (ix2 a b)
      = outVal x0 x1 x2 x3 x4 x5 a (col (4 : Fin 8) b) := by
  refine (store4_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR4) (View.ld x4 R1.rR4) (View.ld x1 R1.rW4) a b).trans ?_
  unfold foldVal outVal
  refine Finset.sum_congr rfl fun k _ => ?_
  rw [Fin.sum_univ_eight, foldOf_col, laneOf_col]
  show (msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR4.idx (ix3 (0 : Fin 1) (0 : Fin 1) k)) * x5 (R1.rT.idx (ix2 (0 : Fin 1) (0 : Fin 1)))) (x4 (R1.rR4.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW4.idx (ix3 (0 : Fin 1) b k)) = _
  rw [idxT, idxR4, idxW4, idxX0, idxX1, idxX2, idxX3, idxX4, idxX5, idxX6, idxX7, idxR0, idxR1, idxR2, idxR3, idxR5, idxR6, idxR7]

/-- Slice 5 of the stores, read at `(a, b)`, is the block's entry at column `5*256 + b`. -/
theorem piece5 (x0 : Vec Ideal S512x2048 .f32) (x1 : Vec Ideal S8x256x256 .f32) (x2 x3 x4 : Vec Ideal S1x8x256 .f32) (x5 : Vec Ideal S8x128 .f32) (a : Fin 512) (b : Fin 256) :
    (k1_pay55 (F := Ideal) (k1_pay10 (F := Ideal) (View.ld x0 R1.rX7) (View.ld x2 R1.rR7)) (k1_pay52 (F := Ideal) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay48 (F := Ideal) (k1_pay2 (F := Ideal) (View.ld x5 R1.rT)) (View.ld x3 R1.rR5)) (k1_pay49 (F := Ideal) (k1_pay2 (F := Ideal) (View.ld x5 R1.rT)) (View.ld x4 R1.rR5)) (k1_pay50 (F := Ideal) (k1_pay2 (F := Ideal) (View.ld x5 R1.rT)) (k1_pay3 (F := Ideal) (View.ld x0 R1.rX0) (View.ld x2 R1.rR0)) (View.ld x3 R1.rR5) (View.ld x4 R1.rR5)) (k1_pay51 (F := Ideal) (k1_pay2 (F := Ideal) (View.ld x5 R1.rT)) (k1_pay4 (F := Ideal) (View.ld x0 R1.rX1) (View.ld x2 R1.rR1)) (View.ld x3 R1.rR5) (View.ld x4 R1.rR5))) (k1_pay53 (F := Ideal) (k1_pay10 (F := Ideal) (View.ld x0 R1.rX7) (View.ld x2 R1.rR7)) (k1_pay48 (F := Ideal) (k1_pay2 (F := Ideal) (View.ld x5 R1.rT)) (View.ld x3 R1.rR5))) (k1_pay54 (F := Ideal) (k1_pay49 (F := Ideal) (k1_pay2 (F := Ideal) (View.ld x5 R1.rT)) (View.ld x4 R1.rR5))) (View.ld x1 R1.rW5)) (ix2 a b)
      = outVal x0 x1 x2 x3 x4 x5 a (col (5 : Fin 8) b) := by
  refine (store5_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR5) (View.ld x4 R1.rR5) (View.ld x1 R1.rW5) a b).trans ?_
  unfold foldVal outVal
  refine Finset.sum_congr rfl fun k _ => ?_
  rw [Fin.sum_univ_eight, foldOf_col, laneOf_col]
  show (msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR5.idx (ix3 (0 : Fin 1) (0 : Fin 1) k)) * x5 (R1.rT.idx (ix2 (0 : Fin 1) (0 : Fin 1)))) (x4 (R1.rR5.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW5.idx (ix3 (0 : Fin 1) b k)) = _
  rw [idxT, idxR5, idxW5, idxX0, idxX1, idxX2, idxX3, idxX4, idxX5, idxX6, idxX7, idxR0, idxR1, idxR2, idxR3, idxR4, idxR6, idxR7]

/-- Slice 6 of the stores, read at `(a, b)`, is the block's entry at column `6*256 + b`. -/
theorem piece6 (x0 : Vec Ideal S512x2048 .f32) (x1 : Vec Ideal S8x256x256 .f32) (x2 x3 x4 : Vec Ideal S1x8x256 .f32) (x5 : Vec Ideal S8x128 .f32) (a : Fin 512) (b : Fin 256) :
    (k1_pay63 (F := Ideal) (k1_pay10 (F := Ideal) (View.ld x0 R1.rX7) (View.ld x2 R1.rR7)) (k1_pay60 (F := Ideal) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay56 (F := Ideal) (k1_pay2 (F := Ideal) (View.ld x5 R1.rT)) (View.ld x3 R1.rR6)) (k1_pay57 (F := Ideal) (k1_pay2 (F := Ideal) (View.ld x5 R1.rT)) (View.ld x4 R1.rR6)) (k1_pay58 (F := Ideal) (k1_pay2 (F := Ideal) (View.ld x5 R1.rT)) (k1_pay3 (F := Ideal) (View.ld x0 R1.rX0) (View.ld x2 R1.rR0)) (k1_pay4 (F := Ideal) (View.ld x0 R1.rX1) (View.ld x2 R1.rR1)) (View.ld x3 R1.rR6) (View.ld x4 R1.rR6)) (k1_pay59 (F := Ideal) (k1_pay2 (F := Ideal) (View.ld x5 R1.rT)) (View.ld x3 R1.rR6))) (k1_pay61 (F := Ideal) (k1_pay10 (F := Ideal) (View.ld x0 R1.rX7) (View.ld x2 R1.rR7)) (k1_pay56 (F := Ideal) (k1_pay2 (F := Ideal) (View.ld x5 R1.rT)) (View.ld x3 R1.rR6))) (k1_pay62 (F := Ideal) (k1_pay10 (F := Ideal) (View.ld x0 R1.rX7) (View.ld x2 R1.rR7)) (k1_pay57 (F := Ideal) (k1_pay2 (F := Ideal) (View.ld x5 R1.rT)) (View.ld x4 R1.rR6))) (View.ld x1 R1.rW6)) (ix2 a b)
      = outVal x0 x1 x2 x3 x4 x5 a (col (6 : Fin 8) b) := by
  refine (store6_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR6) (View.ld x4 R1.rR6) (View.ld x1 R1.rW6) a b).trans ?_
  unfold foldVal outVal
  refine Finset.sum_congr rfl fun k _ => ?_
  rw [Fin.sum_univ_eight, foldOf_col, laneOf_col]
  show (msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR6.idx (ix3 (0 : Fin 1) (0 : Fin 1) k)) * x5 (R1.rT.idx (ix2 (0 : Fin 1) (0 : Fin 1)))) (x4 (R1.rR6.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW6.idx (ix3 (0 : Fin 1) b k)) = _
  rw [idxT, idxR6, idxW6, idxX0, idxX1, idxX2, idxX3, idxX4, idxX5, idxX6, idxX7, idxR0, idxR1, idxR2, idxR3, idxR4, idxR5, idxR7]

/-- Slice 7 of the stores, read at `(a, b)`, is the block's entry at column `7*256 + b`. -/
theorem piece7 (x0 : Vec Ideal S512x2048 .f32) (x1 : Vec Ideal S8x256x256 .f32) (x2 x3 x4 : Vec Ideal S1x8x256 .f32) (x5 : Vec Ideal S8x128 .f32) (a : Fin 512) (b : Fin 256) :
    (k1_pay1 (F := Ideal) (k1_pay10 (F := Ideal) (View.ld x0 R1.rX7) (View.ld x2 R1.rR7)) (k1_pay68 (F := Ideal) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay64 (F := Ideal) (k1_pay2 (F := Ideal) (View.ld x5 R1.rT)) (View.ld x3 R1.rR7)) (k1_pay65 (F := Ideal) (k1_pay2 (F := Ideal) (View.ld x5 R1.rT)) (View.ld x4 R1.rR7)) (k1_pay66 (F := Ideal) (k1_pay2 (F := Ideal) (View.ld x5 R1.rT)) (k1_pay3 (F := Ideal) (View.ld x0 R1.rX0) (View.ld x2 R1.rR0)) (k1_pay4 (F := Ideal) (View.ld x0 R1.rX1) (View.ld x2 R1.rR1)) (View.ld x3 R1.rR7) (View.ld x4 R1.rR7)) (k1_pay67 (F := Ideal) (k1_pay2 (F := Ideal) (View.ld x5 R1.rT)) (k1_pay5 (F := Ideal) (View.ld x0 R1.rX2) (View.ld x2 R1.rR2)) (View.ld x3 R1.rR7))) (k1_pay69 (F := Ideal) (k1_pay10 (F := Ideal) (View.ld x0 R1.rX7) (View.ld x2 R1.rR7)) (k1_pay64 (F := Ideal) (k1_pay2 (F := Ideal) (View.ld x5 R1.rT)) (View.ld x3 R1.rR7)) (k1_pay65 (F := Ideal) (k1_pay2 (F := Ideal) (View.ld x5 R1.rT)) (View.ld x4 R1.rR7))) (Scalar.ofBits (F := Ideal) .f32 0x00000000#32) (View.ld x1 R1.rW7)) (ix2 a b)
      = outVal x0 x1 x2 x3 x4 x5 a (col (7 : Fin 8) b) := by
  refine (store7_apply (View.ld x5 R1.rT) (View.ld x0 R1.rX0) (View.ld x0 R1.rX1) (View.ld x0 R1.rX2) (View.ld x0 R1.rX3) (View.ld x0 R1.rX4) (View.ld x0 R1.rX5) (View.ld x0 R1.rX6) (View.ld x0 R1.rX7)
    (View.ld x2 R1.rR0) (View.ld x2 R1.rR1) (View.ld x2 R1.rR2) (View.ld x2 R1.rR3) (View.ld x2 R1.rR4) (View.ld x2 R1.rR5) (View.ld x2 R1.rR6) (View.ld x2 R1.rR7)
    (View.ld x3 R1.rR7) (View.ld x4 R1.rR7) (View.ld x1 R1.rW7) a b).trans ?_
  unfold foldVal outVal
  refine Finset.sum_congr rfl fun k _ => ?_
  rw [Fin.sum_univ_eight, foldOf_col, laneOf_col]
  show (msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX0.idx (ix2 a k)) + x2 (R1.rR0.idx (ix3 (0 : Fin 1) (0 : Fin 1) k)))
      + msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX1.idx (ix2 a k)) + x2 (R1.rR1.idx (ix3 (0 : Fin 1) (0 : Fin 1) k)))
      + msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX2.idx (ix2 a k)) + x2 (R1.rR2.idx (ix3 (0 : Fin 1) (0 : Fin 1) k)))
      + msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX3.idx (ix2 a k)) + x2 (R1.rR3.idx (ix3 (0 : Fin 1) (0 : Fin 1) k)))
      + msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX4.idx (ix2 a k)) + x2 (R1.rR4.idx (ix3 (0 : Fin 1) (0 : Fin 1) k)))
      + msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX5.idx (ix2 a k)) + x2 (R1.rR5.idx (ix3 (0 : Fin 1) (0 : Fin 1) k)))
      + msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX6.idx (ix2 a k)) + x2 (R1.rR6.idx (ix3 (0 : Fin 1) (0 : Fin 1) k)))
      + msk (x3 (R1.rR7.idx (ix3 (0 : Fin 1) (0 : Fin 1) k)) * x5 (R1.rT.idx (ix2 (0 : Fin 1) (0 : Fin 1)))) (x4 (R1.rR7.idx (ix3 (0 : Fin 1) (0 : Fin 1) k)) * x5 (R1.rT.idx (ix2 (0 : Fin 1) (0 : Fin 1)))) (x0 (R1.rX7.idx (ix2 a k)) + x2 (R1.rR7.idx (ix3 (0 : Fin 1) (0 : Fin 1) k))))
      * x1 (R1.rW7.idx (ix3 (0 : Fin 1) b k)) = _
  rw [idxT, idxR7, idxW7, idxX0, idxX1, idxX2, idxX3, idxX4, idxX5, idxX6, idxX7, idxR0, idxR1, idxR2, idxR3, idxR4, idxR5, idxR6]

/-! ## The stores together -/

/-- The block the body leaves is the overlay of its eight stores over the values it loaded. -/
theorem out1_6_eq (x0 : Vec Ideal S512x2048 .f32) (x1 : Vec Ideal S8x256x256 .f32) (x2 x3 x4 : Vec Ideal S1x8x256 .f32) (x5 : Vec Ideal S8x128 .f32) :
    R1.out1_6 (F := Ideal) x0 x1 x2 x3 x4 x5
      = View.canon (Val := Elt Ideal) [⟨R1.rX7, (k1_pay1 (F := Ideal) (k1_pay10 (F := Ideal) (View.ld x0 R1.rX7) (View.ld x2 R1.rR7)) (k1_pay68 (F := Ideal) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay64 (F := Ideal) (k1_pay2 (F := Ideal) (View.ld x5 R1.rT)) (View.ld x3 R1.rR7)) (k1_pay65 (F := Ideal) (k1_pay2 (F := Ideal) (View.ld x5 R1.rT)) (View.ld x4 R1.rR7)) (k1_pay66 (F := Ideal) (k1_pay2 (F := Ideal) (View.ld x5 R1.rT)) (k1_pay3 (F := Ideal) (View.ld x0 R1.rX0) (View.ld x2 R1.rR0)) (k1_pay4 (F := Ideal) (View.ld x0 R1.rX1) (View.ld x2 R1.rR1)) (View.ld x3 R1.rR7) (View.ld x4 R1.rR7)) (k1_pay67 (F := Ideal) (k1_pay2 (F := Ideal) (View.ld x5 R1.rT)) (k1_pay5 (F := Ideal) (View.ld x0 R1.rX2) (View.ld x2 R1.rR2)) (View.ld x3 R1.rR7))) (k1_pay69 (F := Ideal) (k1_pay10 (F := Ideal) (View.ld x0 R1.rX7) (View.ld x2 R1.rR7)) (k1_pay64 (F := Ideal) (k1_pay2 (F := Ideal) (View.ld x5 R1.rT)) (View.ld x3 R1.rR7)) (k1_pay65 (F := Ideal) (k1_pay2 (F := Ideal) (View.ld x5 R1.rT)) (View.ld x4 R1.rR7))) (Scalar.ofBits (F := Ideal) .f32 0x00000000#32) (View.ld x1 R1.rW7))⟩,
          ⟨R1.rX6, (k1_pay63 (F := Ideal) (k1_pay10 (F := Ideal) (View.ld x0 R1.rX7) (View.ld x2 R1.rR7)) (k1_pay60 (F := Ideal) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay56 (F := Ideal) (k1_pay2 (F := Ideal) (View.ld x5 R1.rT)) (View.ld x3 R1.rR6)) (k1_pay57 (F := Ideal) (k1_pay2 (F := Ideal) (View.ld x5 R1.rT)) (View.ld x4 R1.rR6)) (k1_pay58 (F := Ideal) (k1_pay2 (F := Ideal) (View.ld x5 R1.rT)) (k1_pay3 (F := Ideal) (View.ld x0 R1.rX0) (View.ld x2 R1.rR0)) (k1_pay4 (F := Ideal) (View.ld x0 R1.rX1) (View.ld x2 R1.rR1)) (View.ld x3 R1.rR6) (View.ld x4 R1.rR6)) (k1_pay59 (F := Ideal) (k1_pay2 (F := Ideal) (View.ld x5 R1.rT)) (View.ld x3 R1.rR6))) (k1_pay61 (F := Ideal) (k1_pay10 (F := Ideal) (View.ld x0 R1.rX7) (View.ld x2 R1.rR7)) (k1_pay56 (F := Ideal) (k1_pay2 (F := Ideal) (View.ld x5 R1.rT)) (View.ld x3 R1.rR6))) (k1_pay62 (F := Ideal) (k1_pay10 (F := Ideal) (View.ld x0 R1.rX7) (View.ld x2 R1.rR7)) (k1_pay57 (F := Ideal) (k1_pay2 (F := Ideal) (View.ld x5 R1.rT)) (View.ld x4 R1.rR6))) (View.ld x1 R1.rW6))⟩,
          ⟨R1.rX5, (k1_pay55 (F := Ideal) (k1_pay10 (F := Ideal) (View.ld x0 R1.rX7) (View.ld x2 R1.rR7)) (k1_pay52 (F := Ideal) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay48 (F := Ideal) (k1_pay2 (F := Ideal) (View.ld x5 R1.rT)) (View.ld x3 R1.rR5)) (k1_pay49 (F := Ideal) (k1_pay2 (F := Ideal) (View.ld x5 R1.rT)) (View.ld x4 R1.rR5)) (k1_pay50 (F := Ideal) (k1_pay2 (F := Ideal) (View.ld x5 R1.rT)) (k1_pay3 (F := Ideal) (View.ld x0 R1.rX0) (View.ld x2 R1.rR0)) (View.ld x3 R1.rR5) (View.ld x4 R1.rR5)) (k1_pay51 (F := Ideal) (k1_pay2 (F := Ideal) (View.ld x5 R1.rT)) (k1_pay4 (F := Ideal) (View.ld x0 R1.rX1) (View.ld x2 R1.rR1)) (View.ld x3 R1.rR5) (View.ld x4 R1.rR5))) (k1_pay53 (F := Ideal) (k1_pay10 (F := Ideal) (View.ld x0 R1.rX7) (View.ld x2 R1.rR7)) (k1_pay48 (F := Ideal) (k1_pay2 (F := Ideal) (View.ld x5 R1.rT)) (View.ld x3 R1.rR5))) (k1_pay54 (F := Ideal) (k1_pay49 (F := Ideal) (k1_pay2 (F := Ideal) (View.ld x5 R1.rT)) (View.ld x4 R1.rR5))) (View.ld x1 R1.rW5))⟩,
          ⟨R1.rX4, (k1_pay47 (F := Ideal) (k1_pay10 (F := Ideal) (View.ld x0 R1.rX7) (View.ld x2 R1.rR7)) (k1_pay42 (F := Ideal) (k1_pay2 (F := Ideal) (View.ld x5 R1.rT)) (View.ld x4 R1.rR4)) (k1_pay45 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay41 (F := Ideal) (k1_pay2 (F := Ideal) (View.ld x5 R1.rT)) (View.ld x3 R1.rR4)) (k1_pay42 (F := Ideal) (k1_pay2 (F := Ideal) (View.ld x5 R1.rT)) (View.ld x4 R1.rR4)) (k1_pay43 (F := Ideal) (k1_pay2 (F := Ideal) (View.ld x5 R1.rT)) (k1_pay3 (F := Ideal) (View.ld x0 R1.rX0) (View.ld x2 R1.rR0)) (View.ld x3 R1.rR4) (View.ld x4 R1.rR4)) (k1_pay44 (F := Ideal) (k1_pay2 (F := Ideal) (View.ld x5 R1.rT)) (k1_pay4 (F := Ideal) (View.ld x0 R1.rX1) (View.ld x2 R1.rR1)) (View.ld x3 R1.rR4) (View.ld x4 R1.rR4)) (Scalar.ofBits (F := Ideal) .f32 0x00000000#32)) (k1_pay46 (F := Ideal) (k1_pay41 (F := Ideal) (k1_pay2 (F := Ideal) (View.ld x5 R1.rT)) (View.ld x3 R1.rR4))) (View.ld x1 R1.rW4))⟩,
          ⟨R1.rX3, (k1_pay40 (F := Ideal) (k1_pay10 (F := Ideal) (View.ld x0 R1.rX7) (View.ld x2 R1.rR7)) (k1_pay34 (F := Ideal) (k1_pay2 (F := Ideal) (View.ld x5 R1.rT)) (View.ld x3 R1.rR3)) (k1_pay35 (F := Ideal) (k1_pay2 (F := Ideal) (View.ld x5 R1.rT)) (View.ld x4 R1.rR3)) (k1_pay39 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay9 (F := Ideal) (View.ld x0 R1.rX6) (View.ld x2 R1.rR6)) (k1_pay34 (F := Ideal) (k1_pay2 (F := Ideal) (View.ld x5 R1.rT)) (View.ld x3 R1.rR3)) (k1_pay35 (F := Ideal) (k1_pay2 (F := Ideal) (View.ld x5 R1.rT)) (View.ld x4 R1.rR3)) (k1_pay36 (F := Ideal) (k1_pay2 (F := Ideal) (View.ld x5 R1.rT)) (k1_pay3 (F := Ideal) (View.ld x0 R1.rX0) (View.ld x2 R1.rR0)) (View.ld x3 R1.rR3) (View.ld x4 R1.rR3)) (k1_pay37 (F := Ideal) (k1_pay2 (F := Ideal) (View.ld x5 R1.rT)) (k1_pay4 (F := Ideal) (View.ld x0 R1.rX1) (View.ld x2 R1.rR1)) (View.ld x3 R1.rR3)) (k1_pay38 (F := Ideal) (k1_pay2 (F := Ideal) (View.ld x5 R1.rT)) (k1_pay4 (F := Ideal) (View.ld x0 R1.rX1) (View.ld x2 R1.rR1)) (View.ld x4 R1.rR3))) (View.ld x1 R1.rW3))⟩,
          ⟨R1.rX2, (k1_pay33 (F := Ideal) (k1_pay9 (F := Ideal) (View.ld x0 R1.rX6) (View.ld x2 R1.rR6)) (k1_pay10 (F := Ideal) (View.ld x0 R1.rX7) (View.ld x2 R1.rR7)) (k1_pay25 (F := Ideal) (k1_pay2 (F := Ideal) (View.ld x5 R1.rT)) (View.ld x3 R1.rR2)) (k1_pay26 (F := Ideal) (k1_pay2 (F := Ideal) (View.ld x5 R1.rT)) (View.ld x4 R1.rR2)) (k1_pay30 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay25 (F := Ideal) (k1_pay2 (F := Ideal) (View.ld x5 R1.rT)) (View.ld x3 R1.rR2)) (k1_pay26 (F := Ideal) (k1_pay2 (F := Ideal) (View.ld x5 R1.rT)) (View.ld x4 R1.rR2)) (k1_pay27 (F := Ideal) (k1_pay2 (F := Ideal) (View.ld x5 R1.rT)) (k1_pay3 (F := Ideal) (View.ld x0 R1.rX0) (View.ld x2 R1.rR0)) (View.ld x3 R1.rR2) (View.ld x4 R1.rR2)) (k1_pay28 (F := Ideal) (k1_pay2 (F := Ideal) (View.ld x5 R1.rT)) (k1_pay4 (F := Ideal) (View.ld x0 R1.rX1) (View.ld x2 R1.rR1)) (View.ld x3 R1.rR2)) (k1_pay29 (F := Ideal) (k1_pay2 (F := Ideal) (View.ld x5 R1.rT)) (View.ld x4 R1.rR2))) (k1_pay31 (F := Ideal) (k1_pay9 (F := Ideal) (View.ld x0 R1.rX6) (View.ld x2 R1.rR6)) (k1_pay25 (F := Ideal) (k1_pay2 (F := Ideal) (View.ld x5 R1.rT)) (View.ld x3 R1.rR2)) (k1_pay26 (F := Ideal) (k1_pay2 (F := Ideal) (View.ld x5 R1.rT)) (View.ld x4 R1.rR2))) (k1_pay32 (F := Ideal)) (View.ld x1 R1.rW2))⟩,
          ⟨R1.rX1, (k1_pay24 (F := Ideal) (k1_pay9 (F := Ideal) (View.ld x0 R1.rX6) (View.ld x2 R1.rR6)) (k1_pay10 (F := Ideal) (View.ld x0 R1.rX7) (View.ld x2 R1.rR7)) (k1_pay18 (F := Ideal) (k1_pay2 (F := Ideal) (View.ld x5 R1.rT)) (View.ld x3 R1.rR1)) (k1_pay19 (F := Ideal) (k1_pay2 (F := Ideal) (View.ld x5 R1.rT)) (View.ld x4 R1.rR1)) (k1_pay22 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay18 (F := Ideal) (k1_pay2 (F := Ideal) (View.ld x5 R1.rT)) (View.ld x3 R1.rR1)) (k1_pay19 (F := Ideal) (k1_pay2 (F := Ideal) (View.ld x5 R1.rT)) (View.ld x4 R1.rR1)) (k1_pay20 (F := Ideal) (k1_pay2 (F := Ideal) (View.ld x5 R1.rT)) (k1_pay3 (F := Ideal) (View.ld x0 R1.rX0) (View.ld x2 R1.rR0)) (View.ld x3 R1.rR1) (View.ld x4 R1.rR1)) (k1_pay21 (F := Ideal) (k1_pay2 (F := Ideal) (View.ld x5 R1.rT)) (View.ld x3 R1.rR1))) (k1_pay23 (F := Ideal) (k1_pay9 (F := Ideal) (View.ld x0 R1.rX6) (View.ld x2 R1.rR6)) (k1_pay18 (F := Ideal) (k1_pay2 (F := Ideal) (View.ld x5 R1.rT)) (View.ld x3 R1.rR1)) (k1_pay19 (F := Ideal) (k1_pay2 (F := Ideal) (View.ld x5 R1.rT)) (View.ld x4 R1.rR1))) (View.ld x1 R1.rW1))⟩,
          ⟨R1.rX0, (k1_pay17 (F := Ideal) (k1_pay9 (F := Ideal) (View.ld x0 R1.rX6) (View.ld x2 R1.rR6)) (k1_pay10 (F := Ideal) (View.ld x0 R1.rX7) (View.ld x2 R1.rR7)) (k1_pay11 (F := Ideal) (k1_pay2 (F := Ideal) (View.ld x5 R1.rT)) (View.ld x3 R1.rR0)) (k1_pay12 (F := Ideal) (k1_pay2 (F := Ideal) (View.ld x5 R1.rT)) (View.ld x4 R1.rR0)) (k1_pay14 (F := Ideal) (k1_pay4 (F := Ideal) (View.ld x0 R1.rX1) (View.ld x2 R1.rR1)) (k1_pay5 (F := Ideal) (View.ld x0 R1.rX2) (View.ld x2 R1.rR2)) (k1_pay6 (F := Ideal) (View.ld x0 R1.rX3) (View.ld x2 R1.rR3)) (k1_pay7 (F := Ideal) (View.ld x0 R1.rX4) (View.ld x2 R1.rR4)) (k1_pay8 (F := Ideal) (View.ld x0 R1.rX5) (View.ld x2 R1.rR5)) (k1_pay11 (F := Ideal) (k1_pay2 (F := Ideal) (View.ld x5 R1.rT)) (View.ld x3 R1.rR0)) (k1_pay12 (F := Ideal) (k1_pay2 (F := Ideal) (View.ld x5 R1.rT)) (View.ld x4 R1.rR0)) (k1_pay13 (F := Ideal) (k1_pay2 (F := Ideal) (View.ld x5 R1.rT)) (k1_pay3 (F := Ideal) (View.ld x0 R1.rX0) (View.ld x2 R1.rR0)) (View.ld x3 R1.rR0) (View.ld x4 R1.rR0))) (k1_pay15 (F := Ideal) (k1_pay9 (F := Ideal) (View.ld x0 R1.rX6) (View.ld x2 R1.rR6)) (k1_pay11 (F := Ideal) (k1_pay2 (F := Ideal) (View.ld x5 R1.rT)) (View.ld x3 R1.rR0))) (k1_pay16 (F := Ideal) (k1_pay12 (F := Ideal) (k1_pay2 (F := Ideal) (View.ld x5 R1.rT)) (View.ld x4 R1.rR0))) (View.ld x1 R1.rW0))⟩] := rfl

/-- Entry `(r, j)` of the block region 1's body leaves in the output window's buffer. -/
theorem out1_6_apply (x0 : Vec Ideal S512x2048 .f32) (x1 : Vec Ideal S8x256x256 .f32) (x2 x3 x4 : Vec Ideal S1x8x256 .f32) (x5 : Vec Ideal S8x128 .f32) (r : Fin 512) (j : Fin 2048) :
    R1.out1_6 (F := Ideal) x0 x1 x2 x3 x4 x5 (ix2 r j)
      = ∑ k : Fin 256,
          (∑ fp : Fin 8, msk (x3 (ix3 (0 : Fin 1) (foldOf j) k) * x5 (ix2 (0 : Fin 8) (0 : Fin 128)))
              (x4 (ix3 (0 : Fin 1) (foldOf j) k) * x5 (ix2 (0 : Fin 8) (0 : Fin 128)))
              (x0 (ix2 r (col fp k)) + x2 (ix3 (0 : Fin 1) fp k)))
            * x1 (ix3 (foldOf j) (laneOf j) k) := by
  rw [out1_6_eq]
  refine (View.canon_apply_of_pieces (Val := Elt Ideal) (fun y : S512x2048.Idx => outVal x0 x1 x2 x3 x4 x5 (y 0) (y 1)) _
    (fun p hp x => ?_) (ix2 r j) (R1.cover1_6 _ _ _ _ _ _ _ _ _)).trans rfl
  simp only [List.mem_cons, List.not_mem_nil, or_false] at hp
  rcases hp with rfl | rfl | rfl | rfl | rfl | rfl | rfl | rfl
  · obtain ⟨a, b, rfl⟩ : ∃ (a : Fin 512) (b : Fin 256), x = ix2 a b := ⟨x 0, x 1, eq_ix2 x⟩
    exact (piece7 x0 x1 x2 x3 x4 x5 a b).trans (congrArg (fun y : S512x2048.Idx => outVal x0 x1 x2 x3 x4 x5 (y 0) (y 1)) (idxX7 a b)).symm
  · obtain ⟨a, b, rfl⟩ : ∃ (a : Fin 512) (b : Fin 256), x = ix2 a b := ⟨x 0, x 1, eq_ix2 x⟩
    exact (piece6 x0 x1 x2 x3 x4 x5 a b).trans (congrArg (fun y : S512x2048.Idx => outVal x0 x1 x2 x3 x4 x5 (y 0) (y 1)) (idxX6 a b)).symm
  · obtain ⟨a, b, rfl⟩ : ∃ (a : Fin 512) (b : Fin 256), x = ix2 a b := ⟨x 0, x 1, eq_ix2 x⟩
    exact (piece5 x0 x1 x2 x3 x4 x5 a b).trans (congrArg (fun y : S512x2048.Idx => outVal x0 x1 x2 x3 x4 x5 (y 0) (y 1)) (idxX5 a b)).symm
  · obtain ⟨a, b, rfl⟩ : ∃ (a : Fin 512) (b : Fin 256), x = ix2 a b := ⟨x 0, x 1, eq_ix2 x⟩
    exact (piece4 x0 x1 x2 x3 x4 x5 a b).trans (congrArg (fun y : S512x2048.Idx => outVal x0 x1 x2 x3 x4 x5 (y 0) (y 1)) (idxX4 a b)).symm
  · obtain ⟨a, b, rfl⟩ : ∃ (a : Fin 512) (b : Fin 256), x = ix2 a b := ⟨x 0, x 1, eq_ix2 x⟩
    exact (piece3 x0 x1 x2 x3 x4 x5 a b).trans (congrArg (fun y : S512x2048.Idx => outVal x0 x1 x2 x3 x4 x5 (y 0) (y 1)) (idxX3 a b)).symm
  · obtain ⟨a, b, rfl⟩ : ∃ (a : Fin 512) (b : Fin 256), x = ix2 a b := ⟨x 0, x 1, eq_ix2 x⟩
    exact (piece2 x0 x1 x2 x3 x4 x5 a b).trans (congrArg (fun y : S512x2048.Idx => outVal x0 x1 x2 x3 x4 x5 (y 0) (y 1)) (idxX2 a b)).symm
  · obtain ⟨a, b, rfl⟩ : ∃ (a : Fin 512) (b : Fin 256), x = ix2 a b := ⟨x 0, x 1, eq_ix2 x⟩
    exact (piece1 x0 x1 x2 x3 x4 x5 a b).trans (congrArg (fun y : S512x2048.Idx => outVal x0 x1 x2 x3 x4 x5 (y 0) (y 1)) (idxX1 a b)).symm
  · obtain ⟨a, b, rfl⟩ : ∃ (a : Fin 512) (b : Fin 256), x = ix2 a b := ⟨x 0, x 1, eq_ix2 x⟩
    exact (piece0 x0 x1 x2 x3 x4 x5 a b).trans (congrArg (fun y : S512x2048.Idx => outVal x0 x1 x2 x3 x4 x5 (y 0) (y 1)) (idxX0 a b)).symm

end Cert.KernelIdeal.V1

end
-- ==== Proof.KIArr1.lean ====
import proofs.«157387_j34823594836361_1_alg».proof.Proof.KIRegion1
import proofs.«157387_j34823594836361_1_alg».proof.Proof.Spec
import proofs.«157387_j34823594836361_1_alg».proof.Proof.KIOut1
import Idealize.ShloMosaic.Lib.Pipeline.Value
import Idealize.ShloMosaic.Lib.ValueIdx

/-!
# Region 1 of the idealized program: from the blocks to the array

At the ideal instance. The output window's block at grid point `t` is rows `512 t … 512 t + 511` of the
result array; the activation window moves with it, and every other input window is its whole array at
every point. Given what the body leaves in the output buffer index by index (a double sum over the lanes
and the input folds of the masked, shifted activations against one weight row), point `t` writes back
exactly block `t` of the fold-sum-first form of the layer, stated on the whole arrays; the sixteen blocks
cover the result array, so after the region it holds that form.
-/

noncomputable section

open scoped BigOperators

namespace Cert.KernelIdeal.A1

open Cert.KernelIdeal Cert.KernelIdeal.Gen Idealize.ShloMosaic Idealize.ShloMosaic.TcCoe Idealize.SL.Sem
open Idealize.ShloMosaic.Pipeline (Dat)
open Idealize.ShloMosaic.ValueIdx Cert.FoldSpec

/-- What the body leaves in the output buffer, index by index: at row `r` and column `j` (fold `foldOf j`,
    lane `laneOf j`) the sum over the lanes `k` of the fold-summed masked entries times the weight row. -/
def OutSpec : Prop :=
  ∀ (x0 : Vec Ideal S512x2048 .f32) (x1 : Vec Ideal S8x256x256 .f32) (x2 x3 x4 : Vec Ideal S1x8x256 .f32) (x5 : Vec Ideal S8x128 .f32)
    (r : Fin 512) (j : Fin 2048),
    R1.out1_6 (F := Ideal) x0 x1 x2 x3 x4 x5 (ix2 r j)
      = ∑ k : Fin 256, (∑ fp : Fin 8, msk (x3 (ix3 0 (foldOf j) k) * x5 (ix2 0 0)) (x4 (ix3 0 (foldOf j) k) * x5 (ix2 0 0))
          (x0 (ix2 r (col fp k)) + x2 (ix3 0 fp k))) * x1 (ix3 (foldOf j) (laneOf j) k)

/-! ## The index maps, decided over the grid -/

/-- The printed index maps at every grid point: the activation window and the output window are at block row
    `t`, column block 0; every other input window stays at block 0 on every axis. -/
theorem index_facts : ∀ t : Fin cfg1.N,
    win1_0.index t (0 : Fin 2) = t.val
    ∧ win1_0.index t (1 : Fin 2) = 0
    ∧ win1_1.index t (0 : Fin 3) = 0
    ∧ win1_1.index t (1 : Fin 3) = 0
    ∧ win1_1.index t (2 : Fin 3) = 0
    ∧ win1_2.index t (0 : Fin 3) = 0
    ∧ win1_2.index t (1 : Fin 3) = 0
    ∧ win1_2.index t (2 : Fin 3) = 0
    ∧ win1_3.index t (0 : Fin 3) = 0
    ∧ win1_3.index t (1 : Fin 3) = 0
    ∧ win1_3.index t (2 : Fin 3) = 0
    ∧ win1_4.index t (0 : Fin 3) = 0
    ∧ win1_4.index t (1 : Fin 3) = 0
    ∧ win1_4.index t (2 : Fin 3) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-! ## One point, over plain vectors -/

/-- If the activation block `x0` is rows `512 n …` of the array `X`, and the other blocks are the whole arrays,
    the body's output at an index `y` of the block is the fold-sum-first form on the arrays at the array index
    `i` with `i 0 = 512 n + y 0`, `i 1 = y 1`. -/
theorem point_eq (hout : OutSpec) (x0 : Vec Ideal S512x2048 .f32) (x1 : Vec Ideal S8x256x256 .f32) (x2 x3 x4 : Vec Ideal S1x8x256 .f32)
    (x5 : Vec Ideal S8x128 .f32) (X : FVec Ideal SX .f32) (W : FVec Ideal SW .f32) (pe mn mx : FVec Ideal SP .f32)
    (T : (⟨2, ![8, 128]⟩ : Shape).Idx → EReal) (n : ℕ)
    (hx : ∀ (y : S512x2048.Idx) (i : SX.Idx), (i 0).val = 512 * n + (y 0).val → (i 1).val = (y 1).val → x0 y = X i)
    (hW : x1 = W) (hpe : x2 = pe) (hmn : x3 = mn) (hmx : x4 = mx) (hT : x5 = T)
    (y : S512x2048.Idx) (i : SX.Idx) (h0 : (i 0).val = 512 * n + (y 0).val) (h1 : (i 1).val = (y 1).val) :
    R1.out1_6 (F := Ideal) x0 x1 x2 x3 x4 x5 y = kform (T (ix2 0 0)) X W pe mn mx i := by
  subst hW hpe hmn hmx hT
  obtain ⟨r, j, rfl⟩ : ∃ r j, y = ix2 r j := ⟨y 0, y 1, eq_ix2 y⟩
  obtain ⟨b, q, rfl⟩ : ∃ b q, i = ix2 b q := ⟨i 0, i 1, eq_ix2 i⟩
  have h0' : b.val = 512 * n + r.val := h0
  obtain rfl : q = j := Fin.ext h1
  rw [hout, kform_ix2]
  unfold kformAt
  refine Finset.sum_congr rfl fun k _ => ?_
  refine congrArg (· * _) ?_
  refine Finset.sum_congr rfl fun fp _ => ?_
  rw [hx (ix2 r (col fp k)) (ix2 b (col fp k)) h0' rfl]

section Blocks
variable (V : (c : Dev nD) → (b : Ref sig .tc) → Buf (Elt Ideal) ((c : Thread nD τ).loc b))

/-! ## Each input block, read off its array -/

/-- The activation window's block at point `t` is rows `512 t … 512 t + 511` of the argument. -/
theorem iblk_x_apply (c : Dev nD) (t : Fin cfg1.N) (y : S512x2048.Idx) (i : S8192x2048.Idx)
    (h0 : (i 0).val = 512 * t.val + (y 0).val) (h1 : (i 1).val = (y 1).val) :
    (R1.iblk1 V c 0 t : Vec Ideal S512x2048 .f32) y = (V c main_arg0 : S8192x2048.Idx → Elt Ideal .f32) i := by
  obtain ⟨e00, e01, e10, e11, e12, e20, e21, e22, e30, e31, e32, e40, e41, e42, e50, e51, e60, e61⟩ := index_facts t
  unfold R1.iblk1
  rw [View.read_apply]
  show V c main_arg0 _ = V c main_arg0 i
  congr 1
  funext a; apply Fin.ext
  match a with
  | ⟨0, _⟩ => show win1_0.index t (0 : Fin 2) * 512 + 1 * (y 0).val = (i 0).val; omega
  | ⟨1, _⟩ => show win1_0.index t (1 : Fin 2) * 2048 + 1 * (y 1).val = (i 1).val; omega

/-- The weight window's block is the whole weight array at every point. -/
theorem iblk_W_eq (c : Dev nD) (t : Fin cfg1.N) :
    (R1.iblk1 V c 1 t : Vec Ideal S8x256x256 .f32) = (V c main_arg1 : S8x256x256.Idx → Elt Ideal .f32) := by
  obtain ⟨e00, e01, e10, e11, e12, e20, e21, e22, e30, e31, e32, e40, e41, e42, e50, e51, e60, e61⟩ := index_facts t
  funext y
  unfold R1.iblk1
  rw [View.read_apply]
  show V c main_arg1 _ = V c main_arg1 y
  congr 1
  funext a; apply Fin.ext
  match a with
  | ⟨0, _⟩ => show win1_1.index t (0 : Fin 3) * 8 + 1 * (y 0).val = (y 0).val; omega
  | ⟨1, _⟩ => show win1_1.index t (1 : Fin 3) * 256 + 1 * (y 1).val = (y 1).val; omega
  | ⟨2, _⟩ => show win1_1.index t (2 : Fin 3) * 256 + 1 * (y 2).val = (y 2).val; omega

/-- The shift window's block is its whole array at every point. -/
theorem iblk_pe_eq (c : Dev nD) (t : Fin cfg1.N) :
    (R1.iblk1 V c 2 t : Vec Ideal S1x8x256 .f32) = (V c main_arg2 : S1x8x256.Idx → Elt Ideal .f32) := by
  obtain ⟨e00, e01, e10, e11, e12, e20, e21, e22, e30, e31, e32, e40, e41, e42, e50, e51, e60, e61⟩ := index_facts t
  funext y
  unfold R1.iblk1
  rw [View.read_apply]
  show V c main_arg2 _ = V c main_arg2 y
  congr 1
  funext a; apply Fin.ext
  match a with
  | ⟨0, _⟩ => show win1_2.index t (0 : Fin 3) * 1 + 1 * (y 0).val = (y 0).val; omega
  | ⟨1, _⟩ => show win1_2.index t (1 : Fin 3) * 8 + 1 * (y 1).val = (y 1).val; omega
  | ⟨2, _⟩ => show win1_2.index t (2 : Fin 3) * 256 + 1 * (y 2).val = (y 2).val; omega

/-- The lower-bound window's block is its whole array at every point. -/
theorem iblk_mn_eq (c : Dev nD) (t : Fin cfg1.N) :
    (R1.iblk1 V c 3 t : Vec Ideal S1x8x256 .f32) = (V c main_arg3 : S1x8x256.Idx → Elt Ideal .f32) := by
  obtain ⟨e00, e01, e10, e11, e12, e20, e21, e22, e30, e31, e32, e40, e41, e42, e50, e51, e60, e61⟩ := index_facts t
  funext y
  unfold R1.iblk1
  rw [View.read_apply]
  show V c main_arg3 _ = V c main_arg3 y
  congr 1
  funext a; apply Fin.ext
  match a with
  | ⟨0, _⟩ => show win1_3.index t (0 : Fin 3) * 1 + 1 * (y 0).val = (y 0).val; omega
  | ⟨1, _⟩ => show win1_3.index t (1 : Fin 3) * 8 + 1 * (y 1).val = (y 1).val; omega
  | ⟨2, _⟩ => show win1_3.index t (2 : Fin 3) * 256 + 1 * (y 2).val = (y 2).val; omega

/-- The upper-bound window's block is its whole array at every point. -/
theorem iblk_mx_eq (c : Dev nD) (t : Fin cfg1.N) :
    (R1.iblk1 V c 4 t : Vec Ideal S1x8x256 .f32) = (V c main_arg4 : S1x8x256.Idx → Elt Ideal .f32) := by
  obtain ⟨e00, e01, e10, e11, e12, e20, e21, e22, e30, e31, e32, e40, e41, e42, e50, e51, e60, e61⟩ := index_facts t
  funext y
  unfold R1.iblk1
  rw [View.read_apply]
  show V c main_arg4 _ = V c main_arg4 y
  congr 1
  funext a; apply Fin.ext
  match a with
  | ⟨0, _⟩ => show win1_4.index t (0 : Fin 3) * 1 + 1 * (y 0).val = (y 0).val; omega
  | ⟨1, _⟩ => show win1_4.index t (1 : Fin 3) * 8 + 1 * (y 1).val = (y 1).val; omega
  | ⟨2, _⟩ => show win1_4.index t (2 : Fin 3) * 256 + 1 * (y 2).val = (y 2).val; omega

/-- The scale tile's block is the whole tile at every point. -/
theorem iblk_tile_eq (c : Dev nD) (t : Fin cfg1.N) :
    (R1.iblk1 V c 5 t : Vec Ideal S8x128 .f32) = (V c main_v0 : S8x128.Idx → Elt Ideal .f32) := by
  obtain ⟨e00, e01, e10, e11, e12, e20, e21, e22, e30, e31, e32, e40, e41, e42, e50, e51, e60, e61⟩ := index_facts t
  funext y
  unfold R1.iblk1
  rw [View.read_apply]
  show V c main_v0 _ = V c main_v0 y
  congr 1
  funext a; apply Fin.ext
  match a with
  | ⟨0, _⟩ => show win1_5.index t (0 : Fin 2) * 8 + 1 * (y 0).val = (y 0).val; omega
  | ⟨1, _⟩ => show win1_5.index t (1 : Fin 2) * 128 + 1 * (y 1).val = (y 1).val; omega

/-! ## What a point writes back -/

/-- The fold-sum-first form on the arrays as the region finds them, at the scale in the tile's corner. -/
abbrev G (c : Dev nD) : FVec Ideal SX .f32 :=
  kform ((V c main_v0 : S8x128.Idx → Elt Ideal .f32) (ix2 0 0)) (V c main_arg0) (V c main_arg1) (V c main_arg2) (V c main_arg3) (V c main_arg4)

/-- Point `t` writes back block `t` of `G`. -/
theorem flushed_eq (hout : OutSpec) (c : Dev nD) (t : Fin cfg1.N) :
    (R1.dat1 V c).flushed 6 t = ((cfg1.win 6).blk t).view.read (Elt Ideal) (G V c) := by
  obtain ⟨e00, e01, e10, e11, e12, e20, e21, e22, e30, e31, e32, e40, e41, e42, e50, e51, e60, e61⟩ := index_facts t
  show (cfg1.win 6).cut (grid1.coords t) ((R1.dat1 V c).after 6 t) = _
  rw [R1.after1_6]
  funext y
  rw [View.read_apply]
  show R1.out1_6 (F := Ideal) (R1.iblk1 V c 0 t) (R1.iblk1 V c 1 t) (R1.iblk1 V c 2 t) (R1.iblk1 V c 3 t) (R1.iblk1 V c 4 t) (R1.iblk1 V c 5 t) y = _
  refine point_eq hout _ _ _ _ _ _ (V c main_arg0) (V c main_arg1) (V c main_arg2) (V c main_arg3) (V c main_arg4) (V c main_v0) t.val
    (fun y i h0 h1 => iblk_x_apply V c t y i h0 h1) (iblk_W_eq V c t) (iblk_pe_eq V c t) (iblk_mn_eq V c t) (iblk_mx_eq V c t) (iblk_tile_eq V c t)
    y _ ?_ ?_
  · show win1_6.index t (0 : Fin 2) * 512 + 1 * (y 0).val = 512 * t.val + (y 0).val; omega
  · show win1_6.index t (1 : Fin 2) * 2048 + 1 * (y 1).val = (y 1).val; omega

/-! ## The blocks cover the array -/

/-- An index of the array is in point `t`'s block iff each coordinate is in the block's range on its axis. -/
theorem mem_blk (t : Fin cfg1.N) (i : S8192x2048.Idx) :
    i ∈ ((cfg1.win 6).blk t).view.set ↔ ∀ a : Fin 2, win1_6.index t a * S512x2048.size a ≤ (i a).val ∧ (i a).val < win1_6.index t a * S512x2048.size a + S512x2048.size a := by
  show i ∈ ((View.whole main_v1).slice (win1_6.rect t)).set ↔ _
  rw [View.set_slice_whole, Rect.mem_set_unit]
  exact Iff.rfl

/-- Row `b` of the array is in the block of point `b / 512`, and every point writes back. -/
theorem cover (i : S8192x2048.Idx) : ∃ t : Fin cfg1.N, (cfg1.win 6).flush t = true ∧ i ∈ ((cfg1.win 6).blk t).view.set := by
  have hi0 : (i 0).val < 8192 := (i 0).isLt
  have hi1 : (i 1).val < 2048 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨e00, e01, e10, e11, e12, e20, e21, e22, e30, e31, e32, e40, e41, e42, e50, e51, e60, e61⟩ := index_facts t
  refine ⟨t, flush1_6 t, ?_⟩
  rw [mem_blk]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 2048 ≤ (i 1).val ∧ (i 1).val < win1_6.index t (1 : Fin 2) * 2048 + 2048; omega

/-! ## The array after the region -/

/-- After the region the result array holds the fold-sum-first form of the layer on the arrays as found. -/
theorem arr1_eq_of (hout : OutSpec) (c : Dev nD) :
    (R1.dat1 V c).arrAt 6 cfg1.N = kform ((V c main_v0 : S8x128.Idx → Elt Ideal .f32) (ix2 0 0)) (V c main_arg0) (V c main_arg1) (V c main_arg2) (V c main_arg3) (V c main_arg4) :=
  (R1.dat1 V c).arrAt_eq_of_cover 6 (G V c) (fun t _ => flushed_eq V hout c t) (cover)

end Blocks

/-- After the region the result array holds the fold-sum-first form of the layer on the arrays as the region finds
    them, at the scale in the tile's corner. -/
theorem arr1_eq (V : (c : Dev nD) → (b : Ref sig .tc) → Buf (Elt Ideal) ((c : Thread nD τ).loc b)) (c : Dev nD) :
    (R1.dat1 V c).arrAt 6 cfg1.N = kform ((V c main_v0 : S8x128.Idx → Elt Ideal .f32) (ix2 0 0)) (V c main_arg0) (V c main_arg1) (V c main_arg2) (V c main_arg3) (V c main_arg4) :=
  arr1_eq_of V V1.out1_6_apply c

end Cert.KernelIdeal.A1

end
-- ==== Proof.KIFinal.lean ====
/-
  What the idealized kernel's result array holds, as one function of the launch memory.

  The second region leaves, at entry (b, j) of the result, the fold-sum-then-contract form `kformAt` of the
  arrays it finds, at the scale it reads at the corner of the 8 × 128 tile.  It finds the five arguments as
  launched (the first region writes none of them), and the tile at what the first region's last point wrote:
  the largest magnitude of the input at every entry.  So the result is `kform (maxAbs x) x W pe mn mx`.
-/
import proofs.«157387_j34823594836361_1_alg».proof.Proof.KIRun
import proofs.«157387_j34823594836361_1_alg».proof.Proof.KIArr0
import proofs.«157387_j34823594836361_1_alg».proof.Proof.KIArr1
import proofs.«157387_j34823594836361_1_alg».proof.Proof.KIOut1
import proofs.«157387_j34823594836361_1_alg».proof.Proof.Spec

noncomputable section

namespace Cert.KernelIdeal.Final

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array on core `c`, from the launch memory. -/
def result (c : Dev nD) : Buf (Elt Ideal) ((c.tc : Thread nD τ).loc main_v1) :=
  Cert.FoldSpec.kform (Cert.FoldSpec.maxAbs (m ((c.tc : Thread nD τ).loc main_arg0)))
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The tile the second region reads holds the largest magnitude of the launched input at every entry. -/
theorem tile (c : Dev nD) : Run.V1 m ρ c main_v0 = fun _ => Cert.FoldSpec.maxAbs (m ((c.tc : Thread nD τ).loc main_arg0)) :=
  (Run.V1_main_v0 m ρ c).trans (A0.tile_eq (Run.V0 m ρ) c)

/-- The second pipeline's write-backs are `result`. -/
theorem result_eq (c : Dev nD) : (R1.dat1 (Run.V1 m ρ) c).arrAt 6 cfg1.N = result m c := by
  refine (A1.arr1_eq_of (Run.V1 m ρ) V1.out1_6_apply c).trans ?_
  unfold result
  rw [Run.V1_main_arg0 m ρ c, Run.V1_main_arg1 m ρ c, Run.V1_main_arg2 m ρ c, Run.V1_main_arg3 m ρ c, Run.V1_main_arg4 m ρ c,
    congrFun (tile m ρ c) (ValueIdx.ix2 0 0)]

/-- THE RUN: every weakly fair execution of the idealized kernel terminates with the result array at `result` and
    the five arguments as launched. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩) (Run.run_value m ρ)

end Cert.KernelIdeal.Final

end
-- ==== Proof.RefMax.lean ====
/-
  The largest magnitude of the input, as the reference computes it.

  The reference reshapes the input from [8192, 2048] to [8192, 8, 256], takes magnitudes, and folds a maximum
  from minus infinity over every index of the reshaped array.  A fold of `max` from the bottom element over a
  finite set is the supremum over that set, and the reshape reads every input index (the index map is onto),
  so the supremum over the reshaped indices is the supremum over the input's own indices.
-/
import proofs.«157387_j34823594836361_1_alg».proof.Proof.Gen.ReferenceIdeal.Read
import proofs.«157387_j34823594836361_1_alg».proof.Proof.Spec
import Idealize.ShloMosaic.PureOps.Reduce

noncomputable section

namespace Cert.RefForm

open Cert.ReferenceIdeal Cert.ReferenceIdeal.Gen Cert.ReferenceIdeal.Read Idealize.ShloMosaic
  Idealize.ShloMosaic.ValueIdx Cert.FoldSpec

/-- A supremum over a finite type is unchanged by reading the family through a map onto the index type. -/
theorem sup_comp_surj {ι κ : Type} [Fintype ι] [Fintype κ] (e : ι → κ) (he : Function.Surjective e)
    (g : κ → EReal) : (Finset.univ.sup fun i => g (e i)) = Finset.univ.sup g := by
  apply le_antisymm
  · exact Finset.sup_le fun i _ => Finset.le_sup (f := g) (Finset.mem_univ (e i))
  · refine Finset.sup_le fun j _ => ?_
    obtain ⟨i, rfl⟩ := he j
    exact Finset.le_sup (f := fun i => g (e i)) (Finset.mem_univ i)

/-- The reshape [8192, 2048] → [8192, 8, 256] reads every index of the input: column `c` of row `b` is read at
    fold `c / 256`, lane `c % 256` of row `b`. -/
theorem idx_main_v0_surj : Function.Surjective idx_main_v0 := by
  intro j
  obtain ⟨b, c, rfl⟩ : ∃ (b : Fin 8192) (c : Fin 2048), j = ix2 b c := ⟨j 0, j 1, eq_ix2 j⟩
  refine ⟨ix3 b (⟨c.val / 256, by omega⟩ : Fin 8) (⟨c.val % 256, by omega⟩ : Fin 256), ?_⟩
  funext a
  match a with
  | ⟨0, _⟩ => exact Fin.ext (by show ((b.val * 8 + c.val / 256) * 256 + c.val % 256) / 2048 = b.val; omega)
  | ⟨1, _⟩ => exact Fin.ext (by show ((b.val * 8 + c.val / 256) * 256 + c.val % 256) % 2048 = c.val; omega)

/-- The reference's maximum-reduce is the largest magnitude of the input. -/
theorem ref_max (x0 : FVec Ideal SX .f32) :
    val_main_v2 (F := Ideal) x0 ix0 = maxAbs x0 := by
  unfold val_main_v2
  have hy : val_main_v1 (F := Ideal) x0 = fun i => (fun j => max (x0 j) (-(x0 j))) (idx_main_v0 i) := by
    funext i
    rw [val_main_v1_apply, val_main_v0_apply]
    rfl
  generalize val_main_v1 (F := Ideal) x0 = y at hy
  rw [Host.reduce_eq_fold]
  rw [Finset.filter_true_of_mem fun i _ => funext fun a => a.elim0]
  subst hy
  have hb : val_main_cst (F := Ideal) (Shape.Idx.first h_S_) = (⊥ : EReal) := by
    rw [val_main_cst_apply]; simp [Ideal.ofBits, Ideal.ieee]
  rw [hb]
  exact sup_comp_surj idx_main_v0 idx_main_v0_surj fun j => max (x0 j) (-(x0 j))

end Cert.RefForm

end
-- ==== Proof.RefForm.lean ====
/-
  The reference, read at one output entry.

  Each stage of the reference program reads its operands at an index computed from the literal shapes.  Composing
  those reads from the result back to the arguments, output entry `(b, j)` is zero plus the sum, over the eight
  input folds `fp` and the 256 lanes `k`, of the masked, shifted, clamped input entry times `W[f, o, k]`, with
  `f = j / 256` and `o = j % 256`.  The only arithmetic in the index identities is division with remainder by the
  literal extents: row `b * 8 + fp` of the flattened [65536, 256] array is fold `fp` of input row `b`.
-/
import proofs.«157387_j34823594836361_1_alg».proof.Proof.Gen.ReferenceIdeal.Read
import proofs.«157387_j34823594836361_1_alg».proof.Proof.Spec

noncomputable section

namespace Cert.RefForm

open Cert.ReferenceIdeal Cert.ReferenceIdeal.Gen Cert.ReferenceIdeal.Read Idealize.ShloMosaic
  Idealize.ShloMosaic.ValueIdx Cert.FoldSpec

/-- Row `b * 8 + fp` of the input flattened to [65536, 256]: fold `fp` of input row `b`. -/
def rowOf (b : Fin 8192) (fp : Fin 8) : Fin 65536 := ⟨b.val * 8 + fp.val, by omega⟩

variable (x0 : FVec Ideal SX .f32) (x1 : FVec Ideal SW .f32) (x2 x3 x4 : FVec Ideal SP .f32)

/-! ## The scalars -/

/-- The quotient of the largest magnitude by 127. -/
theorem v3_eq (i : S_.Idx) :
    val_main_v3 (F := Ideal) x0 i = Ideal.div (val_main_v2 (F := Ideal) x0 ix0) c127 := by
  obtain rfl : i = ix0 := eq_ix0 i
  rw [val_main_v3_apply, val_main_cst_0_apply]
  rfl

/-- The upper clamp bound and the scale of the ranges: the quotient times 127. -/
theorem v6_eq (i : S_.Idx) :
    val_main_v6 (F := Ideal) x0 i = Ideal.div (val_main_v2 (F := Ideal) x0 ix0) c127 * c127 := by
  rw [val_main_v6_apply, val_main_cst_2_apply, v3_eq]
  rfl

theorem v8_eq (i : S_.Idx) :
    val_main_v8 (F := Ideal) x0 i = Ideal.div (val_main_v2 (F := Ideal) x0 ix0) c127 * c127 := by
  rw [val_main_v8_apply, val_main_cst_3_apply, v3_eq]
  rfl

/-- The lower clamp bound: the negated quotient times 127. -/
theorem v5_eq (i : S_.Idx) :
    val_main_v5 (F := Ideal) x0 i = -(Ideal.div (val_main_v2 (F := Ideal) x0 ix0) c127) * c127 := by
  rw [val_main_v5_apply, val_main_cst_1_apply, val_main_v4_apply, v3_eq]
  rfl

/-! ## The clamped, shifted entry -/

/-- The reshaped input at `(b, fp, k)` is the input at column `fp * 256 + k` of row `b`. -/
theorem v0_eq (b : Fin 8192) (fp : Fin 8) (k : Fin 256) :
    val_main_v0 (F := Ideal) x0 (ix3 b fp k) = x0 (ix2 b (col fp k)) := by
  rw [val_main_v0_apply]
  refine congrArg x0 (funext fun a => ?_)
  match a with
  | ⟨0, _⟩ => exact Fin.ext (by show ((b.val * 8 + fp.val) * 256 + k.val) / 2048 = b.val; omega)
  | ⟨1, _⟩ => exact Fin.ext (by show ((b.val * 8 + fp.val) * 256 + k.val) % 2048 = fp.val * 256 + k.val; omega)

/-- The clamp of the reshaped input to the two bounds. -/
theorem v7_eq (b : Fin 8192) (fp : Fin 8) (k : Fin 256) :
    val_main_v7 (F := Ideal) x0 (ix3 b fp k)
      = min (Ideal.div (val_main_v2 (F := Ideal) x0 ix0) c127 * c127)
          (max (-(Ideal.div (val_main_v2 (F := Ideal) x0 ix0) c127) * c127) (x0 (ix2 b (col fp k)))) := by
  rw [val_main_v7_apply, val_main_call0_v2_apply, val_main_call0_v1_apply, val_main_call0_v0_apply, v6_eq, v5_eq,
    v0_eq]
  rfl

/-- A per-fold row read at `(fp, k)` after its reshape to [8, 256]. -/
theorem idx_v9 (fp : Fin 8) (k : Fin 256) : idx_main_v9 (ix2 fp k) = ix3 0 fp k := by
  funext a
  match a with
  | ⟨0, _⟩ => exact Fin.ext rfl
  | ⟨1, _⟩ => exact Fin.ext (by show (fp.val * 256 + k.val) / 256 % 8 = fp.val; omega)
  | ⟨2, _⟩ => exact Fin.ext (by show (fp.val * 256 + k.val) % 256 = k.val; omega)

/-- The shift broadcast over the rows. -/
theorem v11_eq (b : Fin 8192) (fp : Fin 8) (k : Fin 256) :
    val_main_v11 (F := Ideal) x2 (ix3 b fp k) = x2 (ix3 0 fp k) := by
  rw [val_main_v11_apply, val_main_v10_apply, val_main_v9_apply]
  refine congrArg x2 (Eq.trans (congrArg idx_main_v9 ?_) (idx_v9 fp k))
  funext a
  match a with
  | ⟨0, _⟩ => rfl
  | ⟨1, _⟩ => rfl

/-- The flattened [65536, 256] array at row `b * 8 + fp`, lane `k`: the clamped input entry plus the shift. -/
theorem v13_eq (b : Fin 8192) (fp : Fin 8) (k : Fin 256) :
    val_main_v13 (F := Ideal) x0 x2 (ix2 (rowOf b fp) k)
      = min (Ideal.div (val_main_v2 (F := Ideal) x0 ix0) c127 * c127)
          (max (-(Ideal.div (val_main_v2 (F := Ideal) x0 ix0) c127) * c127) (x0 (ix2 b (col fp k))))
        + x2 (ix3 0 fp k) := by
  have e : idx_main_v13 (ix2 (rowOf b fp) k) = ix3 b fp k := by
    funext a
    match a with
    | ⟨0, _⟩ => exact Fin.ext (by show ((b.val * 8 + fp.val) * 256 + k.val) / 2048 = b.val; omega)
    | ⟨1, _⟩ => exact Fin.ext (by show ((b.val * 8 + fp.val) * 256 + k.val) / 256 % 8 = fp.val; omega)
    | ⟨2, _⟩ => exact Fin.ext (by show ((b.val * 8 + fp.val) * 256 + k.val) % 256 = k.val; omega)
  rw [val_main_v13_apply, e, val_main_v12_apply, v7_eq, v11_eq]
  rfl

/-! ## The ranges and the mask -/

/-- The lower range bound of output fold `f` at lane `k`, scaled. -/
theorem v17_eq (f : Fin 8) (k : Fin 256) :
    val_main_v17 (F := Ideal) x0 x3 (ix2 f k)
      = x3 (ix3 0 f k) * (Ideal.div (val_main_v2 (F := Ideal) x0 ix0) c127 * c127) := by
  rw [val_main_v17_apply, val_main_v14_apply, val_main_v16_apply, v8_eq]
  exact congrArg (fun t => x3 t * _) (idx_v9 f k)

/-- The upper range bound of output fold `f` at lane `k`, scaled. -/
theorem v24_eq (f : Fin 8) (k : Fin 256) :
    val_main_v24 (F := Ideal) x0 x4 (ix2 f k)
      = x4 (ix3 0 f k) * (Ideal.div (val_main_v2 (F := Ideal) x0 ix0) c127 * c127) := by
  rw [val_main_v24_apply, val_main_v15_apply, val_main_v23_apply, v8_eq]
  exact congrArg (fun t => x4 t * _) (idx_v9 f k)

/-- The entry compared against the lower bound: the flattened array broadcast over the output folds. -/
theorem v20_eq (f : Fin 8) (r : Fin 65536) (k : Fin 256) :
    val_main_v20 (F := Ideal) x0 x2 (ix3 f r k) = val_main_v13 (F := Ideal) x0 x2 (ix2 r k) := by
  rw [val_main_v20_apply, val_main_v19_apply]
  refine congrArg (val_main_v13 (F := Ideal) x0 x2) (funext fun a => ?_)
  match a with
  | ⟨0, _⟩ => rfl
  | ⟨1, _⟩ => rfl

theorem v27_eq (f : Fin 8) (r : Fin 65536) (k : Fin 256) :
    val_main_v27 (F := Ideal) x0 x2 (ix3 f r k) = val_main_v13 (F := Ideal) x0 x2 (ix2 r k) := by
  rw [val_main_v27_apply, val_main_v26_apply]
  refine congrArg (val_main_v13 (F := Ideal) x0 x2) (funext fun a => ?_)
  match a with
  | ⟨0, _⟩ => rfl
  | ⟨1, _⟩ => rfl

/-- The lower bound broadcast over the rows. -/
theorem v21_eq (f : Fin 8) (r : Fin 65536) (k : Fin 256) :
    val_main_v21 (F := Ideal) x0 x3 (ix3 f r k) = val_main_v17 (F := Ideal) x0 x3 (ix2 f k) := by
  rw [val_main_v21_apply, val_main_v18_apply]
  refine congrArg (val_main_v17 (F := Ideal) x0 x3) (funext fun a => ?_)
  match a with
  | ⟨0, _⟩ => rfl
  | ⟨1, _⟩ => rfl

/-- The upper bound broadcast over the rows. -/
theorem v28_eq (f : Fin 8) (r : Fin 65536) (k : Fin 256) :
    val_main_v28 (F := Ideal) x0 x4 (ix3 f r k) = val_main_v24 (F := Ideal) x0 x4 (ix2 f k) := by
  rw [val_main_v28_apply, val_main_v25_apply]
  refine congrArg (val_main_v24 (F := Ideal) x0 x4) (funext fun a => ?_)
  match a with
  | ⟨0, _⟩ => rfl
  | ⟨1, _⟩ => rfl

/-- The value kept when the entry is in range. -/
theorem call1_v1_eq (f : Fin 8) (r : Fin 65536) (k : Fin 256) :
    val_main_call1_v1 (F := Ideal) x0 x2 (ix3 f r k) = val_main_v13 (F := Ideal) x0 x2 (ix2 r k) := by
  rw [val_main_call1_v1_apply]
  refine congrArg (val_main_v13 (F := Ideal) x0 x2) (funext fun a => ?_)
  match a with
  | ⟨0, _⟩ => rfl
  | ⟨1, _⟩ => rfl

/-- The value written when the entry is out of range: zero. -/
theorem call1_v2_eq (i : S8x65536x256.Idx) : val_main_call1_v2 (F := Ideal) i = (0 : EReal) := by
  rw [val_main_call1_v2_apply, val_main_call1_v0_apply, val_main_cst_4_apply]
  exact Ideal.ofBits_zero_f32

/-- The masked entry of output fold `f`, flattened row `r`, lane `k`. -/
theorem v31_eq (f : Fin 8) (r : Fin 65536) (k : Fin 256) :
    val_main_v31 (F := Ideal) x0 x2 x3 x4 (ix3 f r k)
      = msk (val_main_v17 (F := Ideal) x0 x3 (ix2 f k)) (val_main_v24 (F := Ideal) x0 x4 (ix2 f k))
          (val_main_v13 (F := Ideal) x0 x2 (ix2 r k)) := by
  rw [val_main_v31_apply, val_main_v30_apply, val_main_v22_apply, val_main_v29_apply, v20_eq, v21_eq, v27_eq, v28_eq,
    call1_v1_eq, call1_v2_eq]
  rfl

/-! ## The contraction and the fold sum -/

/-- The transposed weights at `(f, k, o)` are the weights at `(f, o, k)`. -/
theorem v32_eq (f : Fin 8) (k o : Fin 256) :
    val_main_v32 (F := Ideal) x1 (ix3 f k o) = x1 (ix3 f o k) := by
  rw [val_main_v32_apply]
  refine congrArg x1 (funext fun a => ?_)
  match a with
  | ⟨0, _⟩ => rfl
  | ⟨1, _⟩ => rfl
  | ⟨2, _⟩ => rfl

/-- The batched contraction at `(f, r, o)`: the masked row `r` of output fold `f` against row `o` of `W[f]`. -/
theorem v33_eq (f : Fin 8) (r : Fin 65536) (o : Fin 256) :
    val_main_v33 (F := Ideal) x0 x1 x2 x3 x4 (ix3 f r o)
      = ∑ k : Fin 256, val_main_v31 (F := Ideal) x0 x2 x3 x4 (ix3 f r k) * x1 (ix3 f o k) := by
  rw [val_main_v33_apply]
  refine Finset.sum_congr rfl fun k _ => ?_
  have el : lidx_main_v33 (ix3 f r o) k = ix3 f r k := funext fun a =>
    match a with
    | ⟨0, _⟩ => rfl
    | ⟨1, _⟩ => rfl
    | ⟨2, _⟩ => rfl
  have er : ridx_main_v33 (ix3 f r o) k = ix3 f k o := funext fun a =>
    match a with
    | ⟨0, _⟩ => rfl
    | ⟨1, _⟩ => rfl
    | ⟨2, _⟩ => rfl
  rw [el, er, v32_eq]

/-- Output entry `(b, j)`: zero plus the sum over the eight input folds of the contraction at row `b * 8 + fp`. -/
theorem v37_eq (b : Fin 8192) (j : Fin 2048) :
    val_main_v37 (F := Ideal) x0 x1 x2 x3 x4 (ix2 b j)
      = (0 : EReal) + ∑ fp : Fin 8, val_main_v33 (F := Ideal) x0 x1 x2 x3 x4 (ix3 (foldOf j) (rowOf b fp) (laneOf j)) := by
  have e37 : idx_main_v36 (idx_main_v37 (ix2 b j)) = ix3 (foldOf j) b (laneOf j) := by
    funext a
    match a with
    | ⟨0, _⟩ => exact Fin.ext (by show (b.val * 2048 + j.val) / 256 % 8 = j.val / 256; omega)
    | ⟨1, _⟩ => exact Fin.ext (by show (b.val * 2048 + j.val) / 2048 = b.val; omega)
    | ⟨2, _⟩ => exact Fin.ext (by show (b.val * 2048 + j.val) % 256 = j.val % 256; omega)
  rw [val_main_v37_apply, val_main_v36_apply, e37, val_main_v35_apply, val_main_cst_5_apply]
  refine congrArg₂ (· + ·) Ideal.ofBits_zero_f32 (Finset.sum_congr rfl fun fp _ => ?_)
  rw [val_main_v34_apply]
  refine congrArg (val_main_v33 (F := Ideal) x0 x1 x2 x3 x4) (funext fun a => ?_)
  have hf : (foldOf j).val = j.val / 256 := rfl
  have hl : (laneOf j).val = j.val % 256 := rfl
  generalize foldOf j = f at hf
  generalize laneOf j = o at hl
  match a with
  | ⟨0, _⟩ => exact Fin.ext (by show (((f.val * 8192 + b.val) * 8 + fp.val) * 256 + o.val) / 16777216 = f.val; omega)
  | ⟨1, _⟩ => exact Fin.ext (by show (((f.val * 8192 + b.val) * 8 + fp.val) * 256 + o.val) / 256 % 65536 = b.val * 8 + fp.val; omega)
  | ⟨2, _⟩ => exact Fin.ext (by show (((f.val * 8192 + b.val) * 8 + fp.val) * 256 + o.val) % 256 = o.val; omega)

/-! ## The reference is the per-fold contraction form -/

/-- The reference's result is `rform` at the reference's own maximum-reduce. -/
theorem ref_eq :
    val_main_v37 (F := Ideal) x0 x1 x2 x3 x4
      = rform (val_main_v2 (F := Ideal) x0 ix0) x0 x1 x2 x3 x4 := by
  funext i
  obtain ⟨b, j, rfl⟩ : ∃ (b : Fin 8192) (j : Fin 2048), i = ix2 b j := ⟨i 0, i 1, eq_ix2 i⟩
  rw [rform_ix2, v37_eq]
  unfold rformAt
  refine congrArg ((0 : EReal) + ·) (Finset.sum_congr rfl fun fp _ => ?_)
  rw [v33_eq]
  refine Finset.sum_congr rfl fun k _ => ?_
  rw [v31_eq, v17_eq, v24_eq, v13_eq]

end Cert.RefForm

end
-- ==== Proof.Bridge.lean ====
/-
  The two arrangements of the folded linear layer agree on real inputs.

  With every entry of the input a real number, its largest magnitude M is a nonnegative real, so
  (M / 127) * 127 = M and -(M / 127) * 127 = -M, and the clamp of an entry to [-M, M] is the entry itself.
  What is left is a double sum of products of reals: the masked entries are reals (a masked entry is zero
  or the entry), the weights are reals, and over the reals the sum over folds of the contractions is the
  contraction of the sum over folds (exchange the two sums, then factor the weight out of the inner one).
-/
import proofs.«157387_j34823594836361_1_alg».proof.Proof.Spec
import Idealize.ShloMosaic.PureOps.Ideal
import Idealize.ShloMosaic.PureOps.Ideal.Laws

noncomputable section

namespace Cert.Bridge

open Idealize.ShloMosaic Idealize.ShloMosaic.ValueIdx Cert.FoldSpec

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The float pattern of 127 is the real number 127. -/
theorem c127_eq : c127 = ((127 : ℝ) : EReal) := by
  simp [c127, Ideal.ofBits, Ideal.ieee, -EReal.coe_mul]; norm_num

/-- Dividing a real by 127 and multiplying by 127 gives it back. -/
theorem scale_eq (m : ℝ) : Ideal.div (m : EReal) c127 * c127 = (m : EReal) := by
  rw [c127_eq, Ideal.div_coe (by norm_num : (127 : ℝ) ≠ 0), ← EReal.coe_mul, ← EReal.coe_mul]
  congr 1; ring

/-- The negated quotient times 127 is the negated real. -/
theorem neg_scale_eq (m : ℝ) : -(Ideal.div (m : EReal) c127) * c127 = -(m : EReal) := by
  rw [c127_eq, Ideal.div_coe (by norm_num : (127 : ℝ) ≠ 0), ← EReal.coe_mul, ← EReal.coe_neg, ← EReal.coe_mul,
    ← EReal.coe_neg]
  congr 1; ring

/-- The largest magnitude of a real input is a nonnegative real that bounds every entry from both sides. -/
theorem maxAbs_real (x : FVec Ideal SX .f32) (hx : ∀ i, ∃ r : ℝ, x i = (r : EReal)) :
    ∃ m : ℝ, maxAbs x = (m : EReal) ∧ 0 ≤ m := by
  obtain ⟨i0, -, h0⟩ := Finset.exists_mem_eq_sup (Finset.univ : Finset SX.Idx) ⟨ix2 0 0, Finset.mem_univ _⟩
    (fun i => max (x i) (-(x i)))
  obtain ⟨r, hr⟩ := hx i0
  refine ⟨max r (-r), ?_, le_max_iff.mpr (by rcases le_total 0 r with h | h; exact Or.inl h; exact Or.inr (by linarith))⟩
  unfold maxAbs
  rw [h0, hr, ← EReal.coe_neg, EReal.coe_strictMono.monotone.map_max]

theorem le_maxAbs (x : FVec Ideal SX .f32) (i : SX.Idx) : x i ≤ maxAbs x :=
  le_trans (le_max_left _ _) (Finset.le_sup (f := fun i => max (x i) (-(x i))) (Finset.mem_univ i))

theorem neg_maxAbs_le (x : FVec Ideal SX .f32) (i : SX.Idx) : -(maxAbs x) ≤ x i := by
  have h : -(x i) ≤ maxAbs x :=
    le_trans (le_max_right _ _) (Finset.le_sup (f := fun i => max (x i) (-(x i))) (Finset.mem_univ i))
  exact EReal.neg_le.mp h

/-- The clamp of an entry to the range of the largest magnitude is the entry. -/
theorem clamp_eq (x : FVec Ideal SX .f32) (i : SX.Idx) : min (maxAbs x) (max (-(maxAbs x)) (x i)) = x i := by
  rw [max_eq_right (neg_maxAbs_le x i), min_eq_right (le_maxAbs x i)]

/-- A masked entry is zero or the entry. -/
theorem msk_cases (lo hi v : Ideal .f32) : msk lo hi v = 0 ∨ msk lo hi v = v := by
  unfold msk Scalar.select
  split_ifs
  · exact Or.inl rfl
  · exact Or.inr rfl

/-- So a masked real is a real. -/
theorem msk_real (lo hi v : Ideal .f32) (hv : ∃ r : ℝ, v = (r : EReal)) : ∃ r : ℝ, msk lo hi v = (r : EReal) := by
  rcases msk_cases lo hi v with h | h
  · exact ⟨0, by rw [h, EReal.coe_zero]⟩
  · obtain ⟨r, hr⟩ := hv; exact ⟨r, by rw [h, hr]⟩

/-- Over reals, summing the contractions of the rows of a family is contracting the sum of the rows. -/
theorem sum_swap_mul {ι κ : Type} [Fintype ι] [Fintype κ] (a : ι → κ → EReal) (w : κ → EReal)
    (ha : ∀ i k, ∃ r : ℝ, a i k = (r : EReal)) (hw : ∀ k, ∃ r : ℝ, w k = (r : EReal)) :
    (0 : EReal) + ∑ i, ∑ k, a i k * w k = ∑ k, (∑ i, a i k) * w k := by
  choose ar har using ha
  choose wr hwr using hw
  simp only [har, hwr, ← EReal.coe_mul, ← coe_sum, zero_add]
  congr 1
  rw [Finset.sum_comm]
  simp only [Finset.sum_mul]

/-- The two arrangements agree at every entry. -/
theorem bridgeAt (x : FVec Ideal SX .f32) (W : FVec Ideal SW .f32) (pe mn mx : FVec Ideal SP .f32)
    (hx : ∀ i, ∃ r : ℝ, x i = (r : EReal)) (hW : ∀ i, ∃ r : ℝ, W i = (r : EReal))
    (hpe : ∀ i, ∃ r : ℝ, pe i = (r : EReal)) (b : Fin 8192) (j : Fin 2048) :
    rformAt (maxAbs x) x W pe mn mx b j = kformAt (maxAbs x) x W pe mn mx b j := by
  obtain ⟨m, hm, -⟩ := maxAbs_real x hx
  have hs : Ideal.div (maxAbs x) c127 * c127 = maxAbs x := by rw [hm]; exact scale_eq m
  have hns : -(Ideal.div (maxAbs x) c127) * c127 = -(maxAbs x) := by rw [hm]; exact neg_scale_eq m
  unfold rformAt kformAt
  simp only [hs, hns, clamp_eq]
  refine sum_swap_mul
    (fun fp k => msk (mn (ix3 0 (foldOf j) k) * maxAbs x) (mx (ix3 0 (foldOf j) k) * maxAbs x)
      (x (ix2 b (col fp k)) + pe (ix3 0 fp k)))
    (fun k => W (ix3 (foldOf j) (laneOf j) k)) (fun fp k => msk_real _ _ _ ?_) (fun k => hW _)
  obtain ⟨r1, h1⟩ := hx (ix2 b (col fp k))
  obtain ⟨r2, h2⟩ := hpe (ix3 0 fp k)
  exact ⟨r1 + r2, by rw [h1, h2, EReal.coe_add]⟩

/-- The two arrangements of the folded linear layer are one array on real inputs. -/
theorem bridge (x : FVec Ideal Cert.FoldSpec.SX .f32) (W : FVec Ideal Cert.FoldSpec.SW .f32)
    (pe mn mx : FVec Ideal Cert.FoldSpec.SP .f32)
    (hx : ∀ i, ∃ r : ℝ, x i = (r : EReal)) (hW : ∀ i, ∃ r : ℝ, W i = (r : EReal))
    (hpe : ∀ i, ∃ r : ℝ, pe i = (r : EReal))
    (hmn : ∀ i, ∃ r : ℝ, mn i = (r : EReal)) (hmx : ∀ i, ∃ r : ℝ, mx i = (r : EReal)) :
    Cert.FoldSpec.rform (Cert.FoldSpec.maxAbs x) x W pe mn mx
      = Cert.FoldSpec.kform (Cert.FoldSpec.maxAbs x) x W pe mn mx := by
  funext i
  exact bridgeAt x W pe mn mx hx hW hpe (i 0) (i 1)

end Cert.Bridge

end
-- ==== Proof.Finite.lean ====
/-
  From the precondition to real inputs.

  The precondition is the conjunction, over the five arguments, of "every entry's magnitude is below +∞".
  A magnitude max(v, -v) of an extended real is below +∞ exactly when v is neither infinity, that is,
  when v is a real number.
-/
import proofs.«157387_j34823594836361_1_alg».proof.Proof.Spec
import proofs.«157387_j34823594836361_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.FoldSpec

/-- The scalar shape has one index. -/
instance : Subsingleton Cert.Pre_finite_inputs.S_.Idx := ⟨fun _ _ => funext fun d => d.elim0⟩

/-- The float pattern 0x7F800000 is +∞. -/
theorem inf_eq : Ideal.ofBits .f32 0x7F800000#32 = (⊤ : EReal) := by simp [Ideal.ofBits, Ideal.ieee]

/-- An extended real whose magnitude is below +∞ is a real. -/
theorem real_of_abs_lt (v : EReal)
    (h : Ideal.cmp .olt (max v (-v)) (Ideal.ofBits .f32 0x7F800000#32) = 1#1) : ∃ r : ℝ, v = (r : EReal) := by
  rw [inf_eq] at h
  induction v using EReal.rec with
  | bot => simp [Ideal.cmp] at h
  | coe r => exact ⟨r, rfl⟩
  | top => simp [Ideal.cmp] at h

/-- Under the precondition every entry of every argument is a real. -/
theorem real_of_pre [Cert.Pre_finite_inputs.Facts] (x0 : FVec Ideal SX .f32) (x1 : FVec Ideal SW .f32)
    (x2 x3 x4 : FVec Ideal SP .f32)
    (h : Cert.Pre_finite_inputs.fn (F := Ideal) x0 x1 x2 x3 x4 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) := by
  have h0 := congrFun h ValueIdx.ix0
  dsimp only [Cert.Pre_finite_inputs.fn, Cert.Pre_finite_inputs.fn_part1, andi] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i)⟩

end Cert.Finite

end
-- ==== Proof.lean ====
/-
  A folded linear layer: the kernel against its reference, over the extended reals.

  A row of the input is eight folds of 256 lanes.  Both programs take the largest magnitude `M` of the input,
  add a per-fold offset to every entry, keep an entry of input fold `fp` for OUTPUT fold `f` only when it
  lies between `mn[f]·M` and `mx[f]·M` (else zero), and contract the kept entries with the weights `W[f]`.

  * The kernel takes `M` in a first pass over eight row blocks (a running maximum from zero); in a second pass
    it sums the kept entries over the eight input folds FIRST and contracts that one row with `W[f]`.
  * The reference clamps the input to `[-(M/127)·127, (M/127)·127]` — no change, since every magnitude is at most
    `M` and `(M/127)·127 = M` for a real `M` —, contracts every input fold with `W[f]` separately, and sums the
    eight results from zero.

  With every input finite each term is a real number, so the two orders of summation agree: that is the one
  place where the precondition is used.  The three frames are the programs' runs with the results dropped; the
  idealization rewrote no operation, so `preserves` has nothing to state.
-/
import proofs.«157387_j34823594836361_1_alg».proof.Defs
import proofs.«157387_j34823594836361_1_alg».proof.Proof.Gen.Kernel
import proofs.«157387_j34823594836361_1_alg».proof.Proof.Gen.KernelIdeal
import proofs.«157387_j34823594836361_1_alg».proof.Proof.Gen.ReferenceIdeal
import proofs.«157387_j34823594836361_1_alg».proof.Proof.Gen.ReferenceIdeal.Run
import proofs.«157387_j34823594836361_1_alg».proof.Proof.Gen.ReferenceIdeal.Read
import proofs.«157387_j34823594836361_1_alg».proof.Proof.Gen.Pre_finite_inputs
import proofs.«157387_j34823594836361_1_alg».proof.Proof.KRun
import proofs.«157387_j34823594836361_1_alg».proof.Proof.KIFinal
import proofs.«157387_j34823594836361_1_alg».proof.Proof.RefMax
import proofs.«157387_j34823594836361_1_alg».proof.Proof.RefForm
import proofs.«157387_j34823594836361_1_alg».proof.Proof.Bridge
import proofs.«157387_j34823594836361_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs, faults nowhere and leaves its five arguments as launched. -/
theorem frame_k : Cert.frame_Kernel := fun m ρ _ => Cert.Kernel.Run.frame m ρ

/-- So does the idealized kernel. -/
theorem frame_ki : Cert.frame_KernelIdeal := fun m ρ _ => Cert.KernelIdeal.Run.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the idealized kernel's result array and the reference's are one
    function of the arguments: the kernel's is the fold-sum-then-contract form at the scale `maxAbs x`, the
    reference's the contract-then-fold-sum form at the scale it reduces to, which is `maxAbs x` again; finite
    inputs make the two forms equal. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Cert.Finite.real_of_pre _ _ _ _ _ (hpre c)
  rw [Cert.ReferenceIdeal.Read.val_main_v37_eq, (hagree c).1, (hagree c).2.1, (hagree c).2.2.1, (hagree c).2.2.2.1, (hagree c).2.2.2.2,
    Cert.RefForm.ref_eq, Cert.RefForm.ref_max]
  exact Cert.Bridge.bridge _ _ _ _ _ h0 h1 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
